-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768x256 : Shape := ⟨2, ![32768, 256]⟩
abbrev S256x1024 : Shape := ⟨2, ![256, 1024]⟩
abbrev S256 : Shape := ⟨1, ![256]⟩
abbrev S256x256 : Shape := ⟨2, ![256, 256]⟩
abbrev S2x256 : Shape := ⟨2, ![2, 256]⟩
abbrev S2 : Shape := ⟨1, ![2]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg21 : FVec F S2x256 .f32) (main_arg22 : FVec F S2 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S2x256 .f32 := Host.absf main_arg21
  let main_cst_40 : FVec F S_ .f32 := constant S_ .f32 0x7F800000#32
  let main_v105 : FVec F S2x256 .f32 := broadcastInDim S2x256 ![] bcast_S_S2x256 main_cst_40
  let main_v106 : IVec S2x256 1 := cmpf .olt main_v104 main_v105
  let main_c_41 : IVec S_ 1 := constantI S_ 1 1#1
  let main_v107 : IVec S_ 1 := (fun x v => Host.reduce IntOp.andi x v reducesTo_S2x256_S_d0_1 h_S_) main_v106 main_c_41
  let main_v108 : IVec S_ 1 := andi main_v103 main_v107
  let main_v109 : FVec F S2 .f32 := Host.absf main_arg22
  let main_cst_42 : FVec F S_ .f32 := constant S_ .f32 0x7F800000#32
  let main_v110 : FVec F S2 .f32 := broadcastInDim S2 ![] bcast_S_S2 main_cst_42
  let main_v111 : IVec S2 1 := cmpf .olt main_v109 main_v110
  let main_c_43 : IVec S_ 1 := constantI S_ 1 1#1
  let main_v112 : IVec S_ 1 := (fun x v => Host.reduce IntOp.andi x v reducesTo_S2_S_d0 h_S_) main_v111 main_c_43
  let main_v113 : IVec S_ 1 := andi main_v108 main_v112
  main_v113

def fn_part5 {F : FTy → Type} [FloatOps F] (main_arg18 : FVec F S256 .f32) (main_arg19 : FVec F S256x256 .f32) (main_arg20 : FVec F S256 .f32) (main_arg21 : FVec F S2x256 .f32) (main_arg22 : FVec F S2 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S2x256 .f32) (main_arg22 : FVec F S2 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S2x256 .f32) (main_arg22 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S2x256 .f32) (main_arg22 : FVec F S2 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S2x256 .f32) (main_arg22 : FVec F S2 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S32768x1024 .f32) (main_arg1 : FVec F S32768x256 .f32) (main_arg2 : FVec F S32768x256 .f32) (main_arg3 : FVec F S256x1024 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S2x256 .f32) (main_arg22 : FVec F S2 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S32768x1024 : Shape := ⟨2, ![32768, 1024]⟩
abbrev S32768x256 : Shape := ⟨2, ![32768, 256]⟩
abbrev S256x1024 : Shape := ⟨2, ![256, 1024]⟩
abbrev S256 : Shape := ⟨1, ![256]⟩
abbrev S256x256 : Shape := ⟨2, ![256, 256]⟩
abbrev S2x256 : Shape := ⟨2, ![2, 256]⟩
abbrev S2 : Shape := ⟨1, ![2]⟩
abbrev S1024x256 : Shape := ⟨2, ![1024, 256]⟩
abbrev S1x256 : Shape := ⟨2, ![1, 256]⟩
abbrev S1x1024 : Shape := ⟨2, ![1, 1024]⟩
abbrev S256x2 : Shape := ⟨2, ![256, 2]⟩
abbrev S1x2 : Shape := ⟨2, ![1, 2]⟩
abbrev S32768x2 : Shape := ⟨2, ![32768, 2]⟩
abbrev S1024x1024 : Shape := ⟨2, ![1024, 1024]⟩
abbrev S1024x2 : Shape := ⟨2, ![1024, 2]⟩
abbrev S1024 : Shape := ⟨1, ![1024]⟩
abbrev S1024x1 : Shape := ⟨2, ![1024, 1]⟩

abbrev nBuf : Space → Nat
  | .hbm => 60
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S256x1024, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S256x256, .f32⟩
  | .hbm, ⟨20, _⟩ => ⟨S256, .f32⟩
  | .hbm, ⟨21, _⟩ => ⟨S2x256, .f32⟩
  | .hbm, ⟨22, _⟩ => ⟨S2, .f32⟩
  | .hbm, ⟨23, _⟩ => ⟨S1024x256, .f32⟩
  | .hbm, ⟨24, _⟩ => ⟨S1024x256, .bf16⟩
  | .hbm, ⟨25, _⟩ => ⟨S256x256, .f32⟩
  | .hbm, ⟨26, _⟩ => ⟨S256x256, .bf16⟩
  | .hbm, ⟨27, _⟩ => ⟨S256x256, .f32⟩
  | .hbm, ⟨28, _⟩ => ⟨S256x256, .bf16⟩
  | .hbm, ⟨29, _⟩ => ⟨S256x256, .f32⟩
  | .hbm, ⟨30, _⟩ => ⟨S256x256, .bf16⟩
  | .hbm, ⟨31, _⟩ => ⟨S256x256, .f32⟩
  | .hbm, ⟨32, _⟩ => ⟨S256x256, .bf16⟩
  | .hbm, ⟨33, _⟩ => ⟨S256x1024, .bf16⟩
  | .hbm, ⟨34, _⟩ => ⟨S256x256, .f32⟩
  | .hbm, ⟨35, _⟩ => ⟨S256x256, .bf16⟩
  | .hbm, ⟨36, _⟩ => ⟨S256x256, .f32⟩
  | .hbm, ⟨37, _⟩ => ⟨S256x256, .bf16⟩
  | .hbm, ⟨38, _⟩ => ⟨S256x256, .f32⟩
  | .hbm, ⟨39, _⟩ => ⟨S256x256, .bf16⟩
  | .hbm, ⟨40, _⟩ => ⟨S256x256, .f32⟩
  | .hbm, ⟨41, _⟩ => ⟨S256x256, .bf16⟩
  | .hbm, ⟨42, _⟩ => ⟨S256x1024, .bf16⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x1024, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x1024, .f32⟩
  | .hbm, ⟨53, _⟩ => ⟨S256x2, .f32⟩
  | .hbm, ⟨54, _⟩ => ⟨S256x2, .bf16⟩
  | .hbm, ⟨55, _⟩ => ⟨S1x256, .f32⟩
  | .hbm, ⟨56, _⟩ => ⟨S1x2, .f32⟩
  | .hbm, ⟨57, _⟩ => ⟨S32768x2, .f32⟩
  | .hbm, ⟨58, _⟩ => ⟨S32768x256, .f32⟩
  | .hbm, ⟨59, _⟩ => ⟨S32768x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1x256, .f32⟩
  | .local _ .vmem, ⟨8, _⟩ => ⟨S256x1024, .bf16⟩
  | .local _ .vmem, ⟨9, _⟩ => ⟨S1x1024, .f32⟩
  | .local _ .vmem, ⟨10, _⟩ => ⟨S256x1024, .bf16⟩
  | .local _ .vmem, ⟨11, _⟩ => ⟨S1x1024, .f32⟩
  | .local _ .vmem, ⟨12, _⟩ => ⟨S256x2, .bf16⟩
  | .local _ .vmem, ⟨13, _⟩ => ⟨S1x2, .f32⟩
  | .local _ .vmem, ⟨14, _⟩ => ⟨S1024x2, .f32⟩
  | .local _ .vmem, ⟨15, _⟩ => ⟨S1024x2, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34_0 : Ref sig .tc := ⟨.hbm, 57, rfl⟩
abbrev main_v34_1 : Ref sig .tc := ⟨.hbm, 58, rfl⟩
abbrev main_v34_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S256x1024_S1024x256_1_0 : S256x1024.Transposes [1, 0] S1024x256
  bitsLt_bf16_f32 : FTy.bits .bf16 < FTy.bits .f32
  transposes_S256x256_S256x256_1_0 : S256x256.Transposes [1, 0] S256x256
  concatenates_S256x256_S256x256_S256x256_S256x256_S256x1024_d1 : Shape.Concatenates [S256x256, S256x256, S256x256, S256x256] S256x1024 1
  shapeCasts_S256_S1x256 : S256.ShapeCasts S1x256
  concatenates_S1x256_S1x256_S1x256_S1x256_S1x1024_d1 : Shape.Concatenates [S1x256, S1x256, S1x256, S1x256] S1x1024 1
  transposes_S2x256_S256x2_1_0 : S2x256.Transposes [1, 0] S256x2
  shapeCasts_S2_S1x2 : S2.ShapeCasts S1x2
  inb_S1024x1024_S1024x1024_0_0 : ∀ a, (![0, 0] : Fin 2 → Nat) a + S1024x1024.size a ≤ S1024x1024.size a
  h_S1024x1024 : 0 < S1024x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  reduces_S1024x2_S1024 : S1024x2.Reduces [1] S1024
  shapeCasts_S1024_S1024x1 : S1024.ShapeCasts S1024x1
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  dot_S1024x256_S256x2_S1024x2_1_0_0_1_n_n_wf : DotDims.WF S1024x256 S256x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S32768x256.size a
  hwx0_2 : ∀ i : grid0.Coords, EltTy.bits .f32 = 32 ∨ (Rect.block (s := S32768x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x1024.size a
  hwx0_7 : ∀ i : grid0.Coords, EltTy.bits .bf16 = 32 ∨ (Rect.block (s := S256x1024) S256x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x2.size a ≤ S256x2.size a
  hwx0_9 : ∀ i : grid0.Coords, EltTy.bits .bf16 = 32 ∨ (Rect.block (s := S256x2) S256x2.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x2.size a ≤ S32768x2.size a
  hwx0_11 : ∀ i : grid0.Coords, EltTy.bits .f32 = 32 ∨ (Rect.block (s := S32768x2) S1024x2.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x256.size a ≤ S32768x256.size a
  hwx0_12 : ∀ i : grid0.Coords, EltTy.bits .f32 = 32 ∨ (Rect.block (s := S32768x256) S1024x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S32768x256.size a
  hwx0_13 : ∀ i : grid0.Coords, EltTy.bits .f32 = 32 ∨ (Rect.block (s := S32768x256) S1024x256.size (cc0_transform_13 i) (hinb0_13 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S256x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S256x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S1x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34_0) S1024x2.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v34_1) S1024x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v34_2) S1024x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768x256 : Shape := ⟨2, ![32768, 256]⟩
abbrev S256x1024 : Shape := ⟨2, ![256, 1024]⟩
abbrev S256 : Shape := ⟨1, ![256]⟩
abbrev S256x256 : Shape := ⟨2, ![256, 256]⟩
abbrev S2x256 : Shape := ⟨2, ![2, 256]⟩
abbrev S2 : Shape := ⟨1, ![2]⟩
abbrev S1024x256 : Shape := ⟨2, ![1024, 256]⟩
abbrev S1x256 : Shape := ⟨2, ![1, 256]⟩
abbrev S_ : Shape := ⟨0, ![]⟩
abbrev S256x2 : Shape := ⟨2, ![256, 2]⟩
abbrev S32768x2 : Shape := ⟨2, ![32768, 2]⟩
abbrev S1x2 : Shape := ⟨2, ![1, 2]⟩
abbrev S32768 : Shape := ⟨1, ![32768]⟩
abbrev S32768x1 : Shape := ⟨2, ![32768, 1]⟩

abbrev nBuf : Space → Nat
  | .hbm => 122
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S256x1024, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S256x256, .f32⟩
  | .hbm, ⟨20, _⟩ => ⟨S256, .f32⟩
  | .hbm, ⟨21, _⟩ => ⟨S2x256, .f32⟩
  | .hbm, ⟨22, _⟩ => ⟨S2, .f32⟩
  | .hbm, ⟨23, _⟩ => ⟨S1024x256, .f32⟩
  | .hbm, ⟨24, _⟩ => ⟨S32768x256, .f32⟩
  | .hbm, ⟨25, _⟩ => ⟨S1x256, .f32⟩
  | .hbm, ⟨26, _⟩ => ⟨S32768x256, .f32⟩
  | .hbm, ⟨27, _⟩ => ⟨S32768x256, .f32⟩
  | .hbm, ⟨28, _⟩ => ⟨S256x256, .f32⟩
  | .hbm, ⟨29, _⟩ => ⟨S32768x256, .f32⟩
  | .hbm, ⟨30, _⟩ => ⟨S1x256, .f32⟩
  | .hbm, ⟨31, _⟩ => ⟨S32768x256, .f32⟩
  | .hbm, ⟨32, _⟩ => ⟨S32768x256, .f32⟩
  | .hbm, ⟨33, _⟩ => ⟨S256x256, .f32⟩
  | .hbm, ⟨34, _⟩ => ⟨S32768x256, .f32⟩
  | .hbm, ⟨35, _⟩ => ⟨S32768x256, .f32⟩
  | .hbm, ⟨36, _⟩ => ⟨S1x256, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S_, .f32⟩
  | .hbm, ⟨42, _⟩ => ⟨S32768x256, .f32⟩
  | .hbm, ⟨43, _⟩ => ⟨S32768x256, .f32⟩
  | .hbm, ⟨44, _⟩ => ⟨S_, .f32⟩
  | .hbm, ⟨45, _⟩ => ⟨S32768x256, .f32⟩
  | .hbm, ⟨46, _⟩ => ⟨S32768x256, .f32⟩
  | .hbm, ⟨47, _⟩ => ⟨S256x256, .f32⟩
  | .hbm, ⟨48, _⟩ => ⟨S32768x256, .f32⟩
  | .hbm, ⟨49, _⟩ => ⟨S1x256, .f32⟩
  | .hbm, ⟨50, _⟩ => ⟨S32768x256, .f32⟩
  | .hbm, ⟨51, _⟩ => ⟨S32768x256, .f32⟩
  | .hbm, ⟨52, _⟩ => ⟨S256x256, .f32⟩
  | .hbm, ⟨53, _⟩ => ⟨S32768x256, .f32⟩
  | .hbm, ⟨54, _⟩ => ⟨S32768x256, .f32⟩
  | .hbm, ⟨55, _⟩ => ⟨S1x256, .f32⟩
  | .hbm, ⟨56, _⟩ => ⟨S32768x256, .f32⟩
  | .hbm, ⟨57, _⟩ => ⟨S32768x256, .f32⟩
  | .hbm, ⟨58, _⟩ => ⟨S32768x256, .f32⟩
  | .hbm, ⟨59, _⟩ => ⟨S32768x256, .f32⟩
  | .hbm, ⟨60, _⟩ => ⟨S_, .f32⟩
  | .hbm, ⟨61, _⟩ => ⟨S32768x256, .f32⟩
  | .hbm, ⟨62, _⟩ => ⟨S32768x256, .f32⟩
  | .hbm, ⟨63, _⟩ => ⟨S_, .f32⟩
  | .hbm, ⟨64, _⟩ => ⟨S32768x256, .f32⟩
  | .hbm, ⟨65, _⟩ => ⟨S32768x256, .f32⟩
  | .hbm, ⟨66, _⟩ => ⟨S256x256, .f32⟩
  | .hbm, ⟨67, _⟩ => ⟨S32768x256, .f32⟩
  | .hbm, ⟨68, _⟩ => ⟨S1x256, .f32⟩
  | .hbm, ⟨69, _⟩ => ⟨S32768x256, .f32⟩
  | .hbm, ⟨70, _⟩ => ⟨S32768x256, .f32⟩
  | .hbm, ⟨71, _⟩ => ⟨S256x256, .f32⟩
  | .hbm, ⟨72, _⟩ => ⟨S32768x256, .f32⟩
  | .hbm, ⟨73, _⟩ => ⟨S32768x256, .f32⟩
  | .hbm, ⟨74, _⟩ => ⟨S1x256, .f32⟩
  | .hbm, ⟨75, _⟩ => ⟨S32768x256, .f32⟩
  | .hbm, ⟨76, _⟩ => ⟨S32768x256, .f32⟩
  | .hbm, ⟨77, _⟩ => ⟨S32768x256, .f32⟩
  | .hbm, ⟨78, _⟩ => ⟨S32768x256, .f32⟩
  | .hbm, ⟨79, _⟩ => ⟨S32768x256, .f32⟩
  | .hbm, ⟨80, _⟩ => ⟨S32768x256, .f32⟩
  | .hbm, ⟨81, _⟩ => ⟨S256x256, .f32⟩
  | .hbm, ⟨82, _⟩ => ⟨S32768x256, .f32⟩
  | .hbm, ⟨83, _⟩ => ⟨S1x256, .f32⟩
  | .hbm, ⟨84, _⟩ => ⟨S32768x256, .f32⟩
  | .hbm, ⟨85, _⟩ => ⟨S32768x256, .f32⟩
  | .hbm, ⟨86, _⟩ => ⟨S256x256, .f32⟩
  | .hbm, ⟨87, _⟩ => ⟨S32768x256, .f32⟩
  | .hbm, ⟨88, _⟩ => ⟨S32768x256, .f32⟩
  | .hbm, ⟨89, _⟩ => ⟨S1x256, .f32⟩
  | .hbm, ⟨90, _⟩ => ⟨S32768x256, .f32⟩
  | .hbm, ⟨91, _⟩ => ⟨S32768x256, .f32⟩
  | .hbm, ⟨92, _⟩ => ⟨S32768x256, .f32⟩
  | .hbm, ⟨93, _⟩ => ⟨S32768x256, .f32⟩
  | .hbm, ⟨94, _⟩ => ⟨S_, .f32⟩
  | .hbm, ⟨95, _⟩ => ⟨S32768x256, .f32⟩
  | .hbm, ⟨96, _⟩ => ⟨S32768x256, .f32⟩
  | .hbm, ⟨97, _⟩ => ⟨S_, .f32⟩
  | .hbm, ⟨98, _⟩ => ⟨S32768x256, .f32⟩
  | .hbm, ⟨99, _⟩ => ⟨S32768x256, .f32⟩
  | .hbm, ⟨100, _⟩ => ⟨S32768x256, .f32⟩
  | .hbm, ⟨101, _⟩ => ⟨S32768x256, .f32⟩
  | .hbm, ⟨102, _⟩ => ⟨S256x2, .f32⟩
  | .hbm, ⟨103, _⟩ => ⟨S32768x2, .f32⟩
  | .hbm, ⟨104, _⟩ => ⟨S1x2, .f32⟩
  | .hbm, ⟨105, _⟩ => ⟨S32768x2, .f32⟩
  | .hbm, ⟨106, _⟩ => ⟨S32768x2, .f32⟩
  | .hbm, ⟨107, _⟩ => ⟨S_, .f32⟩
  | .hbm, ⟨108, _⟩ => ⟨S32768, .f32⟩
  | .hbm, ⟨109, _⟩ => ⟨S_, .f32⟩
  | .hbm, ⟨110, _⟩ => ⟨S32768, .f32⟩
  | .hbm, ⟨111, _⟩ => ⟨S32768, .f32⟩
  | .hbm, ⟨112, _⟩ => ⟨S32768x1, .f32⟩
  | .hbm, ⟨113, _⟩ => ⟨S32768x2, .f32⟩
  | .hbm, ⟨114, _⟩ => ⟨S32768x2, .f32⟩
  | .hbm, ⟨115, _⟩ => ⟨S32768x2, .f32⟩
  | .hbm, ⟨116, _⟩ => ⟨S_, .f32⟩
  | .hbm, ⟨117, _⟩ => ⟨S32768, .f32⟩
  | .hbm, ⟨118, _⟩ => ⟨S32768x1, .f32⟩
  | .hbm, ⟨119, _⟩ => ⟨S32768x1, .f32⟩
  | .hbm, ⟨120, _⟩ => ⟨S32768x2, .f32⟩
  | .hbm, ⟨121, _⟩ => ⟨S32768x2, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst : Ref sig .tc := ⟨.hbm, 41, rfl⟩
abbrev main_v18 : Ref sig .tc := ⟨.hbm, 42, rfl⟩
abbrev main_v19 : Ref sig .tc := ⟨.hbm, 43, rfl⟩
abbrev main_cst_0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_1 : Ref sig .tc := ⟨.hbm, 60, rfl⟩
abbrev main_v35 : Ref sig .tc := ⟨.hbm, 61, rfl⟩
abbrev main_v36 : Ref sig .tc := ⟨.hbm, 62, rfl⟩
abbrev main_cst_2 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_3 : Ref sig .tc := ⟨.hbm, 94, rfl⟩
abbrev main_v67 : Ref sig .tc := ⟨.hbm, 95, rfl⟩
abbrev main_v68 : Ref sig .tc := ⟨.hbm, 96, rfl⟩
abbrev main_cst_4 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call0_cst : Ref sig .tc := ⟨.hbm, 107, rfl⟩
abbrev main_call0_v0 : Ref sig .tc := ⟨.hbm, 108, rfl⟩
abbrev main_call0_cst_0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_v5 : Ref sig .tc := ⟨.hbm, 114, rfl⟩
abbrev main_call0_v6 : Ref sig .tc := ⟨.hbm, 115, rfl⟩
abbrev main_call0_cst_1 : Ref sig .tc := ⟨.hbm, 116, rfl⟩
abbrev main_call0_v7 : Ref sig .tc := ⟨.hbm, 117, rfl⟩
abbrev main_call0_v8 : Ref sig .tc := ⟨.hbm, 118, rfl⟩
abbrev main_call0_v9 : Ref sig .tc := ⟨.hbm, 119, rfl⟩
abbrev main_call0_v10 : Ref sig .tc := ⟨.hbm, 120, rfl⟩
abbrev main_v78 : Ref sig .tc := ⟨.hbm, 121, rfl⟩

abbrev nD : Nat := 1
abbrev τ : Topo := Topo.v7x

variable {F : FTy → Type} [FloatOps F]

class Facts₀ : Prop where
  transposes_S256x1024_S1024x256_1_0 : S256x1024.Transposes [1, 0] S1024x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  transposes_S256x256_S256x256_1_0 : S256x256.Transposes [1, 0] S256x256
  bcast_S_S32768x256 : S_.BroadcastsInDim S32768x256 (![] : Fin 0 → Fin S32768x256.rank)
  transposes_S2x256_S256x2_1_0 : S2x256.Transposes [1, 0] S256x2
  bcast_S2_S1x2_1 : S2.BroadcastsInDim S1x2 (![1] : Fin 1 → Fin S1x2.rank)
  bcast_S1x2_S32768x2_0_1 : S1x2.BroadcastsInDim S32768x2 (![0, 1] : Fin 2 → Fin S32768x2.rank)
  reducesTo_S32768x2_S32768_d1 : S32768x2.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2_0_1 : S32768x1.BroadcastsInDim S32768x2 (![0, 1] : Fin 2 → Fin S32768x2.rank)
  dot_S32768x1024_S1024x256_S32768x256_1_0_0_1_n_n_wf : DotDims.WF S32768x1024 S1024x256 S32768x256 [1] [0] [0] [1] [] []
  dot_S32768x256_S256x256_S32768x256_1_0_0_1_n_n_wf : DotDims.WF S32768x256 S256x256 S32768x256 [1] [0] [0] [1] [] []
  dot_S32768x256_S256x2_S32768x2_1_0_0_1_n_n_wf : DotDims.WF S32768x256 S256x2 S32768x2 [1] [0] [0] [1] [] []

variable [Facts₀]

def dot_S32768x1024_S1024x256_S32768x256_1_0_0_1_n_n : DotDims S32768x1024 S1024x256 S32768x256 where
  lhsContracting := [1]
  rhsContracting := [0]
  lhsNonContracting := [0]
  rhsNonContracting := [1]
  lhsBatch := []
  rhsBatch := []
  wf := dot_S32768x1024_S1024x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x256_S256x2_S32768x2_1_0_0_1_n_n : DotDims S32768x256 S256x2 S32768x2 where
  lhsContracting := [1]
  rhsContracting := [0]
  lhsNonContracting := [0]
  rhsNonContracting := [1]
  lhsBatch := []
  rhsBatch := []
  wf := dot_S32768x256_S256x2_S32768x2_1_0_0_1_n_n_wf

class Facts : Prop extends Facts₀ where

variable [Facts]
-- ==== Proof.KEntry.lean ====
/-
  The state in which the one pipelined region of the program is entered, and what a run of the region says about
  the argument arrays.

  Before the region the program transposes the weight matrices, casts them to bf16, joins the four gate matrices
  (and the four gate biases) along the lane axis and recasts the bias vectors as rows. None of these writes an
  argument array, so the region finds every argument as launched. The region has 14 windows: three row-tiled
  inputs (1024 rows per grid point), eight resident weight and bias blocks (the whole array, the same at every
  point), and three row-tiled outputs. A window's block at a point is read off its array as the region finds it;
  an input window's staging buffer holds that block whenever the body is called, whether the point fetched it or
  kept it from the point before.
-/
import proofs.«115348_j53669911330986_2_alg».proof.Proof.Gen.Kernel.Launch
import proofs.«115348_j53669911330986_2_alg».proof.Proof.Gen.Kernel.Skeleton
import proofs.«115348_j53669911330986_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the launch memory after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## Every argument array is found as launched -/

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 21. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 22. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block whenever the body is called: a point that does not fetch it
    has the block index of the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block whenever the body is called: a point that does not fetch it
    has the block index of the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block whenever the body is called: a point that does not fetch it
    has the block index of the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block whenever the body is called: a point that does not fetch it
    has the block index of the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block whenever the body is called: a point that does not fetch it
    has the block index of the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block whenever the body is called: a point that does not fetch it
    has the block index of the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block whenever the body is called: a point that does not fetch it
    has the block index of the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block whenever the body is called: a point that does not fetch it
    has the block index of the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block whenever the body is called: a point that does not fetch it
    has the block index of the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block whenever the body is called: a point that does not fetch it
    has the block index of the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block whenever the body is called: a point that does not fetch it
    has the block index of the point before. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run of the region -/

/-- From a run that ends with every window's array at what the proof data computes and every other buffer as the
    region found it: every argument array ends as launched. A staged argument (windows 0, 1, 2) is an input
    window's array, which no write-back touches; the others are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c)⟩) h

end Cert.Kernel.Entry

end
-- ==== Proof.KBody.lean ====
/-
  One call of the kernel body on whole staging buffers.

  The body loads the whole block of each of its eleven input windows, computes, and stores one whole block into
  each of its three output windows (it also loads each output buffer once before storing into it; the loaded value
  is not used). So after the body every input buffer is as it was, and each output buffer holds the stored value:
  the body's arithmetic (the skeleton's payload terms) applied to the loaded input blocks. What an output buffer
  held before does not matter, since the one store covers it.
-/
import proofs.«115348_j53669911330986_2_alg».proof.Proof.Gen.Kernel.Launch
import proofs.«115348_j53669911330986_2_alg».proof.Proof.Gen.Kernel.Skeleton
import proofs.«115348_j53669911330986_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body loads and stores through: each is a whole block -/

abbrev rX : Rect S1024x1024 := Rect.unit (s := S1024x1024) ![0, 0] S1024x1024.size inb_S1024x1024_S1024x1024_0_0
abbrev rR : Rect S1024x256 := Rect.unit (s := S1024x256) ![0, 0] S1024x256.size inb_S1024x256_S1024x256_0_0
abbrev rB : Rect S1x256 := Rect.unit (s := S1x256) ![0, 0] S1x256.size inb_S1x256_S1x256_0_0
abbrev rW : Rect S256x1024 := Rect.unit (s := S256x1024) ![0, 0] S256x1024.size inb_S256x1024_S256x1024_0_0
abbrev rG : Rect S1x1024 := Rect.unit (s := S1x1024) ![0, 0] S1x1024.size inb_S1x1024_S1x1024_0_0
abbrev rE : Rect S256x2 := Rect.unit (s := S256x2) ![0, 0] S256x2.size inb_S256x2_S256x2_0_0
abbrev rT : Rect S1x2 := Rect.unit (s := S1x2) ![0, 0] S1x2.size inb_S1x2_S1x2_0_0
abbrev rL : Rect S1024x2 := Rect.unit (s := S1024x2) ![0, 0] S1024x2.size inb_S1024x2_S1024x2_0_0

/-! ## What the body leaves in each output buffer -/

/-- The log-probabilities' buffer (window 11) after the body. -/
def out0_11 (x0 : Vec F S1024x1024 .f32) (x1 : Vec F S1024x256 .f32) (x2 : Vec F S1024x256 .f32) (x3 : Vec F S1024x256 .bf16) (x4 : Vec F S1x256 .f32) (x5 : Vec F S256x1024 .bf16) (x6 : Vec F S1x1024 .f32) (x7 : Vec F S256x1024 .bf16) (x8 : Vec F S1x1024 .f32) (x9 : Vec F S256x2 .bf16) (x10 : Vec F S1x2 .f32) : Vec F S1024x2 .f32 :=
  View.canon [⟨rL, k0_pay1 (k0_pay7 (k0_pay2 (View.ld x0 rX) (View.ld x3 rR) (View.ld x4 rB) (View.ld x1 rR) (View.ld x5 rW) (View.ld x7 rW) (View.ld x6 rG) (View.ld x8 rG)) (k0_pay3 (View.ld x0 rX) (View.ld x3 rR) (View.ld x4 rB) (View.ld x1 rR) (View.ld x5 rW) (View.ld x7 rW) (View.ld x6 rG) (View.ld x8 rG)) (k0_pay4 (View.ld x0 rX) (View.ld x3 rR) (View.ld x4 rB) (View.ld x1 rR) (View.ld x5 rW) (View.ld x7 rW) (View.ld x6 rG) (View.ld x8 rG)) (Scalar.ofBits .f32 0x3F000000#32) (View.ld x2 rR) (View.ld x9 rE) (View.ld x10 rT)) (k0_pay8 (k0_pay2 (View.ld x0 rX) (View.ld x3 rR) (View.ld x4 rB) (View.ld x1 rR) (View.ld x5 rW) (View.ld x7 rW) (View.ld x6 rG) (View.ld x8 rG)) (k0_pay3 (View.ld x0 rX) (View.ld x3 rR) (View.ld x4 rB) (View.ld x1 rR) (View.ld x5 rW) (View.ld x7 rW) (View.ld x6 rG) (View.ld x8 rG)) (k0_pay4 (View.ld x0 rX) (View.ld x3 rR) (View.ld x4 rB) (View.ld x1 rR) (View.ld x5 rW) (View.ld x7 rW) (View.ld x6 rG) (View.ld x8 rG)) (Scalar.ofBits .f32 0x3F000000#32) (View.ld x2 rR) (View.ld x9 rE) (View.ld x10 rT))⟩]

/-- The new hidden state's buffer (window 12) after the body. -/
def out0_12 (x0 : Vec F S1024x1024 .f32) (x1 : Vec F S1024x256 .f32) (x2 : Vec F S1024x256 .f32) (x3 : Vec F S1024x256 .bf16) (x4 : Vec F S1x256 .f32) (x5 : Vec F S256x1024 .bf16) (x6 : Vec F S1x1024 .f32) (x7 : Vec F S256x1024 .bf16) (x8 : Vec F S1x1024 .f32) (x9 : Vec F S256x2 .bf16) (x10 : Vec F S1x2 .f32) : Vec F S1024x256 .f32 :=
  View.canon [⟨rR, k0_pay6 (k0_pay2 (View.ld x0 rX) (View.ld x3 rR) (View.ld x4 rB) (View.ld x1 rR) (View.ld x5 rW) (View.ld x7 rW) (View.ld x6 rG) (View.ld x8 rG)) (k0_pay3 (View.ld x0 rX) (View.ld x3 rR) (View.ld x4 rB) (View.ld x1 rR) (View.ld x5 rW) (View.ld x7 rW) (View.ld x6 rG) (View.ld x8 rG)) (k0_pay4 (View.ld x0 rX) (View.ld x3 rR) (View.ld x4 rB) (View.ld x1 rR) (View.ld x5 rW) (View.ld x7 rW) (View.ld x6 rG) (View.ld x8 rG)) (Scalar.ofBits .f32 0x3F000000#32) (View.ld x2 rR)⟩]

/-- The new cell state's buffer (window 13) after the body. -/
def out0_13 (x0 : Vec F S1024x1024 .f32) (x1 : Vec F S1024x256 .f32) (x2 : Vec F S1024x256 .f32) (x3 : Vec F S1024x256 .bf16) (x4 : Vec F S1x256 .f32) (x5 : Vec F S256x1024 .bf16) (x6 : Vec F S1x1024 .f32) (x7 : Vec F S256x1024 .bf16) (x8 : Vec F S1x1024 .f32) (x9 : Vec F S256x2 .bf16) (x10 : Vec F S1x2 .f32) : Vec F S1024x256 .f32 :=
  View.canon [⟨rR, k0_pay5 (k0_pay2 (View.ld x0 rX) (View.ld x3 rR) (View.ld x4 rB) (View.ld x1 rR) (View.ld x5 rW) (View.ld x7 rW) (View.ld x6 rG) (View.ld x8 rG)) (k0_pay3 (View.ld x0 rX) (View.ld x3 rR) (View.ld x4 rB) (View.ld x1 rR) (View.ld x5 rW) (View.ld x7 rW) (View.ld x6 rG) (View.ld x8 rG)) (k0_pay4 (View.ld x0 rX) (View.ld x3 rR) (View.ld x4 rB) (View.ld x1 rR) (View.ld x5 rW) (View.ld x7 rW) (View.ld x6 rG) (View.ld x8 rG)) (Scalar.ofBits .f32 0x3F000000#32) (View.ld x2 rR)⟩]

/-- A single store of the whole block covers the buffer. -/
theorem cover0_11 (p0 : Vec F S1024x2 .f32) (y : S1024x2.Idx) :
    ∃ pc ∈ ([⟨rL, p0⟩] : List (View.Piece (Elt F) S1024x2 .f32)), y ∈ pc.1.set :=
  View.cover_of_tiled [⟨rL, p0⟩] S1024x2.size (by rfl) y

theorem cover0_R (p0 : Vec F S1024x256 .f32) (y : S1024x256.Idx) :
    ∃ pc ∈ ([⟨rR, p0⟩] : List (View.Piece (Elt F) S1024x256 .f32)), y ∈ pc.1.set :=
  View.cover_of_tiled [⟨rR, p0⟩] S1024x256.size (by rfl) y

/-! ## The body's triple -/

set_option maxHeartbeats 4000000 in
/-- The body on whole staging buffers, the inputs' at contents `x0 … x10` and the outputs' at anything, runs to the
    continuation holding the inputs' as they were and each output's at the value above. -/
theorem sound_kernel (c : Dev nD) (E : Set ℕ) (i : grid0.Coords) (arg1 : Memref sig .tc .vmem S1024x1024 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x2 .bf16) (harg10 : arg10.IsWhole) (arg11 : Memref sig .tc .vmem S1x2 .f32) (harg11 : arg11.IsWhole) (arg12 : Memref sig .tc .vmem S1024x2 .f32) (harg12 : arg12.IsWhole) (arg13 : Memref sig .tc .vmem S1024x256 .f32) (harg13 : arg13.IsWhole) (arg14 : Memref sig .tc .vmem S1024x256 .f32) (harg14 : arg14.IsWhole)
    (x0 : Vec F S1024x1024 .f32) (x1 : Vec F S1024x256 .f32) (x2 : Vec F S1024x256 .f32) (x3 : Vec F S1024x256 .bf16) (x4 : Vec F S1x256 .f32) (x5 : Vec F S256x1024 .bf16) (x6 : Vec F S1x1024 .f32) (x7 : Vec F S256x1024 .bf16) (x8 : Vec F S1x1024 .f32) (x9 : Vec F S256x2 .bf16) (x10 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__lstm_kernel_eq_skeleton]; unfold cc0__lstm_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0
  subst hf1
  subst hf2
  subst hf3
  subst hf4
  subst hf5
  subst hf6
  subst hf7
  subst hf8
  subst hf9
  subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_R _)
  iexists _; isplitr
  swap; · iexact H13
  ipureintro
  exact View.read_writes_eq_canon _ _ _ (cover0_R _)

end Cert.Kernel.Body

end
-- ==== Proof.KRun.lean ====
/-
  The run of the whole program, and its frame.

  The proof data of the pipelined region: every window's array is what the region finds; after the body at a grid
  point each input window's buffer holds its block and each output window's buffer holds the body's result on the
  point's input blocks; the body keeps nothing else between points. With the body's triple this discharges the
  pipeline's obligation at every point, so every weakly fair execution of the program terminates without a fault,
  with each window's array at what the write-backs leave and every other buffer as the region found it — in
  particular every argument array as launched.
-/
import proofs.«115348_j53669911330986_2_alg».proof.Proof.KEntry
import proofs.«115348_j53669911330986_2_alg».proof.Proof.KBody

set_option maxRecDepth 16384

noncomputable section

namespace Cert.Kernel.Run

open Cert.Kernel Cert.Kernel.Gen Cert.Kernel.Entry Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, every window's array ends at what the
    write-backs of the proof data leave, and every other buffer ends as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.Kernel.Run

end
-- ==== Proof.KIEntry.lean ====
/-
  The state in which the one pipelined region of the program is entered, and what a run of the region says about
  the argument arrays.

  Before the region the program transposes the weight matrices, casts them to bf16, joins the four gate matrices
  (and the four gate biases) along the lane axis and recasts the bias vectors as rows. None of these writes an
  argument array, so the region finds every argument as launched. The region has 14 windows: three row-tiled
  inputs (1024 rows per grid point), eight resident weight and bias blocks (the whole array, the same at every
  point), and three row-tiled outputs. A window's block at a point is read off its array as the region finds it;
  an input window's staging buffer holds that block whenever the body is called, whether the point fetched it or
  kept it from the point before.
-/
import proofs.«115348_j53669911330986_2_alg».proof.Proof.Gen.KernelIdeal.Launch
import proofs.«115348_j53669911330986_2_alg».proof.Proof.Gen.KernelIdeal.Skeleton
import proofs.«115348_j53669911330986_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the launch memory after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## Every argument array is found as launched -/

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 21. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-- No host operation writes argument 22. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block whenever the body is called: a point that does not fetch it
    has the block index of the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block whenever the body is called: a point that does not fetch it
    has the block index of the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block whenever the body is called: a point that does not fetch it
    has the block index of the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block whenever the body is called: a point that does not fetch it
    has the block index of the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block whenever the body is called: a point that does not fetch it
    has the block index of the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block whenever the body is called: a point that does not fetch it
    has the block index of the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block whenever the body is called: a point that does not fetch it
    has the block index of the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block whenever the body is called: a point that does not fetch it
    has the block index of the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block whenever the body is called: a point that does not fetch it
    has the block index of the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block whenever the body is called: a point that does not fetch it
    has the block index of the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block whenever the body is called: a point that does not fetch it
    has the block index of the point before. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run of the region -/

/-- From a run that ends with every window's array at what the proof data computes and every other buffer as the
    region found it: every argument array ends as launched. A staged argument (windows 0, 1, 2) is an input
    window's array, which no write-back touches; the others are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c)⟩) h

end Cert.KernelIdeal.Entry

end
-- ==== Proof.KIBody.lean ====
/-
  One call of the kernel body on whole staging buffers.

  The body loads the whole block of each of its eleven input windows, computes, and stores one whole block into
  each of its three output windows (it also loads each output buffer once before storing into it; the loaded value
  is not used). So after the body every input buffer is as it was, and each output buffer holds the stored value:
  the body's arithmetic (the skeleton's payload terms) applied to the loaded input blocks. What an output buffer
  held before does not matter, since the one store covers it.
-/
import proofs.«115348_j53669911330986_2_alg».proof.Proof.Gen.KernelIdeal.Launch
import proofs.«115348_j53669911330986_2_alg».proof.Proof.Gen.KernelIdeal.Skeleton
import proofs.«115348_j53669911330986_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body loads and stores through: each is a whole block -/

abbrev rX : Rect S1024x1024 := Rect.unit (s := S1024x1024) ![0, 0] S1024x1024.size inb_S1024x1024_S1024x1024_0_0
abbrev rR : Rect S1024x256 := Rect.unit (s := S1024x256) ![0, 0] S1024x256.size inb_S1024x256_S1024x256_0_0
abbrev rB : Rect S1x256 := Rect.unit (s := S1x256) ![0, 0] S1x256.size inb_S1x256_S1x256_0_0
abbrev rW : Rect S256x1024 := Rect.unit (s := S256x1024) ![0, 0] S256x1024.size inb_S256x1024_S256x1024_0_0
abbrev rG : Rect S1x1024 := Rect.unit (s := S1x1024) ![0, 0] S1x1024.size inb_S1x1024_S1x1024_0_0
abbrev rE : Rect S256x2 := Rect.unit (s := S256x2) ![0, 0] S256x2.size inb_S256x2_S256x2_0_0
abbrev rT : Rect S1x2 := Rect.unit (s := S1x2) ![0, 0] S1x2.size inb_S1x2_S1x2_0_0
abbrev rL : Rect S1024x2 := Rect.unit (s := S1024x2) ![0, 0] S1024x2.size inb_S1024x2_S1024x2_0_0

/-! ## What the body leaves in each output buffer -/

/-- The log-probabilities' buffer (window 11) after the body. -/
def out0_11 (x0 : Vec F S1024x1024 .f32) (x1 : Vec F S1024x256 .f32) (x2 : Vec F S1024x256 .f32) (x3 : Vec F S1024x256 .bf16) (x4 : Vec F S1x256 .f32) (x5 : Vec F S256x1024 .bf16) (x6 : Vec F S1x1024 .f32) (x7 : Vec F S256x1024 .bf16) (x8 : Vec F S1x1024 .f32) (x9 : Vec F S256x2 .bf16) (x10 : Vec F S1x2 .f32) : Vec F S1024x2 .f32 :=
  View.canon [⟨rL, k0_pay1 (k0_pay7 (k0_pay2 (View.ld x0 rX) (View.ld x3 rR) (View.ld x4 rB) (View.ld x1 rR) (View.ld x5 rW) (View.ld x7 rW) (View.ld x6 rG) (View.ld x8 rG)) (k0_pay3 (View.ld x0 rX) (View.ld x3 rR) (View.ld x4 rB) (View.ld x1 rR) (View.ld x5 rW) (View.ld x7 rW) (View.ld x6 rG) (View.ld x8 rG)) (k0_pay4 (View.ld x0 rX) (View.ld x3 rR) (View.ld x4 rB) (View.ld x1 rR) (View.ld x5 rW) (View.ld x7 rW) (View.ld x6 rG) (View.ld x8 rG)) (Scalar.ofBits .f32 0x3F000000#32) (View.ld x2 rR) (View.ld x9 rE) (View.ld x10 rT)) (k0_pay8 (k0_pay2 (View.ld x0 rX) (View.ld x3 rR) (View.ld x4 rB) (View.ld x1 rR) (View.ld x5 rW) (View.ld x7 rW) (View.ld x6 rG) (View.ld x8 rG)) (k0_pay3 (View.ld x0 rX) (View.ld x3 rR) (View.ld x4 rB) (View.ld x1 rR) (View.ld x5 rW) (View.ld x7 rW) (View.ld x6 rG) (View.ld x8 rG)) (k0_pay4 (View.ld x0 rX) (View.ld x3 rR) (View.ld x4 rB) (View.ld x1 rR) (View.ld x5 rW) (View.ld x7 rW) (View.ld x6 rG) (View.ld x8 rG)) (Scalar.ofBits .f32 0x3F000000#32) (View.ld x2 rR) (View.ld x9 rE) (View.ld x10 rT))⟩]

/-- The new hidden state's buffer (window 12) after the body. -/
def out0_12 (x0 : Vec F S1024x1024 .f32) (x1 : Vec F S1024x256 .f32) (x2 : Vec F S1024x256 .f32) (x3 : Vec F S1024x256 .bf16) (x4 : Vec F S1x256 .f32) (x5 : Vec F S256x1024 .bf16) (x6 : Vec F S1x1024 .f32) (x7 : Vec F S256x1024 .bf16) (x8 : Vec F S1x1024 .f32) (x9 : Vec F S256x2 .bf16) (x10 : Vec F S1x2 .f32) : Vec F S1024x256 .f32 :=
  View.canon [⟨rR, k0_pay6 (k0_pay2 (View.ld x0 rX) (View.ld x3 rR) (View.ld x4 rB) (View.ld x1 rR) (View.ld x5 rW) (View.ld x7 rW) (View.ld x6 rG) (View.ld x8 rG)) (k0_pay3 (View.ld x0 rX) (View.ld x3 rR) (View.ld x4 rB) (View.ld x1 rR) (View.ld x5 rW) (View.ld x7 rW) (View.ld x6 rG) (View.ld x8 rG)) (k0_pay4 (View.ld x0 rX) (View.ld x3 rR) (View.ld x4 rB) (View.ld x1 rR) (View.ld x5 rW) (View.ld x7 rW) (View.ld x6 rG) (View.ld x8 rG)) (Scalar.ofBits .f32 0x3F000000#32) (View.ld x2 rR)⟩]

/-- The new cell state's buffer (window 13) after the body. -/
def out0_13 (x0 : Vec F S1024x1024 .f32) (x1 : Vec F S1024x256 .f32) (x2 : Vec F S1024x256 .f32) (x3 : Vec F S1024x256 .bf16) (x4 : Vec F S1x256 .f32) (x5 : Vec F S256x1024 .bf16) (x6 : Vec F S1x1024 .f32) (x7 : Vec F S256x1024 .bf16) (x8 : Vec F S1x1024 .f32) (x9 : Vec F S256x2 .bf16) (x10 : Vec F S1x2 .f32) : Vec F S1024x256 .f32 :=
  View.canon [⟨rR, k0_pay5 (k0_pay2 (View.ld x0 rX) (View.ld x3 rR) (View.ld x4 rB) (View.ld x1 rR) (View.ld x5 rW) (View.ld x7 rW) (View.ld x6 rG) (View.ld x8 rG)) (k0_pay3 (View.ld x0 rX) (View.ld x3 rR) (View.ld x4 rB) (View.ld x1 rR) (View.ld x5 rW) (View.ld x7 rW) (View.ld x6 rG) (View.ld x8 rG)) (k0_pay4 (View.ld x0 rX) (View.ld x3 rR) (View.ld x4 rB) (View.ld x1 rR) (View.ld x5 rW) (View.ld x7 rW) (View.ld x6 rG) (View.ld x8 rG)) (Scalar.ofBits .f32 0x3F000000#32) (View.ld x2 rR)⟩]

/-- A single store of the whole block covers the buffer. -/
theorem cover0_11 (p0 : Vec F S1024x2 .f32) (y : S1024x2.Idx) :
    ∃ pc ∈ ([⟨rL, p0⟩] : List (View.Piece (Elt F) S1024x2 .f32)), y ∈ pc.1.set :=
  View.cover_of_tiled [⟨rL, p0⟩] S1024x2.size (by rfl) y

theorem cover0_R (p0 : Vec F S1024x256 .f32) (y : S1024x256.Idx) :
    ∃ pc ∈ ([⟨rR, p0⟩] : List (View.Piece (Elt F) S1024x256 .f32)), y ∈ pc.1.set :=
  View.cover_of_tiled [⟨rR, p0⟩] S1024x256.size (by rfl) y

/-! ## The body's triple -/

set_option maxHeartbeats 4000000 in
/-- The body on whole staging buffers, the inputs' at contents `x0 … x10` and the outputs' at anything, runs to the
    continuation holding the inputs' as they were and each output's at the value above. -/
theorem sound_kernel (c : Dev nD) (E : Set ℕ) (i : grid0.Coords) (arg1 : Memref sig .tc .vmem S1024x1024 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x2 .bf16) (harg10 : arg10.IsWhole) (arg11 : Memref sig .tc .vmem S1x2 .f32) (harg11 : arg11.IsWhole) (arg12 : Memref sig .tc .vmem S1024x2 .f32) (harg12 : arg12.IsWhole) (arg13 : Memref sig .tc .vmem S1024x256 .f32) (harg13 : arg13.IsWhole) (arg14 : Memref sig .tc .vmem S1024x256 .f32) (harg14 : arg14.IsWhole)
    (x0 : Vec F S1024x1024 .f32) (x1 : Vec F S1024x256 .f32) (x2 : Vec F S1024x256 .f32) (x3 : Vec F S1024x256 .bf16) (x4 : Vec F S1x256 .f32) (x5 : Vec F S256x1024 .bf16) (x6 : Vec F S1x1024 .f32) (x7 : Vec F S256x1024 .bf16) (x8 : Vec F S1x1024 .f32) (x9 : Vec F S256x2 .bf16) (x10 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__lstm_kernel_eq_skeleton]; unfold cc0__lstm_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0
  subst hf1
  subst hf2
  subst hf3
  subst hf4
  subst hf5
  subst hf6
  subst hf7
  subst hf8
  subst hf9
  subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_R _)
  iexists _; isplitr
  swap; · iexact H13
  ipureintro
  exact View.read_writes_eq_canon _ _ _ (cover0_R _)

end Cert.KernelIdeal.Body

end
-- ==== Proof.KIRun.lean ====
/-
  The run of the whole program, and its frame.

  The proof data of the pipelined region: every window's array is what the region finds; after the body at a grid
  point each input window's buffer holds its block and each output window's buffer holds the body's result on the
  point's input blocks; the body keeps nothing else between points. With the body's triple this discharges the
  pipeline's obligation at every point, so every weakly fair execution of the program terminates without a fault,
  with each window's array at what the write-backs leave and every other buffer as the region found it — in
  particular every argument array as launched.
-/
import proofs.«115348_j53669911330986_2_alg».proof.Proof.KIEntry
import proofs.«115348_j53669911330986_2_alg».proof.Proof.KIBody

set_option maxRecDepth 16384

noncomputable section

namespace Cert.KernelIdeal.Run

open Cert.KernelIdeal Cert.KernelIdeal.Gen Cert.KernelIdeal.Entry Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, every window's array ends at what the
    write-backs of the proof data leave, and every other buffer ends as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.KernelIdeal.Run

end
-- ==== Proof.LibConcat4.lean ====
/-
  Four arrays [R, n₁], [R, n₂], [R, n₃], [R, n₄] laid side by side along the lanes, read at an index.

  The concatenation along axis 1 is an [R, w] array with w = n₁ + n₂ + n₃ + n₄. Its entry in row r at one of the first
  n₁ lanes is the first piece's entry in that row and lane; at lane n₁ + q it is the second piece's entry in row r,
  lane q; at lane n₁ + n₂ + q the third's; at lane n₁ + n₂ + n₃ + q the fourth's. So a row of the concatenation is the
  four pieces' rows one after the other.
-/
import Idealize.ShloMosaic.Lib.Pipeline.Value
import Idealize.ShloMosaic.Lib.ValueIdx

namespace Cert.LibConcat4

open Idealize.ShloMosaic Idealize.ShloMosaic.ValueIdx

variable {α : Type} {R n₁ n₂ n₃ n₄ w : Nat}

/-- Off the joined axis a piece's coordinates are the result's. -/
private theorem off_axis {n : Nat} (r : Fin R) (l : Fin w) (i : (⟨2, ![R, n]⟩ : Shape).Idx) (hi : (i 0).val = r.val) :
    ∀ bb : Fin (⟨2, ![R, n]⟩ : Shape).rank, bb.cast (rfl : (⟨2, ![R, n]⟩ : Shape).rank = (⟨2, ![R, w]⟩ : Shape).rank) ≠ (1 : Fin 2) →
      (i bb).val = ((ix2 r l : (⟨2, ![R, w]⟩ : Shape).Idx) (bb.cast rfl)).val := by
  intro bb hbb
  match bb with
  | ⟨0, _⟩ => exact hi
  | ⟨1, _⟩ => exact absurd rfl hbb

/-- A lane of the first piece. -/
theorem concatenate4_first (a : (⟨2, ![R, n₁]⟩ : Shape).Idx → α) (b : (⟨2, ![R, n₂]⟩ : Shape).Idx → α)
    (c : (⟨2, ![R, n₃]⟩ : Shape).Idx → α) (d : (⟨2, ![R, n₄]⟩ : Shape).Idx → α)
    (h : Shape.Concatenates ([(⟨⟨2, ![R, n₁]⟩, a⟩ : (s : Shape) × (s.Idx → α)), ⟨⟨2, ![R, n₂]⟩, b⟩, ⟨⟨2, ![R, n₃]⟩, c⟩,
      ⟨⟨2, ![R, n₄]⟩, d⟩].map (·.1)) ⟨2, ![R, w]⟩ (1 : Fin 2))
    (r : Fin R) (l : Fin w) (q : Fin n₁) (hl : l.val = q.val) :
    concatenate ⟨2, ![R, w]⟩ (1 : Fin 2) [⟨⟨2, ![R, n₁]⟩, a⟩, ⟨⟨2, ![R, n₂]⟩, b⟩, ⟨⟨2, ![R, n₃]⟩, c⟩, ⟨⟨2, ![R, n₄]⟩, d⟩] h (ix2 r l)
      = a (ix2 r q) :=
  concatenate_apply_piece (1 : Fin 2) _ h (ix2 r l) 0 (by simp) ⟨2, ![R, n₁]⟩ a rfl rfl 0 rfl
    (ix2 r q) (off_axis r l _ rfl) (by show 0 + q.val = l.val; omega)

/-- A lane of the second piece. -/
theorem concatenate4_second (a : (⟨2, ![R, n₁]⟩ : Shape).Idx → α) (b : (⟨2, ![R, n₂]⟩ : Shape).Idx → α)
    (c : (⟨2, ![R, n₃]⟩ : Shape).Idx → α) (d : (⟨2, ![R, n₄]⟩ : Shape).Idx → α)
    (h : Shape.Concatenates ([(⟨⟨2, ![R, n₁]⟩, a⟩ : (s : Shape) × (s.Idx → α)), ⟨⟨2, ![R, n₂]⟩, b⟩, ⟨⟨2, ![R, n₃]⟩, c⟩,
      ⟨⟨2, ![R, n₄]⟩, d⟩].map (·.1)) ⟨2, ![R, w]⟩ (1 : Fin 2))
    (r : Fin R) (l : Fin w) (q : Fin n₂) (hl : l.val = n₁ + q.val) :
    concatenate ⟨2, ![R, w]⟩ (1 : Fin 2) [⟨⟨2, ![R, n₁]⟩, a⟩, ⟨⟨2, ![R, n₂]⟩, b⟩, ⟨⟨2, ![R, n₃]⟩, c⟩, ⟨⟨2, ![R, n₄]⟩, d⟩] h (ix2 r l)
      = b (ix2 r q) :=
  concatenate_apply_piece (1 : Fin 2) _ h (ix2 r l) 1 (by simp) ⟨2, ![R, n₂]⟩ b rfl rfl n₁ (by simp)
    (ix2 r q) (off_axis r l _ rfl) (by show n₁ + q.val = l.val; omega)

/-- A lane of the third piece. -/
theorem concatenate4_third (a : (⟨2, ![R, n₁]⟩ : Shape).Idx → α) (b : (⟨2, ![R, n₂]⟩ : Shape).Idx → α)
    (c : (⟨2, ![R, n₃]⟩ : Shape).Idx → α) (d : (⟨2, ![R, n₄]⟩ : Shape).Idx → α)
    (h : Shape.Concatenates ([(⟨⟨2, ![R, n₁]⟩, a⟩ : (s : Shape) × (s.Idx → α)), ⟨⟨2, ![R, n₂]⟩, b⟩, ⟨⟨2, ![R, n₃]⟩, c⟩,
      ⟨⟨2, ![R, n₄]⟩, d⟩].map (·.1)) ⟨2, ![R, w]⟩ (1 : Fin 2))
    (r : Fin R) (l : Fin w) (q : Fin n₃) (hl : l.val = n₁ + n₂ + q.val) :
    concatenate ⟨2, ![R, w]⟩ (1 : Fin 2) [⟨⟨2, ![R, n₁]⟩, a⟩, ⟨⟨2, ![R, n₂]⟩, b⟩, ⟨⟨2, ![R, n₃]⟩, c⟩, ⟨⟨2, ![R, n₄]⟩, d⟩] h (ix2 r l)
      = c (ix2 r q) :=
  concatenate_apply_piece (1 : Fin 2) _ h (ix2 r l) 2 (by simp) ⟨2, ![R, n₃]⟩ c rfl rfl (n₁ + n₂) (by simp)
    (ix2 r q) (off_axis r l _ rfl) (by show n₁ + n₂ + q.val = l.val; omega)

/-- A lane of the fourth piece. -/
theorem concatenate4_fourth (a : (⟨2, ![R, n₁]⟩ : Shape).Idx → α) (b : (⟨2, ![R, n₂]⟩ : Shape).Idx → α)
    (c : (⟨2, ![R, n₃]⟩ : Shape).Idx → α) (d : (⟨2, ![R, n₄]⟩ : Shape).Idx → α)
    (h : Shape.Concatenates ([(⟨⟨2, ![R, n₁]⟩, a⟩ : (s : Shape) × (s.Idx → α)), ⟨⟨2, ![R, n₂]⟩, b⟩, ⟨⟨2, ![R, n₃]⟩, c⟩,
      ⟨⟨2, ![R, n₄]⟩, d⟩].map (·.1)) ⟨2, ![R, w]⟩ (1 : Fin 2))
    (r : Fin R) (l : Fin w) (q : Fin n₄) (hl : l.val = n₁ + n₂ + n₃ + q.val) :
    concatenate ⟨2, ![R, w]⟩ (1 : Fin 2) [⟨⟨2, ![R, n₁]⟩, a⟩, ⟨⟨2, ![R, n₂]⟩, b⟩, ⟨⟨2, ![R, n₃]⟩, c⟩, ⟨⟨2, ![R, n₄]⟩, d⟩] h (ix2 r l)
      = d (ix2 r q) :=
  concatenate_apply_piece (1 : Fin 2) _ h (ix2 r l) 3 (by simp) ⟨2, ![R, n₄]⟩ d rfl rfl (n₁ + n₂ + n₃) (by simp <;> omega)
    (ix2 r q) (off_axis r l _ rfl) (by show n₁ + n₂ + n₃ + q.val = l.val; omega)

end Cert.LibConcat4
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibSoftmaxRow.lean ====
/-
  A softmax-weighted average of one row, in two arrangements.

  For scores `S k` and values `V k` over `n ≥ 1` keys, let `M` be the maximum of the scores (folded from -∞),
  `e k = exp (S k - M)` and `l = Σ_k e k`. One arrangement divides first and sums afterwards,
      Σ_k (e k / l) · V k ,
  the other sums first and divides once,
      (Σ_k e k · V k) / l .
  When every score and every value is a real number the maximum is a real number, every `e k` is a positive real and
  `l > 0`, so the quotient by `l` is the product with the real `1 / l`, which distributes over the finite sum: the two
  arrangements agree. (Over the extended reals in general they do not: the product does not distribute over a sum that
  mixes +∞ and -∞.)
-/
import Mathlib
import Idealize.ShloMosaic.PureOps.Ideal
import proofs.«115348_j53669911330986_2_alg».proof.Proof.LibRealSum

noncomputable section

open scoped BigOperators

namespace Cert.LibSoftmaxRow

open Idealize.ShloMosaic Cert.LibRealSum

variable {n : ℕ}

/-- The f32 word `0xFF800000` denotes -∞. -/
theorem ofBits_negInf : Ideal.ofBits .f32 0xFF800000#32 = ⊥ := by simp [Ideal.ofBits, Ideal.ieee]

/-- -∞ is the identity of `max`. -/
theorem max_negInf (y : EReal) : max (Ideal.ofBits .f32 0xFF800000#32) y = y := by
  rw [ofBits_negInf]; exact max_eq_right bot_le

/-- The maximum of `n` extended reals, folded from the f32 word of -∞. -/
def rowMax (S : Fin n → EReal) : EReal :=
  (Finset.univ : Finset (Fin n)).fold max (Ideal.ofBits .f32 0xFF800000#32) S

/-- The maximum of a nonempty family of reals is a real. -/
theorem isReal_rowMax (hn : 0 < n) (S : Fin n → EReal) (hS : ∀ k, IsReal (S k)) : IsReal (rowMax S) := by
  have htop : rowMax S ≠ ⊤ := by
    unfold rowMax
    rw [← lt_top_iff_ne_top, Finset.fold_max_lt]
    refine ⟨by rw [ofBits_negInf]; exact bot_lt_top, fun k _ => ?_⟩
    obtain ⟨a, ha⟩ := hS k
    rw [ha]; exact EReal.coe_lt_top a
  have hbot : rowMax S ≠ ⊥ := by
    unfold rowMax
    rw [← bot_lt_iff_ne_bot, Finset.lt_fold_max]
    refine Or.inr ⟨⟨0, hn⟩, Finset.mem_univ _, ?_⟩
    obtain ⟨a, ha⟩ := hS ⟨0, hn⟩
    rw [ha]; exact EReal.bot_lt_coe a
  exact ⟨(rowMax S).toReal, (EReal.coe_toReal htop hbot).symm⟩

/-- Divide each weight by the normaliser, then average: `Σ_k (e k / l) · V k`. -/
def softmaxAvg (S V : Fin n → EReal) : EReal :=
  ∑ k, Ideal.div (Ideal.exp (S k - rowMax S)) (∑ i, Ideal.exp (S i - rowMax S)) * V k

/-- Average with the unnormalised weights, then divide once: `(Σ_k e k · V k) / l`. -/
def softmaxQuot (S V : Fin n → EReal) : EReal :=
  Ideal.div (∑ k, Ideal.exp (S k - rowMax S) * V k) (∑ k, Ideal.exp (S k - rowMax S))

/-- With real scores and real values over at least one key the two arrangements agree. -/
theorem softmaxQuot_eq_softmaxAvg (hn : 0 < n) (S V : Fin n → EReal) (hS : ∀ k, IsReal (S k)) (hV : ∀ k, IsReal (V k)) :
    softmaxQuot S V = softmaxAvg S V := by
  obtain ⟨M, hM⟩ := isReal_rowMax hn S hS
  choose s hs using hS
  choose v hv using hV
  unfold softmaxQuot softmaxAvg
  rw [hM]
  have hexp : ∀ k, Ideal.exp (S k - (M : EReal)) = ((Real.exp (s k - M) : ℝ) : EReal) := fun k => by
    rw [hs k, ← EReal.coe_sub, Ideal.exp_coe]
  have hpos : (∑ i, Real.exp (s i - M)) ≠ 0 :=
    (Finset.sum_pos (fun _ _ => Real.exp_pos _) ⟨⟨0, hn⟩, Finset.mem_univ _⟩).ne'
  simp only [hexp, hv, ← EReal.coe_mul, ← coe_finset_sum, Ideal.div_coe hpos]
  refine congrArg _ ?_
  rw [Finset.sum_mul]
  exact Finset.sum_congr rfl fun k _ => by ring

end Cert.LibSoftmaxRow

end
-- ==== Proof.LibRowKL.lean ====
/-
  The Kullback–Leibler sum of one row, with the log-softmax written in two arrangements.

  For a row `f` of `n ≥ 1` scores let `M` be its maximum (folded from -∞), and `L = log (Σ_i exp (f i - M))`.
  The log-softmax of the row at `k` is `f k - (M + L)` in one arrangement (the normaliser `M + L` is formed first and
  subtracted once) and `(f k - M) - L` in the other (the maximum is subtracted first, the logarithm afterwards). For two
  rows `f`, `g` the row's sum is `Σ_k exp (ls g k) · (ls g k - ls f k)`, with `ls` either arrangement.

  When every score is a real number, `M` is real (a maximum of finitely many reals over a nonempty range), every
  `exp (f i - M)` is a positive real, their sum is a positive real, so `L` is real; and for reals `a - (M + L) = (a - M) - L`.
  So the two arrangements agree entry by entry, and so do the two sums. (Over the extended reals in general they do not:
  with `f k = M = +∞` the differences are of the indeterminate form.)
-/
import Mathlib
import Idealize.ShloMosaic.PureOps.Ideal
import proofs.«115348_j53669911330986_2_alg».proof.Proof.LibRealSum
import proofs.«115348_j53669911330986_2_alg».proof.Proof.LibSoftmaxRow

noncomputable section

open scoped BigOperators

namespace Cert.LibRowKL

open Idealize.ShloMosaic Cert.LibRealSum Cert.LibSoftmaxRow

variable {n : ℕ}

/-- `L`: the logarithm of the sum of the exponentials of the scores less their maximum. -/
def logNorm (f : Fin n → EReal) : EReal := Ideal.log (∑ i, Ideal.exp (f i - rowMax f))

/-- The log-softmax with the normaliser `M + L` formed first: `f k - (M + L)`. -/
def logSoftOnce (f : Fin n → EReal) (k : Fin n) : EReal := f k - (rowMax f + logNorm f)

/-- The log-softmax with the maximum subtracted first: `(f k - M) - L`. -/
def logSoftTwice (f : Fin n → EReal) (k : Fin n) : EReal := (f k - rowMax f) - logNorm f

/-- The row's sum `Σ_k exp (ls g k) · (ls g k - ls f k)` in the first arrangement. -/
def rowKLOnce (f g : Fin n → EReal) : EReal :=
  ∑ k, Ideal.exp (logSoftOnce g k) * (logSoftOnce g k - logSoftOnce f k)

/-- The same sum in the second arrangement. -/
def rowKLTwice (f g : Fin n → EReal) : EReal :=
  ∑ k, Ideal.exp (logSoftTwice g k) * (logSoftTwice g k - logSoftTwice f k)

/-- With real scores over a nonempty range, `L` is a real number: the sum of the exponentials is a positive real. -/
theorem isReal_logNorm (hn : 0 < n) (f : Fin n → EReal) (hf : ∀ k, IsReal (f k)) : IsReal (logNorm f) := by
  obtain ⟨M, hM⟩ := isReal_rowMax hn f hf
  choose a ha using hf
  unfold logNorm
  rw [hM]
  have hexp : ∀ i, Ideal.exp (f i - (M : EReal)) = ((Real.exp (a i - M) : ℝ) : EReal) := fun i => by
    rw [ha i, ← EReal.coe_sub, Ideal.exp_coe]
  have hpos : 0 < ∑ i, Real.exp (a i - M) :=
    Finset.sum_pos (fun _ _ => Real.exp_pos _) ⟨⟨0, hn⟩, Finset.mem_univ _⟩
  simp only [hexp, ← coe_finset_sum]
  rw [Ideal.log_coe, if_neg (not_le.mpr hpos)]
  exact ⟨_, rfl⟩

/-- With real scores the two arrangements of the log-softmax agree at every entry. -/
theorem logSoftOnce_eq_logSoftTwice (hn : 0 < n) (f : Fin n → EReal) (hf : ∀ k, IsReal (f k)) (k : Fin n) :
    logSoftOnce f k = logSoftTwice f k := by
  obtain ⟨M, hM⟩ := isReal_rowMax hn f hf
  obtain ⟨L, hL⟩ := isReal_logNorm hn f hf
  obtain ⟨a, ha⟩ := hf k
  unfold logSoftOnce logSoftTwice
  rw [hM, hL, ha, ← EReal.coe_add, ← EReal.coe_sub, ← EReal.coe_sub, ← EReal.coe_sub]
  exact congrArg _ (by ring)

/-- With real scores in both rows the two arrangements of the row's sum agree. -/
theorem rowKLOnce_eq_rowKLTwice (hn : 0 < n) (f g : Fin n → EReal) (hf : ∀ k, IsReal (f k)) (hg : ∀ k, IsReal (g k)) :
    rowKLOnce f g = rowKLTwice f g := by
  unfold rowKLOnce rowKLTwice
  refine Finset.sum_congr rfl fun k _ => ?_
  rw [logSoftOnce_eq_logSoftTwice hn g hg k, logSoftOnce_eq_logSoftTwice hn f hf k]

end Cert.LibRowKL

end
-- ==== Proof.Spec.lean ====
/-
  One step of an LSTM cell followed by a two-class log-softmax head, row by row, over the extended reals.

  For one batch row with input `x` (1024 entries), previous hidden state `h` and previous cell state `c`
  (256 entries each):
    e      = x · Wembᵀ + bemb                                   (the embedding, 256 entries)
    pre_g  = e · W_gᵀ + b_g + h · Wh_gᵀ + bh_g                   (g = forget, input, candidate, output)
    c'     = σ(pre_f) · c + σ(pre_i) · tanh(pre_c)
    h'     = σ(pre_o) · tanh(c')
    logits = h' · Wendᵀ + bend                                  (2 entries)
    logp   = (logits − max logits) − log Σ exp(logits − max logits)
  with σ(t) = 1 / (1 + e^(−t)).  All sums are sums in the extended reals, so their order and grouping are
  immaterial; the only law used beyond commutativity and associativity of addition is
  ½ · tanh(½ · t) + ½ = 1 / (1 + e^(−t)), which holds at every extended real (both sides are 0 at −∞ and 1 at +∞).
-/
import Mathlib
import Idealize.ShloMosaic.PureOps.Ideal
import proofs.«115348_j53669911330986_2_alg».proof.Proof.LibRowKL

noncomputable section

namespace Cert.LstmSpec

open Idealize.ShloMosaic

/-- The float literal 1.0 as an extended real. -/
abbrev one : EReal := Ideal.ofBits .f32 0x3F800000#32
/-- The float literal 0.5 as an extended real. -/
abbrev half : EReal := Ideal.ofBits .f32 0x3F000000#32

/-- The logistic function written as a quotient: 1 / (1 + e^(−t)). -/
def sigm (t : EReal) : EReal := Ideal.div one (one + Ideal.exp (-t))

/-- The logistic function written through the hyperbolic tangent: ½ · tanh(½ · t) + ½. -/
def sigmT (t : EReal) : EReal := half * Ideal.tanh (half * t) + half

/-- The weights and biases of the cell: everything that does not depend on the batch row.
    A matrix is indexed (output feature, input feature), as the arguments store it. -/
structure Weights where
  Wemb : Fin 256 → Fin 1024 → EReal
  bemb : Fin 256 → EReal
  Wf : Fin 256 → Fin 256 → EReal
  bf : Fin 256 → EReal
  Wi : Fin 256 → Fin 256 → EReal
  bi : Fin 256 → EReal
  Wc : Fin 256 → Fin 256 → EReal
  bc : Fin 256 → EReal
  Wo : Fin 256 → Fin 256 → EReal
  bo : Fin 256 → EReal
  Whf : Fin 256 → Fin 256 → EReal
  bhf : Fin 256 → EReal
  Whi : Fin 256 → Fin 256 → EReal
  bhi : Fin 256 → EReal
  Whc : Fin 256 → Fin 256 → EReal
  bhc : Fin 256 → EReal
  Who : Fin 256 → Fin 256 → EReal
  bho : Fin 256 → EReal
  Wend : Fin 2 → Fin 256 → EReal
  bend : Fin 2 → EReal

variable (W : Weights) (x : Fin 1024 → EReal) (h c : Fin 256 → EReal)

/-- The embedding of one row: x · Wembᵀ + bemb. -/
def emb (j : Fin 256) : EReal := (∑ k, x k * W.Wemb j k) + W.bemb j

/-- One gate's pre-activation, grouped ((e·Wᵀ + b) + h·Whᵀ) + bh. -/
def gate (e : Fin 256 → EReal) (Wg Whg : Fin 256 → Fin 256 → EReal) (bg bhg : Fin 256 → EReal) (j : Fin 256) : EReal :=
  (((∑ k, e k * Wg j k) + bg j) + ∑ k, h k * Whg j k) + bhg j

/-- The same pre-activation grouped ((e·Wᵀ + h·Whᵀ) + b) + bh. -/
def gateK (e : Fin 256 → EReal) (Wg Whg : Fin 256 → Fin 256 → EReal) (bg bhg : Fin 256 → EReal) (j : Fin 256) : EReal :=
  (((∑ k, e k * Wg j k) + ∑ k, h k * Whg j k) + bg j) + bhg j

/-- The two groupings of a pre-activation agree: addition of extended reals is commutative and associative. -/
theorem gateK_eq_gate (e : Fin 256 → EReal) (Wg Whg : Fin 256 → Fin 256 → EReal) (bg bhg : Fin 256 → EReal) (j : Fin 256) :
    gateK h e Wg Whg bg bhg j = gate h e Wg Whg bg bhg j := by
  unfold gateK gate
  rw [add_right_comm (∑ k, e k * Wg j k) (∑ k, h k * Whg j k) (bg j)]

/-- The new cell state of one row. -/
def newCell (j : Fin 256) : EReal :=
  sigm (gate h (emb W x) W.Wf W.Whf W.bf W.bhf j) * c j
    + sigm (gate h (emb W x) W.Wi W.Whi W.bi W.bhi j) * Ideal.tanh (gate h (emb W x) W.Wc W.Whc W.bc W.bhc j)

/-- The new hidden state of one row. -/
def newHidden (j : Fin 256) : EReal :=
  sigm (gate h (emb W x) W.Wo W.Who W.bo W.bho j) * Ideal.tanh (newCell W x h c j)

/-- The two logits of one row. -/
def logits (n : Fin 2) : EReal := (∑ k, newHidden W x h c k * W.Wend n k) + W.bend n

/-- The log-probabilities of one row: the log-softmax of its logits, the maximum subtracted first. -/
def logp (n : Fin 2) : EReal := Cert.LibRowKL.logSoftTwice (logits W x h c) n

end Cert.LstmSpec

end
-- ==== Proof.SigmoidLaw.lean ====
/-
  The logistic function in its two spellings agrees at every extended real:
      ½ · tanh(½ · t) + ½ = 1 / (1 + e^(−t)).
  At a real t this is the identity tanh s = (e^s − e^(−s)) / (e^s + e^(−s)) at s = t/2, cleared of
  denominators; at −∞ both sides are 0 (tanh(−∞) = −1, and 1 / (1 + e^(+∞)) = 1 / +∞ = 0); at +∞ both
  sides are 1 (tanh(+∞) = 1, and 1 / (1 + e^(−∞)) = 1 / 1).
-/
import Mathlib
import Idealize.ShloMosaic.PureOps.Ideal
import proofs.«115348_j53669911330986_2_alg».proof.Proof.Spec

noncomputable section

namespace Cert.LstmSpec

open Idealize.ShloMosaic

/-- The float literal 1.0 denotes the extended real 1. -/
theorem one_eq : one = 1 := by
  unfold one
  simp [Ideal.ofBits, Ideal.ieee, -EReal.coe_mul]; norm_num

/-- The float literal 0.5 denotes the real 1/2. -/
theorem half_eq : half = (((1 : ℝ) / 2 : ℝ) : EReal) := by
  unfold half
  simp [Ideal.ofBits, Ideal.ieee, -EReal.coe_mul]; norm_num

/-- The identity over the reals. -/
theorem real_sigmoid (t : ℝ) :
    ((1 : ℝ) / 2) * Real.tanh (((1 : ℝ) / 2) * t) + (1 : ℝ) / 2 = 1 / (1 + Real.exp (-t)) := by
  have hpos : 0 < Real.exp (((1 : ℝ) / 2) * t) := Real.exp_pos _
  have ha : Real.exp (((1 : ℝ) / 2) * t) ≠ 0 := hpos.ne'
  have h1 : Real.exp (-(((1 : ℝ) / 2) * t)) = (Real.exp (((1 : ℝ) / 2) * t))⁻¹ := Real.exp_neg _
  have h2 : Real.exp (-t) = (Real.exp (((1 : ℝ) / 2) * t))⁻¹ * (Real.exp (((1 : ℝ) / 2) * t))⁻¹ := by
    rw [← Real.exp_neg, ← Real.exp_add]; congr 1; ring
  rw [Real.tanh_eq_sinh_div_cosh, Real.sinh_eq, Real.cosh_eq, h1, h2]
  generalize Real.exp (((1 : ℝ) / 2) * t) = a at hpos ha
  have hs : a + a⁻¹ ≠ 0 := by positivity
  have hs2 : 1 + a⁻¹ * a⁻¹ ≠ 0 := by positivity
  field_simp
  ring

/-- The two spellings of the logistic function agree at every extended real. -/
theorem sigmT_eq_sigm (t : EReal) : sigmT t = sigm t := by
  unfold sigmT sigm
  rw [one_eq, half_eq]
  induction t using EReal.rec with
  | bot =>
    have hL : ((((1 : ℝ) / 2 : ℝ) : EReal)) * ⊥ = ⊥ := EReal.coe_mul_bot_of_pos (by norm_num)
    rw [hL, Ideal.tanh_bot, EReal.neg_bot, Ideal.exp_top,
      EReal.add_top_of_ne_bot (show (1 : EReal) ≠ ⊥ from EReal.coe_ne_bot 1)]
    have hR : Ideal.div 1 ⊤ = 0 := by simp [Ideal.div]
    rw [hR]
    have : (-1 : EReal) = (((-1 : ℝ)) : EReal) := by rw [EReal.coe_neg, EReal.coe_one]
    rw [this, ← EReal.coe_mul, ← EReal.coe_add]
    norm_num
  | top =>
    have hL : ((((1 : ℝ) / 2 : ℝ) : EReal)) * ⊤ = ⊤ := EReal.coe_mul_top_of_pos (by norm_num)
    rw [hL, Ideal.tanh_top, EReal.neg_top, Ideal.exp_bot, add_zero, Ideal.div, if_neg one_ne_zero, one_mul,
      mul_one, ← EReal.coe_add]
    norm_num
  | coe r =>
    have hne : ((1 + Real.exp (-r) : ℝ)) ≠ 0 := by positivity
    have hR : (1 : EReal) + Ideal.exp (-(r : EReal)) = ((1 + Real.exp (-r) : ℝ) : EReal) := by
      rw [← EReal.coe_neg, Ideal.exp_coe, ← EReal.coe_one, ← EReal.coe_add]
    rw [hR, Ideal.div_coe hne, one_mul, ← EReal.coe_mul, Ideal.tanh_coe, ← EReal.coe_mul, ← EReal.coe_add,
      real_sigmoid]

end Cert.LstmSpec

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«115348_j53669911330986_2_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.KernelRows.lean ====
/-
  The values a grid step of the kernel computes, read entry by entry over the extended reals.

  One grid step holds a block of 1024 batch rows. With the block's input rows x, previous hidden rows h and previous
  cell rows c, and the fused weights (the four gates' matrices side by side as the columns of a [256, 1024] matrix,
  in the order forget, input, candidate, output; their biases likewise in a [1, 1024] row), the body computes
    e      = x · Wemb + bemb                                     [1024, 256]
    pre    = ((e · Wih + h · Whh) + bih) + bhh                   [1024, 1024]
    c'     = s(pre[:, 0:256]) · c + s(pre[:, 256:512]) · tanh(pre[:, 512:768])
    h'     = s(pre[:, 768:1024]) · tanh(c')
    logits = h' · Wend + bend                                    [1024, 2]
    out    = (logits − max) − log Σ exp(logits − max)            row by row
  with s(t) = ½ · tanh(½ · t) + ½. A change of float format is the identity on extended reals, a product accumulated
  into the zero splat is a plain sum, a slice of columns reads the source at the shifted column, and the maximum of
  −∞ and y is y. Hence at row p every entry is the row-wise specification's value for the row (x p, h p, c p) and the
  weights read off the fused arrays column by column.
-/
import proofs.«115348_j53669911330986_2_alg».proof.Proof.Gen.KernelIdeal.Skeleton
import proofs.«115348_j53669911330986_2_alg».proof.Proof.Spec
import proofs.«115348_j53669911330986_2_alg».proof.Proof.SigmoidLaw
import proofs.«115348_j53669911330986_2_alg».proof.Proof.LibDotRows
import proofs.«115348_j53669911330986_2_alg».proof.Proof.LibDotForms
import proofs.«115348_j53669911330986_2_alg».proof.Proof.LibRowReduce
import proofs.«115348_j53669911330986_2_alg».proof.Proof.LibColBroadcast
import proofs.«115348_j53669911330986_2_alg».proof.Proof.LibRowKL
import Idealize.ShloMosaic.Lib.ValueIdx
import Idealize.ShloMosaic.Lib.ValueLayout
import Idealize.ShloMosaic.Lib.Pipeline.Value

noncomputable section

open scoped BigOperators

namespace Cert.KernelRows

open Idealize.ShloMosaic Idealize.ShloMosaic.ValueIdx Cert.KernelIdeal Cert.KernelIdeal.Gen
open Cert.LstmSpec

/-! ## Small readings -/

/-- A row [1, N] spread over M rows reads, at (p, q), the row's entry q. -/
theorem broadcastTo_row_apply {α : Type} {M N : ℕ} (v : (⟨2, ![1, N]⟩ : Shape).Idx → α)
    (h : (⟨2, ![1, N]⟩ : Shape).Broadcasts ⟨2, ![M, N]⟩) (p : Fin M) (q : Fin N) :
    broadcastTo ⟨2, ![M, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- A product x · w into the zero splat, with x narrowed and w recast to its own shape, plus a bias row spread over the
    rows: entry (p, q) is Σ_k x[p, k] · w[k, q] + b[0, q]. -/
theorem affine_apply {M K N : ℕ} (x : FVec Ideal ⟨2, ![M, K]⟩ .f32) (w : FVec Ideal ⟨2, ![K, N]⟩ .bf16)
    (b : FVec Ideal ⟨2, ![1, N]⟩ .f32) (hlt : FTy.bits .bf16 < FTy.bits .f32)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (p : Fin M) (q : Fin N) :
    addf (F := Ideal)
        (matmul (F := Ideal) (DotDims.plain M K N) none (truncf .bf16 x hlt) (shapeCast ⟨2, ![K, N]⟩ w hw)
          (constant ⟨2, ![M, N]⟩ .f32 0x00000000#32))
        (broadcastTo ⟨2, ![M, N]⟩ (shapeCast ⟨2, ![1, N]⟩ b hb) hbc) (ix2 p q)
      = (∑ k : Fin K, x (ix2 p k) * w (ix2 k q)) + b (ix2 (0 : Fin 1) q) := by
  refine congrArg₂ (· + ·) ?_ ?_
  · refine (Cert.LibDotForms.matmul_plain_prec none _ _ p q).trans ?_
    refine Finset.sum_congr rfl fun k _ => ?_
    exact congrArg (x (ix2 p k) * ·) (congrFun (shapeCast_self w hw) (ix2 k q))
  · refine (broadcastTo_row_apply _ hbc p q).trans ?_
    exact congrFun (shapeCast_self b hb) (ix2 (0 : Fin 1) q)

/-- A product x · w into the zero splat, with x narrowed and w recast to its own shape: entry (p, q) is Σ_k x[p, k] · w[k, q]. -/
theorem product_apply {M K N : ℕ} (x : FVec Ideal ⟨2, ![M, K]⟩ .f32) (w : FVec Ideal ⟨2, ![K, N]⟩ .bf16)
    (hlt : FTy.bits .bf16 < FTy.bits .f32) (hw : (⟨2, ![K, N]⟩ : Shape).ShapeCasts ⟨2, ![K, N]⟩) (p : Fin M) (q : Fin N) :
    matmul (F := Ideal) (DotDims.plain M K N) none (truncf .bf16 x hlt) (shapeCast ⟨2, ![K, N]⟩ w hw)
        (constant ⟨2, ![M, N]⟩ .f32 0x00000000#32) (ix2 p q)
      = ∑ k : Fin K, x (ix2 p k) * w (ix2 k q) := by
  refine (Cert.LibDotForms.matmul_plain_prec none _ _ p q).trans ?_
  refine Finset.sum_congr rfl fun k _ => ?_
  exact congrArg (x (ix2 p k) * ·) (congrFun (shapeCast_self w hw) (ix2 k q))

/-- A bias row recast to its own shape and spread over the rows reads, at (p, q), the row's entry q. -/
theorem bias_apply {M N : ℕ} (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) (q : Fin N) :
    broadcastTo ⟨2, ![M, N]⟩ (shapeCast ⟨2, ![1, N]⟩ b hb) hbc (ix2 p q) = b (ix2 (0 : Fin 1) q) :=
  (broadcastTo_row_apply _ hbc p q).trans (congrFun (shapeCast_self b hb) (ix2 (0 : Fin 1) q))

/-! ## The weights of a block, read off the fused arrays -/

/-- Column j of gate 0 (forget) in the fused arrays. -/
abbrev col0 (j : Fin 256) : Fin 1024 := ⟨j.val, by have := j.isLt; omega⟩
/-- Column j of gate 1 (input). -/
abbrev col1 (j : Fin 256) : Fin 1024 := ⟨256 + j.val, by have := j.isLt; omega⟩
/-- Column j of gate 2 (candidate). -/
abbrev col2 (j : Fin 256) : Fin 1024 := ⟨512 + j.val, by have := j.isLt; omega⟩
/-- Column j of gate 3 (output). -/
abbrev col3 (j : Fin 256) : Fin 1024 := ⟨768 + j.val, by have := j.isLt; omega⟩

section Weights

variable (wemb : Vec Ideal S1024x256 .bf16) (bemb : Vec Ideal S1x256 .f32)
  (wih whh : Vec Ideal S256x1024 .bf16) (bih bhh : Vec Ideal S1x1024 .f32)
  (wend : Vec Ideal S256x2 .bf16) (bend : Vec Ideal S1x2 .f32)

/-- The row-wise specification's weights: the embedding and the head transposed, and gate g's matrix and bias the
    columns 256·g … 256·g + 255 of the fused arrays (g = 0 forget, 1 input, 2 candidate, 3 output). -/
def blockWeights : Weights where
  Wemb j k := wemb (ix2 k j)
  bemb j := bemb (ix2 (0 : Fin 1) j)
  Wf j k := wih (ix2 k (col0 j))
  bf j := bih (ix2 (0 : Fin 1) (col0 j))
  Wi j k := wih (ix2 k (col1 j))
  bi j := bih (ix2 (0 : Fin 1) (col1 j))
  Wc j k := wih (ix2 k (col2 j))
  bc j := bih (ix2 (0 : Fin 1) (col2 j))
  Wo j k := wih (ix2 k (col3 j))
  bo j := bih (ix2 (0 : Fin 1) (col3 j))
  Whf j k := whh (ix2 k (col0 j))
  bhf j := bhh (ix2 (0 : Fin 1) (col0 j))
  Whi j k := whh (ix2 k (col1 j))
  bhi j := bhh (ix2 (0 : Fin 1) (col1 j))
  Whc j k := whh (ix2 k (col2 j))
  bhc j := bhh (ix2 (0 : Fin 1) (col2 j))
  Who j k := whh (ix2 k (col3 j))
  bho j := bhh (ix2 (0 : Fin 1) (col3 j))
  Wend n k := wend (ix2 k n)
  bend n := bend (ix2 (0 : Fin 1) n)

end Weights

/-! ## The embedding and the fused pre-activation -/

section Pre

variable (x0 : Vec Ideal S1024x1024 .f32) (wemb : Vec Ideal S1024x256 .bf16) (bemb : Vec Ideal S1x256 .f32)
  (hh : Vec Ideal S1024x256 .f32) (wih whh : Vec Ideal S256x1024 .bf16) (bih bhh : Vec Ideal S1x1024 .f32)
  (wend : Vec Ideal S256x2 .bf16) (bend : Vec Ideal S1x2 .f32)

/-- The block's embedding x · Wemb + bemb. -/
def embBlock : FVec Ideal S1024x256 .f32 :=
  addf (F := Ideal)
    (matmul (F := Ideal) dot_S1024x1024_S1024x256_S1024x256_1_0_0_1_n_n none (truncf .bf16 x0 bitsLt_bf16_f32)
      (shapeCast S1024x256 wemb shapeCasts_S1024x256_S1024x256 : FVec Ideal S1024x256 .bf16) (constant S1024x256 .f32 0x00000000#32))
    (broadcastTo S1024x256 (shapeCast S1x256 bemb shapeCasts_S1x256_S1x256 : FVec Ideal S1x256 .f32) broadcasts_S1x256_S1024x256)

/-- Entry (p, j) of the block's embedding is the specification's embedding of row p. -/
theorem embBlock_apply (p : Fin 1024) (j : Fin 256) :
    embBlock x0 wemb bemb (ix2 p j)
      = emb (blockWeights wemb bemb wih whh bih bhh wend bend) (fun k => x0 (ix2 p k)) j :=
  affine_apply (M := 1024) (K := 1024) (N := 256) x0 wemb bemb bitsLt_bf16_f32 shapeCasts_S1024x256_S1024x256
    shapeCasts_S1x256_S1x256 broadcasts_S1x256_S1024x256 p j

/-- The fused pre-activation over an embedding e: ((e · Wih + h · Whh) + bih) + bhh. -/
def preOf (e : FVec Ideal S1024x256 .f32) : FVec Ideal S1024x1024 .f32 :=
  addf (F := Ideal)
    (addf (F := Ideal)
      (addf (F := Ideal)
        (matmul (F := Ideal) dot_S1024x256_S256x1024_S1024x1024_1_0_0_1_n_n none (truncf .bf16 e bitsLt_bf16_f32)
          (shapeCast S256x1024 wih shapeCasts_S256x1024_S256x1024 : FVec Ideal S256x1024 .bf16) (constant S1024x1024 .f32 0x00000000#32))
        (matmul (F := Ideal) dot_S1024x256_S256x1024_S1024x1024_1_0_0_1_n_n none (truncf .bf16 hh bitsLt_bf16_f32)
          (shapeCast S256x1024 whh shapeCasts_S256x1024_S256x1024 : FVec Ideal S256x1024 .bf16) (constant S1024x1024 .f32 0x00000000#32)))
      (broadcastTo S1024x1024 (shapeCast S1x1024 bih shapeCasts_S1x1024_S1x1024 : FVec Ideal S1x1024 .f32) broadcasts_S1x1024_S1024x1024))
    (broadcastTo S1024x1024 (shapeCast S1x1024 bhh shapeCasts_S1x1024_S1x1024 : FVec Ideal S1x1024 .f32) broadcasts_S1x1024_S1024x1024)

/-- Entry (p, q) of the fused pre-activation over e. -/
theorem preOf_apply (e : FVec Ideal S1024x256 .f32) (p : Fin 1024) (q : Fin 1024) :
    preOf hh wih whh bih bhh e (ix2 p q)
      = (((∑ k : Fin 256, e (ix2 p k) * wih (ix2 k q)) + ∑ k : Fin 256, hh (ix2 p k) * whh (ix2 k q))
          + bih (ix2 (0 : Fin 1) q)) + bhh (ix2 (0 : Fin 1) q) := by
  refine congrArg₂ (· + ·) (congrArg₂ (· + ·) (congrArg₂ (· + ·) ?_ ?_) ?_) ?_
  · exact product_apply (M := 1024) (K := 256) (N := 1024) e wih bitsLt_bf16_f32 shapeCasts_S256x1024_S256x1024 p q
  · exact product_apply (M := 1024) (K := 256) (N := 1024) hh whh bitsLt_bf16_f32 shapeCasts_S256x1024_S256x1024 p q
  · exact bias_apply (M := 1024) (N := 1024) bih shapeCasts_S1x1024_S1x1024 broadcasts_S1x1024_S1024x1024 p q
  · exact bias_apply (M := 1024) (N := 1024) bhh shapeCasts_S1x1024_S1x1024 broadcasts_S1x1024_S1024x1024 p q

/-- The body's fused pre-activation is the pre-activation over the block's embedding. -/
theorem pay2_eq :
    k0_pay2 (F := Ideal) x0 wemb bemb hh wih whh bih bhh = preOf hh wih whh bih bhh (embBlock x0 wemb bemb) := rfl

/-- Entry (p, q) of the body's fused pre-activation, over the specification's embedding of row p. -/
theorem pay2_apply (p : Fin 1024) (q : Fin 1024) :
    k0_pay2 (F := Ideal) x0 wemb bemb hh wih whh bih bhh (ix2 p q)
      = (((∑ k : Fin 256, emb (blockWeights wemb bemb wih whh bih bhh wend bend) (fun i => x0 (ix2 p i)) k * wih (ix2 k q))
            + ∑ k : Fin 256, hh (ix2 p k) * whh (ix2 k q))
          + bih (ix2 (0 : Fin 1) q)) + bhh (ix2 (0 : Fin 1) q) := by
  rw [pay2_eq]
  refine (preOf_apply hh wih whh bih bhh _ p q).trans ?_
  refine congrArg (fun s => ((s + ∑ k : Fin 256, hh (ix2 p k) * whh (ix2 k q)) + bih (ix2 (0 : Fin 1) q)) + bhh (ix2 (0 : Fin 1) q)) ?_
  refine Finset.sum_congr rfl fun k _ => ?_
  exact congrArg (· * wih (ix2 k q)) (embBlock_apply x0 wemb bemb wih whh bih bhh wend bend p k)

end Pre

/-! ## The gates, the new cell and the new hidden state -/

/-- A slice of 256 columns of a [1024, 1024] array, from column o, reads at (p, j) the array at (p, k), k = o + j. -/
theorem quarter_apply (o : ℕ) (v : FVec Ideal S1024x1024 .f32) (h : S1024x1024.Slices ![0, o] S1024x256)
    (p : Fin 1024) (j : Fin 256) (k : Fin 1024) (hk : k.val = o + j.val) :
    extractStridedSlice S1024x256 ![0, o] v h (ix2 p j) = v (ix2 p k) :=
  slice2_axis1_apply o v h p j k hk

section Cell

variable (v26 : FVec Ideal S1024x1024 .f32) (v34 v35 : FVec Ideal S1024x256 .f32) (cc : Vec Ideal S1024x256 .f32)

/-- The body's new cell over the pre-activation v26, the forget gate v34 and the input gate's pre-activation v35:
    v34 · c + s(v35) · tanh(v26[:, 512 + j]). -/
theorem pay5_apply (p : Fin 1024) (j : Fin 256) :
    k0_pay5 (F := Ideal) v26 v34 v35 (Scalar.ofBits .f32 0x3F000000#32) cc (ix2 p j)
      = v34 (ix2 p j) * cc (ix2 p j) + sigmT (v35 (ix2 p j)) * Ideal.tanh (v26 (ix2 p (col2 j))) := by
  show v34 (ix2 p j) * cc (ix2 p j)
      + sigmT (v35 (ix2 p j)) * Ideal.tanh (extractStridedSlice S1024x256 ![0, 512] v26 slices_S1024x1024_o0_512_S1024x256 (ix2 p j)) = _
  exact congrArg (fun t => v34 (ix2 p j) * cc (ix2 p j) + sigmT (v35 (ix2 p j)) * Ideal.tanh t)
    (quarter_apply 512 v26 _ p j (col2 j) rfl)

/-- The body's new hidden state over the same values: s(v26[:, 768 + j]) · tanh(new cell). -/
theorem pay6_apply (p : Fin 1024) (j : Fin 256) :
    k0_pay6 (F := Ideal) v26 v34 v35 (Scalar.ofBits .f32 0x3F000000#32) cc (ix2 p j)
      = sigmT (v26 (ix2 p (col3 j)))
        * Ideal.tanh (k0_pay5 (F := Ideal) v26 v34 v35 (Scalar.ofBits .f32 0x3F000000#32) cc (ix2 p j)) := by
  show sigmT (extractStridedSlice S1024x256 ![0, 768] v26 slices_S1024x1024_o0_768_S1024x256 (ix2 p j))
      * Ideal.tanh (k0_pay5 (F := Ideal) v26 v34 v35 (Scalar.ofBits .f32 0x3F000000#32) cc (ix2 p j)) = _
  exact congrArg (fun t => sigmT t * Ideal.tanh (k0_pay5 (F := Ideal) v26 v34 v35 (Scalar.ofBits .f32 0x3F000000#32) cc (ix2 p j)))
    (quarter_apply 768 v26 _ p j (col3 j) rfl)

end Cell

section Gates

variable (x0 : Vec Ideal S1024x1024 .f32) (wemb : Vec Ideal S1024x256 .bf16) (bemb : Vec Ideal S1x256 .f32)
  (hh : Vec Ideal S1024x256 .f32) (wih whh : Vec Ideal S256x1024 .bf16) (bih bhh : Vec Ideal S1x1024 .f32)
  (wend : Vec Ideal S256x2 .bf16) (bend : Vec Ideal S1x2 .f32)

/-- The body's forget gate is s of the first quarter of the pre-activation. -/
theorem pay3_apply (p : Fin 1024) (j : Fin 256) :
    k0_pay3 (F := Ideal) x0 wemb bemb hh wih whh bih bhh (ix2 p j)
      = sigmT (k0_pay2 (F := Ideal) x0 wemb bemb hh wih whh bih bhh (ix2 p (col0 j))) := by
  show sigmT (extractStridedSlice S1024x256 ![0, 0] (k0_pay2 (F := Ideal) x0 wemb bemb hh wih whh bih bhh)
      slices_S1024x1024_o0_0_S1024x256 (ix2 p j)) = _
  exact congrArg sigmT
    (quarter_apply 0 (k0_pay2 (F := Ideal) x0 wemb bemb hh wih whh bih bhh) slices_S1024x1024_o0_0_S1024x256 p j (col0 j)
      (Nat.zero_add _).symm)

/-- The input gate's pre-activation is the second quarter. -/
theorem pay4_apply (p : Fin 1024) (j : Fin 256) :
    k0_pay4 (F := Ideal) x0 wemb bemb hh wih whh bih bhh (ix2 p j)
      = k0_pay2 (F := Ideal) x0 wemb bemb hh wih whh bih bhh (ix2 p (col1 j)) :=
  quarter_apply 256 (k0_pay2 (F := Ideal) x0 wemb bemb hh wih whh bih bhh) slices_S1024x1024_o0_256_S1024x256 p j (col1 j) rfl

/-- The first quarter of the pre-activation is the specification's forget pre-activation of row p … -/
theorem pre_forget (p : Fin 1024) (j : Fin 256) :
    k0_pay2 (F := Ideal) x0 wemb bemb hh wih whh bih bhh (ix2 p (col0 j))
      = gate (fun k => hh (ix2 p k)) (emb (blockWeights wemb bemb wih whh bih bhh wend bend) (fun i => x0 (ix2 p i)))
          (blockWeights wemb bemb wih whh bih bhh wend bend).Wf (blockWeights wemb bemb wih whh bih bhh wend bend).Whf
          (blockWeights wemb bemb wih whh bih bhh wend bend).bf (blockWeights wemb bemb wih whh bih bhh wend bend).bhf j :=
  (pay2_apply x0 wemb bemb hh wih whh bih bhh wend bend p (col0 j)).trans
    (gateK_eq_gate (fun k => hh (ix2 p k)) (emb (blockWeights wemb bemb wih whh bih bhh wend bend) (fun i => x0 (ix2 p i)))
      (blockWeights wemb bemb wih whh bih bhh wend bend).Wf (blockWeights wemb bemb wih whh bih bhh wend bend).Whf
      (blockWeights wemb bemb wih whh bih bhh wend bend).bf (blockWeights wemb bemb wih whh bih bhh wend bend).bhf j)

/-- … the second the input gate's … -/
theorem pre_input (p : Fin 1024) (j : Fin 256) :
    k0_pay2 (F := Ideal) x0 wemb bemb hh wih whh bih bhh (ix2 p (col1 j))
      = gate (fun k => hh (ix2 p k)) (emb (blockWeights wemb bemb wih whh bih bhh wend bend) (fun i => x0 (ix2 p i)))
          (blockWeights wemb bemb wih whh bih bhh wend bend).Wi (blockWeights wemb bemb wih whh bih bhh wend bend).Whi
          (blockWeights wemb bemb wih whh bih bhh wend bend).bi (blockWeights wemb bemb wih whh bih bhh wend bend).bhi j :=
  (pay2_apply x0 wemb bemb hh wih whh bih bhh wend bend p (col1 j)).trans
    (gateK_eq_gate (fun k => hh (ix2 p k)) (emb (blockWeights wemb bemb wih whh bih bhh wend bend) (fun i => x0 (ix2 p i)))
      (blockWeights wemb bemb wih whh bih bhh wend bend).Wi (blockWeights wemb bemb wih whh bih bhh wend bend).Whi
      (blockWeights wemb bemb wih whh bih bhh wend bend).bi (blockWeights wemb bemb wih whh bih bhh wend bend).bhi j)

/-- … the third the candidate's … -/
theorem pre_cand (p : Fin 1024) (j : Fin 256) :
    k0_pay2 (F := Ideal) x0 wemb bemb hh wih whh bih bhh (ix2 p (col2 j))
      = gate (fun k => hh (ix2 p k)) (emb (blockWeights wemb bemb wih whh bih bhh wend bend) (fun i => x0 (ix2 p i)))
          (blockWeights wemb bemb wih whh bih bhh wend bend).Wc (blockWeights wemb bemb wih whh bih bhh wend bend).Whc
          (blockWeights wemb bemb wih whh bih bhh wend bend).bc (blockWeights wemb bemb wih whh bih bhh wend bend).bhc j :=
  (pay2_apply x0 wemb bemb hh wih whh bih bhh wend bend p (col2 j)).trans
    (gateK_eq_gate (fun k => hh (ix2 p k)) (emb (blockWeights wemb bemb wih whh bih bhh wend bend) (fun i => x0 (ix2 p i)))
      (blockWeights wemb bemb wih whh bih bhh wend bend).Wc (blockWeights wemb bemb wih whh bih bhh wend bend).Whc
      (blockWeights wemb bemb wih whh bih bhh wend bend).bc (blockWeights wemb bemb wih whh bih bhh wend bend).bhc j)

/-- … and the fourth the output gate's. -/
theorem pre_out (p : Fin 1024) (j : Fin 256) :
    k0_pay2 (F := Ideal) x0 wemb bemb hh wih whh bih bhh (ix2 p (col3 j))
      = gate (fun k => hh (ix2 p k)) (emb (blockWeights wemb bemb wih whh bih bhh wend bend) (fun i => x0 (ix2 p i)))
          (blockWeights wemb bemb wih whh bih bhh wend bend).Wo (blockWeights wemb bemb wih whh bih bhh wend bend).Who
          (blockWeights wemb bemb wih whh bih bhh wend bend).bo (blockWeights wemb bemb wih whh bih bhh wend bend).bho j :=
  (pay2_apply x0 wemb bemb hh wih whh bih bhh wend bend p (col3 j)).trans
    (gateK_eq_gate (fun k => hh (ix2 p k)) (emb (blockWeights wemb bemb wih whh bih bhh wend bend) (fun i => x0 (ix2 p i)))
      (blockWeights wemb bemb wih whh bih bhh wend bend).Wo (blockWeights wemb bemb wih whh bih bhh wend bend).Who
      (blockWeights wemb bemb wih whh bih bhh wend bend).bo (blockWeights wemb bemb wih whh bih bhh wend bend).bho j)

end Gates

/-! ## The head: the logits and their row-wise log-softmax -/

section Head

variable (wend : Vec Ideal S256x2 .bf16) (bend : Vec Ideal S1x2 .f32)

/-- The logits over a block h6 of hidden rows: h6 · Wend + bend. -/
def logitsOf (h6 : FVec Ideal S1024x256 .f32) : FVec Ideal S1024x2 .f32 :=
  addf (F := Ideal)
    (matmul (F := Ideal) dot_S1024x256_S256x2_S1024x2_1_0_0_1_n_n none (truncf .bf16 h6 bitsLt_bf16_f32)
      (shapeCast S256x2 wend shapeCasts_S256x2_S256x2 : FVec Ideal S256x2 .bf16) (constant S1024x2 .f32 0x00000000#32))
    (broadcastTo S1024x2 (shapeCast S1x2 bend shapeCasts_S1x2_S1x2 : FVec Ideal S1x2 .f32) broadcasts_S1x2_S1024x2)

theorem logitsOf_apply (h6 : FVec Ideal S1024x256 .f32) (p : Fin 1024) (n : Fin 2) :
    logitsOf wend bend h6 (ix2 p n) = (∑ k : Fin 256, h6 (ix2 p k) * wend (ix2 k n)) + bend (ix2 (0 : Fin 1) n) :=
  affine_apply (M := 1024) (K := 256) (N := 2) h6 wend bend bitsLt_bf16_f32 shapeCasts_S256x2_S256x2
    shapeCasts_S1x2_S1x2 broadcasts_S1x2_S1024x2 p n

/-- Every entry of L less its row's maximum, the maximum taken once more against −∞. -/
def shiftOf (L : FVec Ideal S1024x2 .f32) : FVec Ideal S1024x2 .f32 :=
  subf (F := Ideal) L
    (broadcastTo S1024x2
      (shapeCast S1024x1
        (maximumf (F := Ideal) (broadcast S1024 (Scalar.ofBits (F := Ideal) .f32 0xFF800000#32))
          (multiReduction (F := Ideal) .maximumf [1] S1024 L 0xFF800000#32 reduces_S1024x2_S1024 (.inl rfl) rfl))
        shapeCasts_S1024_S1024x1)
      broadcasts_S1024x1_S1024x2)

theorem shiftOf_apply (L : FVec Ideal S1024x2 .f32) (p : Fin 1024) (n : Fin 2) :
    shiftOf L (ix2 p n) = L (ix2 p n) - Cert.LibSoftmaxRow.rowMax fun m => L (ix2 p m) := by
  refine congrArg (L (ix2 p n) - ·) ?_
  refine (Cert.LibColBroadcast.broadcastTo_a1_ab_apply _ broadcasts_S1024x1_S1024x2 p n).trans ?_
  refine (Cert.LibRowReduce.shapeCast_col_apply _ shapeCasts_S1024_S1024x1 p).trans ?_
  show max (Ideal.ofBits .f32 0xFF800000#32)
      (multiReduction (F := Ideal) .maximumf [1] S1024 L 0xFF800000#32 reduces_S1024x2_S1024 (.inl rfl) rfl (ix1 p)) = _
  refine (Cert.LibRowReduce.max_negInf _).trans ?_
  exact Cert.LibRowReduce.multiReduction_max_row L reduces_S1024x2_S1024 (.inl rfl) rfl p

/-- The last subtraction: v74 less the logarithm of the row sums of v75. -/
theorem pay1_apply (v74 v75 : FVec Ideal S1024x2 .f32) (p : Fin 1024) (n : Fin 2) :
    k0_pay1 (F := Ideal) v74 v75 (ix2 p n) = v74 (ix2 p n) - Ideal.log (∑ m : Fin 2, v75 (ix2 p m)) := by
  refine congrArg (v74 (ix2 p n) - ·) ?_
  refine (Cert.LibColBroadcast.broadcastTo_a1_ab_apply _ broadcasts_S1024x1_S1024x2 p n).trans ?_
  refine congrArg Ideal.log ?_
  refine (Cert.LibRowReduce.shapeCast_col_apply _ shapeCasts_S1024_S1024x1 p).trans ?_
  exact Cert.LibRowReduce.multiReduction_add_row v75 reduces_S1024x2_S1024 (.inl rfl) rfl p

variable (v26 : FVec Ideal S1024x1024 .f32) (v34 v35 : FVec Ideal S1024x256 .f32) (c20 : Ideal .f32)
  (cc : Vec Ideal S1024x256 .f32)

/-- The body's shifted logits are the shift of the logits over its hidden block. -/
theorem pay7_eq :
    k0_pay7 (F := Ideal) v26 v34 v35 c20 cc wend bend
      = shiftOf (logitsOf wend bend (k0_pay6 (F := Ideal) v26 v34 v35 c20 cc)) := rfl

/-- Their exponentials, entry by entry. -/
theorem pay8_apply (i : S1024x2.Idx) :
    k0_pay8 (F := Ideal) v26 v34 v35 c20 cc wend bend i
      = Ideal.exp (k0_pay7 (F := Ideal) v26 v34 v35 c20 cc wend bend i) := rfl

end Head

/-! ## The three stored values of a block, row by row -/

section Main

variable (x0 : Vec Ideal S1024x1024 .f32) (wemb : Vec Ideal S1024x256 .bf16) (bemb : Vec Ideal S1x256 .f32)
  (hh : Vec Ideal S1024x256 .f32) (wih whh : Vec Ideal S256x1024 .bf16) (bih bhh : Vec Ideal S1x1024 .f32)
  (cc : Vec Ideal S1024x256 .f32) (wend : Vec Ideal S256x2 .bf16) (bend : Vec Ideal S1x2 .f32)

/-- The body's new cell at (p, j) is the specification's new cell of row p at j. -/
theorem pay_cell (p : Fin 1024) (j : Fin 256) :
    k0_pay5 (F := Ideal) (k0_pay2 x0 wemb bemb hh wih whh bih bhh) (k0_pay3 x0 wemb bemb hh wih whh bih bhh)
        (k0_pay4 x0 wemb bemb hh wih whh bih bhh) (Scalar.ofBits .f32 0x3F000000#32) cc (ix2 p j)
      = newCell (blockWeights wemb bemb wih whh bih bhh wend bend) (fun k => x0 (ix2 p k)) (fun k => hh (ix2 p k))
          (fun k => cc (ix2 p k)) j := by
  refine (pay5_apply _ _ _ cc p j).trans ?_
  unfold newCell
  refine congrArg₂ (· + ·) (congrArg (· * cc (ix2 p j)) ?_) (congrArg₂ (· * ·) ?_ (congrArg Ideal.tanh ?_))
  · exact (pay3_apply x0 wemb bemb hh wih whh bih bhh p j).trans
      ((congrArg sigmT (pre_forget x0 wemb bemb hh wih whh bih bhh wend bend p j)).trans (sigmT_eq_sigm _))
  · exact (congrArg sigmT ((pay4_apply x0 wemb bemb hh wih whh bih bhh p j).trans
      (pre_input x0 wemb bemb hh wih whh bih bhh wend bend p j))).trans (sigmT_eq_sigm _)
  · exact pre_cand x0 wemb bemb hh wih whh bih bhh wend bend p j

/-- The body's new hidden state at (p, j) is the specification's new hidden state of row p at j. -/
theorem pay_hidden (p : Fin 1024) (j : Fin 256) :
    k0_pay6 (F := Ideal) (k0_pay2 x0 wemb bemb hh wih whh bih bhh) (k0_pay3 x0 wemb bemb hh wih whh bih bhh)
        (k0_pay4 x0 wemb bemb hh wih whh bih bhh) (Scalar.ofBits .f32 0x3F000000#32) cc (ix2 p j)
      = newHidden (blockWeights wemb bemb wih whh bih bhh wend bend) (fun k => x0 (ix2 p k)) (fun k => hh (ix2 p k))
          (fun k => cc (ix2 p k)) j := by
  refine (pay6_apply _ _ _ cc p j).trans ?_
  unfold newHidden
  refine congrArg₂ (· * ·) ?_ (congrArg Ideal.tanh (pay_cell x0 wemb bemb hh wih whh bih bhh cc wend bend p j))
  exact (congrArg sigmT (pre_out x0 wemb bemb hh wih whh bih bhh wend bend p j)).trans (sigmT_eq_sigm _)

/-- The body's logits at (p, n) are the specification's logits of row p at n. -/
theorem logits_apply (p : Fin 1024) (n : Fin 2) :
    logitsOf wend bend
        (k0_pay6 (F := Ideal) (k0_pay2 x0 wemb bemb hh wih whh bih bhh) (k0_pay3 x0 wemb bemb hh wih whh bih bhh)
          (k0_pay4 x0 wemb bemb hh wih whh bih bhh) (Scalar.ofBits .f32 0x3F000000#32) cc) (ix2 p n)
      = logits (blockWeights wemb bemb wih whh bih bhh wend bend) (fun k => x0 (ix2 p k)) (fun k => hh (ix2 p k))
          (fun k => cc (ix2 p k)) n := by
  refine (logitsOf_apply wend bend _ p n).trans ?_
  unfold logits
  refine congrArg (· + bend (ix2 (0 : Fin 1) n)) ?_
  refine Finset.sum_congr rfl fun k _ => ?_
  exact congrArg (· * wend (ix2 k n)) (pay_hidden x0 wemb bemb hh wih whh bih bhh cc wend bend p k)

/-- The body's shifted logits at (p, n): the specification's logit less the row's maximum. -/
theorem pay7_apply (p : Fin 1024) (n : Fin 2) :
    k0_pay7 (F := Ideal) (k0_pay2 x0 wemb bemb hh wih whh bih bhh) (k0_pay3 x0 wemb bemb hh wih whh bih bhh)
        (k0_pay4 x0 wemb bemb hh wih whh bih bhh) (Scalar.ofBits .f32 0x3F000000#32) cc wend bend (ix2 p n)
      = logits (blockWeights wemb bemb wih whh bih bhh wend bend) (fun k => x0 (ix2 p k)) (fun k => hh (ix2 p k))
            (fun k => cc (ix2 p k)) n
          - Cert.LibSoftmaxRow.rowMax (logits (blockWeights wemb bemb wih whh bih bhh wend bend) (fun k => x0 (ix2 p k))
              (fun k => hh (ix2 p k)) (fun k => cc (ix2 p k))) := by
  rw [pay7_eq]
  refine (shiftOf_apply _ p n).trans ?_
  refine congrArg₂ (· - ·) (logits_apply x0 wemb bemb hh wih whh bih bhh cc wend bend p n) ?_
  exact congrArg Cert.LibSoftmaxRow.rowMax
    (funext fun m => logits_apply x0 wemb bemb hh wih whh bih bhh cc wend bend p m)

/-- The body's stored log-probabilities at (p, n) are the specification's log-probabilities of row p at n. -/
theorem pay_logp (p : Fin 1024) (n : Fin 2) :
    k0_pay1 (F := Ideal)
        (k0_pay7 (k0_pay2 x0 wemb bemb hh wih whh bih bhh) (k0_pay3 x0 wemb bemb hh wih whh bih bhh)
          (k0_pay4 x0 wemb bemb hh wih whh bih bhh) (Scalar.ofBits .f32 0x3F000000#32) cc wend bend)
        (k0_pay8 (k0_pay2 x0 wemb bemb hh wih whh bih bhh) (k0_pay3 x0 wemb bemb hh wih whh bih bhh)
          (k0_pay4 x0 wemb bemb hh wih whh bih bhh) (Scalar.ofBits .f32 0x3F000000#32) cc wend bend) (ix2 p n)
      = logp (blockWeights wemb bemb wih whh bih bhh wend bend) (fun k => x0 (ix2 p k)) (fun k => hh (ix2 p k))
          (fun k => cc (ix2 p k)) n := by
  refine (pay1_apply _ _ p n).trans ?_
  unfold logp Cert.LibRowKL.logSoftTwice Cert.LibRowKL.logNorm
  refine congrArg₂ (· - ·) (pay7_apply x0 wemb bemb hh wih whh bih bhh cc wend bend p n) (congrArg Ideal.log ?_)
  refine Finset.sum_congr rfl fun m _ => ?_
  exact congrArg Ideal.exp (pay7_apply x0 wemb bemb hh wih whh bih bhh cc wend bend p m)

end Main

end Cert.KernelRows

end
-- ==== Proof.KIEntryValues.lean ====
/-
  The arrays the host operations write before the region, as the region finds them, read entry by entry.

  The embedding matrix [256, 1024] is transposed to [1024, 256] and cast to bf16; the four gate matrices
  [256, 256] are each transposed and cast and joined side by side into [256, 1024] (forget, input, candidate,
  output), the hidden-side four likewise; the gate biases [256] are recast as rows [1, 256] and joined into
  [1, 1024]; the head matrix [2, 256] is transposed to [256, 2] and cast; the embedding and head biases are recast
  as rows. A cast is the identity on extended reals. So entry (k, 256·g + j) of a fused matrix is entry (j, k) of
  gate g's argument matrix, entry (0, 256·g + j) of a fused bias row is entry j of gate g's bias, and so on.
-/
import proofs.«115348_j53669911330986_2_alg».proof.Proof.KIEntry
import proofs.«115348_j53669911330986_2_alg».proof.Proof.LibConcat4
import proofs.«115348_j53669911330986_2_alg».proof.Proof.KernelRows
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.EntryValues

open Cert.KernelIdeal Cert.KernelIdeal.Gen Cert.KernelIdeal.Entry Cert.KernelRows
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The host operations' terms -/

/-- A [256, 256] matrix transposed and cast to bf16. -/
abbrev tb256 (x : FVec Ideal S256x256 .f32) : FVec Ideal S256x256 .bf16 :=
  truncf (F := Ideal) .bf16 (transpose S256x256 [1, 0] x transposes_S256x256_S256x256_1_0) bitsLt_bf16_f32

/-- A vector [256] recast as a row [1, 256]. -/
abbrev rowOf (b : FVec Ideal S256 .f32) : FVec Ideal S1x256 .f32 := shapeCast S1x256 b shapeCasts_S256_S1x256

theorem V_v1 (c : Dev nD) : (V m c main_v1 : S1024x256.Idx → EReal)
    = truncf (F := Ideal) .bf16 (transpose S1024x256 [1, 0] (m ((c : Thread nD τ).loc main_arg3)) transposes_S256x1024_S1024x256_1_0) bitsLt_bf16_f32 := by
  dsimp only [V, hostOps0]
  after_results <;> rfl

theorem V_v32 (c : Dev nD) : (V m c main_v32 : S1x256.Idx → EReal) = rowOf (m ((c : Thread nD τ).loc main_arg4)) := by
  dsimp only [V, hostOps0]
  after_results <;> rfl

theorem V_v10 (c : Dev nD) : (V m c main_v10 : S256x1024.Idx → EReal)
    = concatenate S256x1024 1 [⟨S256x256, tb256 (m ((c : Thread nD τ).loc main_arg5))⟩, ⟨S256x256, tb256 (m ((c : Thread nD τ).loc main_arg7))⟩, ⟨S256x256, tb256 (m ((c : Thread nD τ).loc main_arg9))⟩, ⟨S256x256, tb256 (m ((c : Thread nD τ).loc main_arg11))⟩]
        concatenates_S256x256_S256x256_S256x256_S256x256_S256x1024_d1 := by
  dsimp only [V, hostOps0]
  after_results <;> rfl

theorem V_v19 (c : Dev nD) : (V m c main_v19 : S256x1024.Idx → EReal)
    = concatenate S256x1024 1 [⟨S256x256, tb256 (m ((c : Thread nD τ).loc main_arg13))⟩, ⟨S256x256, tb256 (m ((c : Thread nD τ).loc main_arg15))⟩, ⟨S256x256, tb256 (m ((c : Thread nD τ).loc main_arg17))⟩, ⟨S256x256, tb256 (m ((c : Thread nD τ).loc main_arg19))⟩]
        concatenates_S256x256_S256x256_S256x256_S256x256_S256x1024_d1 := by
  dsimp only [V, hostOps0]
  after_results <;> rfl

theorem V_v24 (c : Dev nD) : (V m c main_v24 : S1x1024.Idx → EReal)
    = concatenate S1x1024 1 [⟨S1x256, rowOf (m ((c : Thread nD τ).loc main_arg6))⟩, ⟨S1x256, rowOf (m ((c : Thread nD τ).loc main_arg8))⟩, ⟨S1x256, rowOf (m ((c : Thread nD τ).loc main_arg10))⟩, ⟨S1x256, rowOf (m ((c : Thread nD τ).loc main_arg12))⟩]
        concatenates_S1x256_S1x256_S1x256_S1x256_S1x1024_d1 := by
  dsimp only [V, hostOps0]
  after_results <;> rfl

theorem V_v29 (c : Dev nD) : (V m c main_v29 : S1x1024.Idx → EReal)
    = concatenate S1x1024 1 [⟨S1x256, rowOf (m ((c : Thread nD τ).loc main_arg14))⟩, ⟨S1x256, rowOf (m ((c : Thread nD τ).loc main_arg16))⟩, ⟨S1x256, rowOf (m ((c : Thread nD τ).loc main_arg18))⟩, ⟨S1x256, rowOf (m ((c : Thread nD τ).loc main_arg20))⟩]
        concatenates_S1x256_S1x256_S1x256_S1x256_S1x1024_d1 := by
  dsimp only [V, hostOps0]
  after_results <;> rfl

theorem V_v31 (c : Dev nD) : (V m c main_v31 : S256x2.Idx → EReal)
    = truncf (F := Ideal) .bf16 (transpose S256x2 [1, 0] (m ((c : Thread nD τ).loc main_arg21)) transposes_S2x256_S256x2_1_0) bitsLt_bf16_f32 := by
  dsimp only [V, hostOps0]
  after_results <;> rfl

theorem V_v33 (c : Dev nD) : (V m c main_v33 : S1x2.Idx → EReal) = shapeCast S1x2 (m ((c : Thread nD τ).loc main_arg22)) shapeCasts_S2_S1x2 := by
  dsimp only [V, hostOps0]
  after_results <;> rfl

/-! ## Read at an index -/

/-- A transposed and cast [256, 256] matrix at (k, j) is the matrix at (j, k). -/
theorem tb256_at (x : FVec Ideal S256x256 .f32) (k j : Fin 256) : tb256 x (ix2 k j) = x (ix2 j k) :=
  transpose_apply [1, 0] x transposes_S256x256_S256x256_1_0 (ix2 k j) (ix2 j k) (fun b => match b with
    | ⟨0, _⟩ => rfl
    | ⟨1, _⟩ => rfl)

/-- A vector recast as a row, at (0, j), is the vector at j. -/
theorem rowOf_at (b : FVec Ideal S256 .f32) (j : Fin 256) : rowOf b (ix2 (0 : Fin 1) j) = b (ix1 j) := by
  refine (shapeCast_addUnit_apply ![256] b shapeCasts_S256_S1x256 (ix2 (0 : Fin 1) j)).trans ?_
  exact congrArg b (funext fun a => match a with | ⟨0, _⟩ => rfl)

variable (c : Dev nD)

/-- The embedding matrix as the region finds it. -/
theorem v1_at (k : Fin 1024) (j : Fin 256) : V m c main_v1 (ix2 k j) = (m ((c : Thread nD τ).loc main_arg3)) (ix2 j k) := by
  refine (congrFun (V_v1 m c) (ix2 k j)).trans ?_
  exact transpose_apply [1, 0] (m ((c : Thread nD τ).loc main_arg3)) transposes_S256x1024_S1024x256_1_0 (ix2 k j) (ix2 j k) (fun b => match b with
    | ⟨0, _⟩ => rfl
    | ⟨1, _⟩ => rfl)

/-- The embedding bias row. -/
theorem v32_at (j : Fin 256) : V m c main_v32 (ix2 (0 : Fin 1) j) = (m ((c : Thread nD τ).loc main_arg4)) (ix1 j) :=
  (congrFun (V_v32 m c) _).trans (rowOf_at _ j)

/-- The head matrix as the region finds it. -/
theorem v31_at (k : Fin 256) (n : Fin 2) : V m c main_v31 (ix2 k n) = (m ((c : Thread nD τ).loc main_arg21)) (ix2 n k) := by
  refine (congrFun (V_v31 m c) (ix2 k n)).trans ?_
  exact transpose_apply [1, 0] (m ((c : Thread nD τ).loc main_arg21)) transposes_S2x256_S256x2_1_0 (ix2 k n) (ix2 n k) (fun b => match b with
    | ⟨0, _⟩ => rfl
    | ⟨1, _⟩ => rfl)

/-- The head bias row. -/
theorem v33_at (n : Fin 2) : V m c main_v33 (ix2 (0 : Fin 1) n) = (m ((c : Thread nD τ).loc main_arg22)) (ix1 n) := by
  refine (congrFun (V_v33 m c) _).trans ?_
  refine (shapeCast_addUnit_apply ![2] (m ((c : Thread nD τ).loc main_arg22)) shapeCasts_S2_S1x2 (ix2 (0 : Fin 1) n)).trans ?_
  exact congrArg (m ((c : Thread nD τ).loc main_arg22)) (funext fun a => match a with | ⟨0, _⟩ => rfl)

/-! ## The fused gate matrices and bias rows, quarter by quarter -/

theorem v10_at0 (k j : Fin 256) : V m c main_v10 (ix2 k (col0 j)) = (m ((c : Thread nD τ).loc main_arg5)) (ix2 j k) := by
  refine (congrFun (V_v10 m c) _).trans ?_
  refine (Cert.LibConcat4.concatenate4_first _ _ _ _ concatenates_S256x256_S256x256_S256x256_S256x256_S256x1024_d1 k (col0 j) j rfl).trans ?_
  exact tb256_at _ k j

theorem v10_at1 (k j : Fin 256) : V m c main_v10 (ix2 k (col1 j)) = (m ((c : Thread nD τ).loc main_arg7)) (ix2 j k) := by
  refine (congrFun (V_v10 m c) _).trans ?_
  refine (Cert.LibConcat4.concatenate4_second _ _ _ _ concatenates_S256x256_S256x256_S256x256_S256x256_S256x1024_d1 k (col1 j) j (by simp)).trans ?_
  exact tb256_at _ k j

theorem v10_at2 (k j : Fin 256) : V m c main_v10 (ix2 k (col2 j)) = (m ((c : Thread nD τ).loc main_arg9)) (ix2 j k) := by
  refine (congrFun (V_v10 m c) _).trans ?_
  refine (Cert.LibConcat4.concatenate4_third _ _ _ _ concatenates_S256x256_S256x256_S256x256_S256x256_S256x1024_d1 k (col2 j) j (by simp)).trans ?_
  exact tb256_at _ k j

theorem v10_at3 (k j : Fin 256) : V m c main_v10 (ix2 k (col3 j)) = (m ((c : Thread nD τ).loc main_arg11)) (ix2 j k) := by
  refine (congrFun (V_v10 m c) _).trans ?_
  refine (Cert.LibConcat4.concatenate4_fourth _ _ _ _ concatenates_S256x256_S256x256_S256x256_S256x256_S256x1024_d1 k (col3 j) j (by simp)).trans ?_
  exact tb256_at _ k j

theorem v19_at0 (k j : Fin 256) : V m c main_v19 (ix2 k (col0 j)) = (m ((c : Thread nD τ).loc main_arg13)) (ix2 j k) := by
  refine (congrFun (V_v19 m c) _).trans ?_
  refine (Cert.LibConcat4.concatenate4_first _ _ _ _ concatenates_S256x256_S256x256_S256x256_S256x256_S256x1024_d1 k (col0 j) j rfl).trans ?_
  exact tb256_at _ k j

theorem v19_at1 (k j : Fin 256) : V m c main_v19 (ix2 k (col1 j)) = (m ((c : Thread nD τ).loc main_arg15)) (ix2 j k) := by
  refine (congrFun (V_v19 m c) _).trans ?_
  refine (Cert.LibConcat4.concatenate4_second _ _ _ _ concatenates_S256x256_S256x256_S256x256_S256x256_S256x1024_d1 k (col1 j) j (by simp)).trans ?_
  exact tb256_at _ k j

theorem v19_at2 (k j : Fin 256) : V m c main_v19 (ix2 k (col2 j)) = (m ((c : Thread nD τ).loc main_arg17)) (ix2 j k) := by
  refine (congrFun (V_v19 m c) _).trans ?_
  refine (Cert.LibConcat4.concatenate4_third _ _ _ _ concatenates_S256x256_S256x256_S256x256_S256x256_S256x1024_d1 k (col2 j) j (by simp)).trans ?_
  exact tb256_at _ k j

theorem v19_at3 (k j : Fin 256) : V m c main_v19 (ix2 k (col3 j)) = (m ((c : Thread nD τ).loc main_arg19)) (ix2 j k) := by
  refine (congrFun (V_v19 m c) _).trans ?_
  refine (Cert.LibConcat4.concatenate4_fourth _ _ _ _ concatenates_S256x256_S256x256_S256x256_S256x256_S256x1024_d1 k (col3 j) j (by simp)).trans ?_
  exact tb256_at _ k j

theorem v24_at0 (j : Fin 256) : V m c main_v24 (ix2 (0 : Fin 1) (col0 j)) = (m ((c : Thread nD τ).loc main_arg6)) (ix1 j) := by
  refine (congrFun (V_v24 m c) _).trans ?_
  refine (Cert.LibConcat4.concatenate4_first _ _ _ _ concatenates_S1x256_S1x256_S1x256_S1x256_S1x1024_d1 (0 : Fin 1) (col0 j) j rfl).trans ?_
  exact rowOf_at _ j

theorem v24_at1 (j : Fin 256) : V m c main_v24 (ix2 (0 : Fin 1) (col1 j)) = (m ((c : Thread nD τ).loc main_arg8)) (ix1 j) := by
  refine (congrFun (V_v24 m c) _).trans ?_
  refine (Cert.LibConcat4.concatenate4_second _ _ _ _ concatenates_S1x256_S1x256_S1x256_S1x256_S1x1024_d1 (0 : Fin 1) (col1 j) j (by simp)).trans ?_
  exact rowOf_at _ j

theorem v24_at2 (j : Fin 256) : V m c main_v24 (ix2 (0 : Fin 1) (col2 j)) = (m ((c : Thread nD τ).loc main_arg10)) (ix1 j) := by
  refine (congrFun (V_v24 m c) _).trans ?_
  refine (Cert.LibConcat4.concatenate4_third _ _ _ _ concatenates_S1x256_S1x256_S1x256_S1x256_S1x1024_d1 (0 : Fin 1) (col2 j) j (by simp)).trans ?_
  exact rowOf_at _ j

theorem v24_at3 (j : Fin 256) : V m c main_v24 (ix2 (0 : Fin 1) (col3 j)) = (m ((c : Thread nD τ).loc main_arg12)) (ix1 j) := by
  refine (congrFun (V_v24 m c) _).trans ?_
  refine (Cert.LibConcat4.concatenate4_fourth _ _ _ _ concatenates_S1x256_S1x256_S1x256_S1x256_S1x1024_d1 (0 : Fin 1) (col3 j) j (by simp)).trans ?_
  exact rowOf_at _ j

theorem v29_at0 (j : Fin 256) : V m c main_v29 (ix2 (0 : Fin 1) (col0 j)) = (m ((c : Thread nD τ).loc main_arg14)) (ix1 j) := by
  refine (congrFun (V_v29 m c) _).trans ?_
  refine (Cert.LibConcat4.concatenate4_first _ _ _ _ concatenates_S1x256_S1x256_S1x256_S1x256_S1x1024_d1 (0 : Fin 1) (col0 j) j rfl).trans ?_
  exact rowOf_at _ j

theorem v29_at1 (j : Fin 256) : V m c main_v29 (ix2 (0 : Fin 1) (col1 j)) = (m ((c : Thread nD τ).loc main_arg16)) (ix1 j) := by
  refine (congrFun (V_v29 m c) _).trans ?_
  refine (Cert.LibConcat4.concatenate4_second _ _ _ _ concatenates_S1x256_S1x256_S1x256_S1x256_S1x1024_d1 (0 : Fin 1) (col1 j) j (by simp)).trans ?_
  exact rowOf_at _ j

theorem v29_at2 (j : Fin 256) : V m c main_v29 (ix2 (0 : Fin 1) (col2 j)) = (m ((c : Thread nD τ).loc main_arg18)) (ix1 j) := by
  refine (congrFun (V_v29 m c) _).trans ?_
  refine (Cert.LibConcat4.concatenate4_third _ _ _ _ concatenates_S1x256_S1x256_S1x256_S1x256_S1x1024_d1 (0 : Fin 1) (col2 j) j (by simp)).trans ?_
  exact rowOf_at _ j

theorem v29_at3 (j : Fin 256) : V m c main_v29 (ix2 (0 : Fin 1) (col3 j)) = (m ((c : Thread nD τ).loc main_arg20)) (ix1 j) := by
  refine (congrFun (V_v29 m c) _).trans ?_
  refine (Cert.LibConcat4.concatenate4_fourth _ _ _ _ concatenates_S1x256_S1x256_S1x256_S1x256_S1x1024_d1 (0 : Fin 1) (col3 j) j (by simp)).trans ?_
  exact rowOf_at _ j

end Cert.KernelIdeal.EntryValues

end
-- ==== Proof.KIBlocks.lean ====
/-
  The block geometry of the kernel's one pipelined region.  The grid has 32 points.  The three batch inputs and
  the three results are tiled by rows: at grid point t a window's block is rows 1024·t … 1024·t + 1023 of its
  array and all of its columns, so entry (p, q) of the block is entry (1024·t + p, q) of the array, and the 32
  blocks of a result tile its array.  The eight weight and bias windows are resident: at every point the block
  is the whole array.
-/
import proofs.«115348_j53669911330986_2_alg».proof.Proof.KIRun
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Entry Cert.KernelIdeal.Run
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The index maps, decided over the grid -/

/-- A row-tiled window's block index at grid point t is (t, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- A resident window's block index is (0, 0) at every grid point. -/
theorem idx_resident : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- The grid has 32 points. -/
theorem lt32 (t : Fin cfg0.N) : t.val < 32 := lt_of_lt_of_eq t.isLt N_0

/-- Row p of grid point t's block is row 1024·t + p of the array. -/
def rowAt (t : Fin cfg0.N) (p : Fin 1024) : Fin 32768 :=
  ⟨1024 * t.val + p.val, by have := lt32 t; have := p.isLt; omega⟩

/-! ## The row-tiled inputs: entry (p, k) of point t's block is entry (1024·t + p, k) of the argument array -/

/-- Input window 0. -/
theorem iblk0_at (c : Dev nD) (t : Fin cfg0.N) (p : Fin 1024) (k : Fin 1024) :
    iblk m c 0 t (ix2 p k) = m ((c : Thread nD τ).loc main_arg0) (ix2 (rowAt t p) k) := by
  show V m c main_arg0 (((cfg0.win 0).blk t).view.emb (ix2 p k)) = _
  rw [V_main_arg0]
  refine congrArg _ ?_
  funext a; apply Fin.ext
  obtain ⟨⟨e0, e1⟩, -⟩ := idx_rows t
  match a with
  | ⟨0, _⟩ => show win0_0.index t (0 : Fin 2) * 1024 + 1 * p.val = 1024 * t.val + p.val; omega
  | ⟨1, _⟩ => show win0_0.index t (1 : Fin 2) * 1024 + 1 * k.val = k.val; omega

/-- Input window 1. -/
theorem iblk1_at (c : Dev nD) (t : Fin cfg0.N) (p : Fin 1024) (k : Fin 256) :
    iblk m c 1 t (ix2 p k) = m ((c : Thread nD τ).loc main_arg1) (ix2 (rowAt t p) k) := by
  show V m c main_arg1 (((cfg0.win 1).blk t).view.emb (ix2 p k)) = _
  rw [V_main_arg1]
  refine congrArg _ ?_
  funext a; apply Fin.ext
  obtain ⟨-, ⟨e0, e1⟩, -⟩ := idx_rows t
  match a with
  | ⟨0, _⟩ => show win0_1.index t (0 : Fin 2) * 1024 + 1 * p.val = 1024 * t.val + p.val; omega
  | ⟨1, _⟩ => show win0_1.index t (1 : Fin 2) * 256 + 1 * k.val = k.val; omega

/-- Input window 2. -/
theorem iblk2_at (c : Dev nD) (t : Fin cfg0.N) (p : Fin 1024) (k : Fin 256) :
    iblk m c 2 t (ix2 p k) = m ((c : Thread nD τ).loc main_arg2) (ix2 (rowAt t p) k) := by
  show V m c main_arg2 (((cfg0.win 2).blk t).view.emb (ix2 p k)) = _
  rw [V_main_arg2]
  refine congrArg _ ?_
  funext a; apply Fin.ext
  obtain ⟨-, -, ⟨e0, e1⟩, -⟩ := idx_rows t
  match a with
  | ⟨0, _⟩ => show win0_2.index t (0 : Fin 2) * 1024 + 1 * p.val = 1024 * t.val + p.val; omega
  | ⟨1, _⟩ => show win0_2.index t (1 : Fin 2) * 256 + 1 * k.val = k.val; omega

/-! ## The resident windows: the block is the whole array at every point -/

/-- Resident window 3. -/
theorem iblk3_eq (c : Dev nD) (t : Fin cfg0.N) (y : S1024x256.Idx) : iblk m c 3 t y = V m c main_v1 y := by
  show V m c main_v1 (((cfg0.win 3).blk t).view.emb y) = _
  refine congrArg _ ?_
  funext a; apply Fin.ext
  obtain ⟨⟨e0, e1⟩, -, -, -, -, -, -, -⟩ := idx_resident t
  match a with
  | ⟨0, _⟩ => show win0_3.index t (0 : Fin 2) * 1024 + 1 * (y 0).val = (y 0).val; omega
  | ⟨1, _⟩ => show win0_3.index t (1 : Fin 2) * 256 + 1 * (y 1).val = (y 1).val; omega

/-- Resident window 4. -/
theorem iblk4_eq (c : Dev nD) (t : Fin cfg0.N) (y : S1x256.Idx) : iblk m c 4 t y = V m c main_v32 y := by
  show V m c main_v32 (((cfg0.win 4).blk t).view.emb y) = _
  refine congrArg _ ?_
  funext a; apply Fin.ext
  obtain ⟨-, ⟨e0, e1⟩, -, -, -, -, -, -⟩ := idx_resident t
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Resident window 5. -/
theorem iblk5_eq (c : Dev nD) (t : Fin cfg0.N) (y : S256x1024.Idx) : iblk m c 5 t y = V m c main_v10 y := by
  show V m c main_v10 (((cfg0.win 5).blk t).view.emb y) = _
  refine congrArg _ ?_
  funext a; apply Fin.ext
  obtain ⟨-, -, ⟨e0, e1⟩, -, -, -, -, -⟩ := idx_resident t
  match a with
  | ⟨0, _⟩ => show win0_5.index t (0 : Fin 2) * 256 + 1 * (y 0).val = (y 0).val; omega
  | ⟨1, _⟩ => show win0_5.index t (1 : Fin 2) * 1024 + 1 * (y 1).val = (y 1).val; omega

/-- Resident window 6. -/
theorem iblk6_eq (c : Dev nD) (t : Fin cfg0.N) (y : S1x1024.Idx) : iblk m c 6 t y = V m c main_v24 y := by
  show V m c main_v24 (((cfg0.win 6).blk t).view.emb y) = _
  refine congrArg _ ?_
  funext a; apply Fin.ext
  obtain ⟨-, -, -, ⟨e0, e1⟩, -, -, -, -⟩ := idx_resident t
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- Resident window 7. -/
theorem iblk7_eq (c : Dev nD) (t : Fin cfg0.N) (y : S256x1024.Idx) : iblk m c 7 t y = V m c main_v19 y := by
  show V m c main_v19 (((cfg0.win 7).blk t).view.emb y) = _
  refine congrArg _ ?_
  funext a; apply Fin.ext
  obtain ⟨-, -, -, -, ⟨e0, e1⟩, -, -, -⟩ := idx_resident t
  match a with
  | ⟨0, _⟩ => show win0_7.index t (0 : Fin 2) * 256 + 1 * (y 0).val = (y 0).val; omega
  | ⟨1, _⟩ => show win0_7.index t (1 : Fin 2) * 1024 + 1 * (y 1).val = (y 1).val; omega

/-- Resident window 8. -/
theorem iblk8_eq (c : Dev nD) (t : Fin cfg0.N) (y : S1x1024.Idx) : iblk m c 8 t y = V m c main_v29 y := by
  show V m c main_v29 (((cfg0.win 8).blk t).view.emb y) = _
  refine congrArg _ ?_
  funext a; apply Fin.ext
  obtain ⟨-, -, -, -, -, ⟨e0, e1⟩, -, -⟩ := idx_resident t
  match a with
  | ⟨0, _⟩ => show win0_8.index t (0 : Fin 2) * 1 + 1 * (y 0).val = (y 0).val; omega
  | ⟨1, _⟩ => show win0_8.index t (1 : Fin 2) * 1024 + 1 * (y 1).val = (y 1).val; omega

/-- Resident window 9. -/
theorem iblk9_eq (c : Dev nD) (t : Fin cfg0.N) (y : S256x2.Idx) : iblk m c 9 t y = V m c main_v31 y := by
  show V m c main_v31 (((cfg0.win 9).blk t).view.emb y) = _
  refine congrArg _ ?_
  funext a; apply Fin.ext
  obtain ⟨-, -, -, -, -, -, ⟨e0, e1⟩, -⟩ := idx_resident t
  match a with
  | ⟨0, _⟩ => show win0_9.index t (0 : Fin 2) * 256 + 1 * (y 0).val = (y 0).val; omega
  | ⟨1, _⟩ => show win0_9.index t (1 : Fin 2) * 2 + 1 * (y 1).val = (y 1).val; omega

/-- Resident window 10. -/
theorem iblk10_eq (c : Dev nD) (t : Fin cfg0.N) (y : S1x2.Idx) : iblk m c 10 t y = V m c main_v33 y := by
  show V m c main_v33 (((cfg0.win 10).blk t).view.emb y) = _
  refine congrArg _ ?_
  funext a; apply Fin.ext
  obtain ⟨-, -, -, -, -, -, -, ⟨e0, e1⟩⟩ := idx_resident t
  match a with
  | ⟨0, _⟩ => show win0_10.index t (0 : Fin 2) * 1 + 1 * (y 0).val = (y 0).val; omega
  | ⟨1, _⟩ => show win0_10.index t (1 : Fin 2) * 2 + 1 * (y 1).val = (y 1).val; omega

/-! ## The row-tiled results: where a block sits in its array, and the blocks tile the array -/

/-- Output window 11: entry (p, q) of point t's block is entry (1024·t + p, q) of the array. -/
theorem emb11_at (t : Fin cfg0.N) (p : Fin 1024) (q : Fin 2) :
    ((cfg0.win 11).blk t).view.emb (ix2 p q) = ix2 (rowAt t p) q := by
  funext a; apply Fin.ext
  obtain ⟨-, -, -, ⟨e0, e1⟩, -, -⟩ := idx_rows t
  match a with
  | ⟨0, _⟩ => show win0_11.index t (0 : Fin 2) * 1024 + 1 * p.val = 1024 * t.val + p.val; omega
  | ⟨1, _⟩ => show win0_11.index t (1 : Fin 2) * 2 + 1 * q.val = q.val; omega

/-- Output window 11: an index of the array is in point t's block iff each coordinate is in the block's range. -/
theorem mem_blk11 (t : Fin cfg0.N) (i : S32768x2.Idx) :
    i ∈ ((cfg0.win 11).blk t).view.set ↔ ∀ a : Fin 2, win0_11.index t a * S1024x2.size a ≤ (i a).val
      ∧ (i a).val < win0_11.index t a * S1024x2.size a + S1024x2.size a := by
  show i ∈ ((View.whole main_v34_0).slice (win0_11.rect t)).set ↔ _
  rw [View.set_slice_whole, Rect.mem_set_unit]
  exact Iff.rfl

/-- Output window 11: every index of the array is in the block of the point ⌊row / 1024⌋, which writes back. -/
theorem cover11 (i : S32768x2.Idx) :
    ∃ t : Fin cfg0.N, (cfg0.win 11).flush t = true ∧ i ∈ ((cfg0.win 11).blk t).view.set := by
  have hi0 : (i 0).val < 32768 := (i 0).isLt
  have hi1 : (i 1).val < 2 := (i 1).isLt
  have hlt : (i 0).val / 1024 < 32 := by omega
  obtain ⟨t, ht⟩ : ∃ t : Fin cfg0.N, t.val = (i 0).val / 1024 := ⟨⟨(i 0).val / 1024, lt_of_lt_of_eq hlt N_0.symm⟩, rfl⟩
  obtain ⟨-, -, -, ⟨e0, e1⟩, -, -⟩ := idx_rows t
  refine ⟨t, flush0_11 t, ?_⟩
  rw [mem_blk11]
  intro a
  match a with
  | ⟨0, _⟩ =>
    show win0_11.index t (0 : Fin 2) * 1024 ≤ (i 0).val ∧ (i 0).val < win0_11.index t (0 : Fin 2) * 1024 + 1024
    omega
  | ⟨1, _⟩ =>
    show win0_11.index t (1 : Fin 2) * 2 ≤ (i 1).val ∧ (i 1).val < win0_11.index t (1 : Fin 2) * 2 + 2
    omega

/-- The cover has the form the whole-array post of the pipeline asks for. -/
example (c : Dev nD) (G : Buf (Elt Ideal) ((cfg0.win 11).arr.view.loc (c.tc : Thread nD τ)))
    (h : ∀ t, (cfg0.win 11).flush t = true →
      (dats m 0 c).flushed 11 t = ((cfg0.win 11).blk t).view.read (Elt Ideal) G) :
    (dats m 0 c).arrAt 11 cfg0.N = G :=
  (dats m 0 c).arrAt_eq_of_cover 11 G h cover11

/-- Output window 12: entry (p, q) of point t's block is entry (1024·t + p, q) of the array. -/
theorem emb12_at (t : Fin cfg0.N) (p : Fin 1024) (q : Fin 256) :
    ((cfg0.win 12).blk t).view.emb (ix2 p q) = ix2 (rowAt t p) q := by
  funext a; apply Fin.ext
  obtain ⟨-, -, -, -, ⟨e0, e1⟩, -⟩ := idx_rows t
  match a with
  | ⟨0, _⟩ => show win0_12.index t (0 : Fin 2) * 1024 + 1 * p.val = 1024 * t.val + p.val; omega
  | ⟨1, _⟩ => show win0_12.index t (1 : Fin 2) * 256 + 1 * q.val = q.val; omega

/-- Output window 12: an index of the array is in point t's block iff each coordinate is in the block's range. -/
theorem mem_blk12 (t : Fin cfg0.N) (i : S32768x256.Idx) :
    i ∈ ((cfg0.win 12).blk t).view.set ↔ ∀ a : Fin 2, win0_12.index t a * S1024x256.size a ≤ (i a).val
      ∧ (i a).val < win0_12.index t a * S1024x256.size a + S1024x256.size a := by
  show i ∈ ((View.whole main_v34_1).slice (win0_12.rect t)).set ↔ _
  rw [View.set_slice_whole, Rect.mem_set_unit]
  exact Iff.rfl

/-- Output window 12: every index of the array is in the block of the point ⌊row / 1024⌋, which writes back. -/
theorem cover12 (i : S32768x256.Idx) :
    ∃ t : Fin cfg0.N, (cfg0.win 12).flush t = true ∧ i ∈ ((cfg0.win 12).blk t).view.set := by
  have hi0 : (i 0).val < 32768 := (i 0).isLt
  have hi1 : (i 1).val < 256 := (i 1).isLt
  have hlt : (i 0).val / 1024 < 32 := by omega
  obtain ⟨t, ht⟩ : ∃ t : Fin cfg0.N, t.val = (i 0).val / 1024 := ⟨⟨(i 0).val / 1024, lt_of_lt_of_eq hlt N_0.symm⟩, rfl⟩
  obtain ⟨-, -, -, -, ⟨e0, e1⟩, -⟩ := idx_rows t
  refine ⟨t, flush0_12 t, ?_⟩
  rw [mem_blk12]
  intro a
  match a with
  | ⟨0, _⟩ =>
    show win0_12.index t (0 : Fin 2) * 1024 ≤ (i 0).val ∧ (i 0).val < win0_12.index t (0 : Fin 2) * 1024 + 1024
    omega
  | ⟨1, _⟩ =>
    show win0_12.index t (1 : Fin 2) * 256 ≤ (i 1).val ∧ (i 1).val < win0_12.index t (1 : Fin 2) * 256 + 256
    omega

/-- The cover has the form the whole-array post of the pipeline asks for. -/
example (c : Dev nD) (G : Buf (Elt Ideal) ((cfg0.win 12).arr.view.loc (c.tc : Thread nD τ)))
    (h : ∀ t, (cfg0.win 12).flush t = true →
      (dats m 0 c).flushed 12 t = ((cfg0.win 12).blk t).view.read (Elt Ideal) G) :
    (dats m 0 c).arrAt 12 cfg0.N = G :=
  (dats m 0 c).arrAt_eq_of_cover 12 G h cover12

/-- Output window 13: entry (p, q) of point t's block is entry (1024·t + p, q) of the array. -/
theorem emb13_at (t : Fin cfg0.N) (p : Fin 1024) (q : Fin 256) :
    ((cfg0.win 13).blk t).view.emb (ix2 p q) = ix2 (rowAt t p) q := by
  funext a; apply Fin.ext
  obtain ⟨-, -, -, -, -, ⟨e0, e1⟩⟩ := idx_rows t
  match a with
  | ⟨0, _⟩ => show win0_13.index t (0 : Fin 2) * 1024 + 1 * p.val = 1024 * t.val + p.val; omega
  | ⟨1, _⟩ => show win0_13.index t (1 : Fin 2) * 256 + 1 * q.val = q.val; omega

/-- Output window 13: an index of the array is in point t's block iff each coordinate is in the block's range. -/
theorem mem_blk13 (t : Fin cfg0.N) (i : S32768x256.Idx) :
    i ∈ ((cfg0.win 13).blk t).view.set ↔ ∀ a : Fin 2, win0_13.index t a * S1024x256.size a ≤ (i a).val
      ∧ (i a).val < win0_13.index t a * S1024x256.size a + S1024x256.size a := by
  show i ∈ ((View.whole main_v34_2).slice (win0_13.rect t)).set ↔ _
  rw [View.set_slice_whole, Rect.mem_set_unit]
  exact Iff.rfl

/-- Output window 13: every index of the array is in the block of the point ⌊row / 1024⌋, which writes back. -/
theorem cover13 (i : S32768x256.Idx) :
    ∃ t : Fin cfg0.N, (cfg0.win 13).flush t = true ∧ i ∈ ((cfg0.win 13).blk t).view.set := by
  have hi0 : (i 0).val < 32768 := (i 0).isLt
  have hi1 : (i 1).val < 256 := (i 1).isLt
  have hlt : (i 0).val / 1024 < 32 := by omega
  obtain ⟨t, ht⟩ : ∃ t : Fin cfg0.N, t.val = (i 0).val / 1024 := ⟨⟨(i 0).val / 1024, lt_of_lt_of_eq hlt N_0.symm⟩, rfl⟩
  obtain ⟨-, -, -, -, -, ⟨e0, e1⟩⟩ := idx_rows t
  refine ⟨t, flush0_13 t, ?_⟩
  rw [mem_blk13]
  intro a
  match a with
  | ⟨0, _⟩ =>
    show win0_13.index t (0 : Fin 2) * 1024 ≤ (i 0).val ∧ (i 0).val < win0_13.index t (0 : Fin 2) * 1024 + 1024
    omega
  | ⟨1, _⟩ =>
    show win0_13.index t (1 : Fin 2) * 256 ≤ (i 1).val ∧ (i 1).val < win0_13.index t (1 : Fin 2) * 256 + 256
    omega

/-- The cover has the form the whole-array post of the pipeline asks for. -/
example (c : Dev nD) (G : Buf (Elt Ideal) ((cfg0.win 13).arr.view.loc (c.tc : Thread nD τ)))
    (h : ∀ t, (cfg0.win 13).flush t = true →
      (dats m 0 c).flushed 13 t = ((cfg0.win 13).blk t).view.read (Elt Ideal) G) :
    (dats m 0 c).arrAt 13 cfg0.N = G :=
  (dats m 0 c).arrAt_eq_of_cover 13 G h cover13

end Cert.KernelIdeal.Blocks

end
-- ==== Proof.SpecArrays.lean ====
/-
  The three results of the LSTM step as whole arrays: functions of the 23 argument arrays, index by index.
  Row `r` of each result depends on row `r` of the input, of the hidden state and of the cell state, and on all the
  weights; entry `(r, j)` is the row-wise specification of that row at `j`.
-/
import proofs.«115348_j53669911330986_2_alg».proof.Proof.Spec
import Idealize.ShloMosaic.Lib.ValueIdx

noncomputable section

namespace Cert.LstmArrays

open Idealize.ShloMosaic Idealize.ShloMosaic.ValueIdx

/-- A matrix [a, b] of extended reals, and a vector [a]. -/
abbrev Mat (a b : ℕ) := (⟨2, ![a, b]⟩ : Shape).Idx → EReal
abbrev Vect (a : ℕ) := (⟨1, ![a]⟩ : Shape).Idx → EReal

/-- The weights as the argument arrays store them: a matrix at (output feature, input feature), a bias at its feature. -/
def weights (a3 : Mat 256 1024) (a4 : Vect 256) (a5 : Mat 256 256) (a6 : Vect 256) (a7 : Mat 256 256) (a8 : Vect 256) (a9 : Mat 256 256) (a10 : Vect 256) (a11 : Mat 256 256) (a12 : Vect 256) (a13 : Mat 256 256) (a14 : Vect 256) (a15 : Mat 256 256) (a16 : Vect 256) (a17 : Mat 256 256) (a18 : Vect 256) (a19 : Mat 256 256) (a20 : Vect 256) (a21 : Mat 2 256) (a22 : Vect 2) : Cert.LstmSpec.Weights where
  Wemb j k := a3 (ix2 j k)
  bemb j := a4 (ix1 j)
  Wf j k := a5 (ix2 j k)
  bf j := a6 (ix1 j)
  Wi j k := a7 (ix2 j k)
  bi j := a8 (ix1 j)
  Wc j k := a9 (ix2 j k)
  bc j := a10 (ix1 j)
  Wo j k := a11 (ix2 j k)
  bo j := a12 (ix1 j)
  Whf j k := a13 (ix2 j k)
  bhf j := a14 (ix1 j)
  Whi j k := a15 (ix2 j k)
  bhi j := a16 (ix1 j)
  Whc j k := a17 (ix2 j k)
  bhc j := a18 (ix1 j)
  Who j k := a19 (ix2 j k)
  bho j := a20 (ix1 j)
  Wend j k := a21 (ix2 j k)
  bend j := a22 (ix1 j)

/-- The new cell state [32768, 256]. -/
def cellArr (a0 : Mat 32768 1024) (a1 a2 : Mat 32768 256) (a3 : Mat 256 1024) (a4 : Vect 256) (a5 : Mat 256 256) (a6 : Vect 256) (a7 : Mat 256 256) (a8 : Vect 256) (a9 : Mat 256 256) (a10 : Vect 256) (a11 : Mat 256 256) (a12 : Vect 256) (a13 : Mat 256 256) (a14 : Vect 256) (a15 : Mat 256 256) (a16 : Vect 256) (a17 : Mat 256 256) (a18 : Vect 256) (a19 : Mat 256 256) (a20 : Vect 256) (a21 : Mat 2 256) (a22 : Vect 2) : Mat 32768 256 := fun i =>
  Cert.LstmSpec.newCell (weights a3 a4 a5 a6 a7 a8 a9 a10 a11 a12 a13 a14 a15 a16 a17 a18 a19 a20 a21 a22) (fun k => a0 (ix2 (i 0) k)) (fun k => a1 (ix2 (i 0) k)) (fun k => a2 (ix2 (i 0) k)) (i 1)

/-- The new hidden state [32768, 256]. -/
def hiddenArr (a0 : Mat 32768 1024) (a1 a2 : Mat 32768 256) (a3 : Mat 256 1024) (a4 : Vect 256) (a5 : Mat 256 256) (a6 : Vect 256) (a7 : Mat 256 256) (a8 : Vect 256) (a9 : Mat 256 256) (a10 : Vect 256) (a11 : Mat 256 256) (a12 : Vect 256) (a13 : Mat 256 256) (a14 : Vect 256) (a15 : Mat 256 256) (a16 : Vect 256) (a17 : Mat 256 256) (a18 : Vect 256) (a19 : Mat 256 256) (a20 : Vect 256) (a21 : Mat 2 256) (a22 : Vect 2) : Mat 32768 256 := fun i =>
  Cert.LstmSpec.newHidden (weights a3 a4 a5 a6 a7 a8 a9 a10 a11 a12 a13 a14 a15 a16 a17 a18 a19 a20 a21 a22) (fun k => a0 (ix2 (i 0) k)) (fun k => a1 (ix2 (i 0) k)) (fun k => a2 (ix2 (i 0) k)) (i 1)

/-- The log-probabilities [32768, 2]. -/
def logpArr (a0 : Mat 32768 1024) (a1 a2 : Mat 32768 256) (a3 : Mat 256 1024) (a4 : Vect 256) (a5 : Mat 256 256) (a6 : Vect 256) (a7 : Mat 256 256) (a8 : Vect 256) (a9 : Mat 256 256) (a10 : Vect 256) (a11 : Mat 256 256) (a12 : Vect 256) (a13 : Mat 256 256) (a14 : Vect 256) (a15 : Mat 256 256) (a16 : Vect 256) (a17 : Mat 256 256) (a18 : Vect 256) (a19 : Mat 256 256) (a20 : Vect 256) (a21 : Mat 2 256) (a22 : Vect 2) : Mat 32768 2 := fun i =>
  Cert.LstmSpec.logp (weights a3 a4 a5 a6 a7 a8 a9 a10 a11 a12 a13 a14 a15 a16 a17 a18 a19 a20 a21 a22) (fun k => a0 (ix2 (i 0) k)) (fun k => a1 (ix2 (i 0) k)) (fun k => a2 (ix2 (i 0) k)) (i 1)

end Cert.LstmArrays

end
-- ==== Proof.KIValue.lean ====
/-
  The three result arrays of the idealized kernel after its run, as functions of the argument arrays.

  At grid point `t` the body sees rows 1024·t … 1024·t + 1023 of the input, the hidden state and the cell state,
  and the whole of every weight array; what it leaves in an output window's buffer is, entry by entry, the row-wise
  specification of the corresponding row (the kernel's own spelling of the logistic function and its grouping of the
  gate sums having been reconciled with the specification's), with the weights read off the fused arrays — which
  are the argument weights. The point writes that block back to rows 1024·t … of the result array, and the 32 points
  cover all 32768 rows. So each result array ends holding the specification's array.
-/
import proofs.«115348_j53669911330986_2_alg».proof.Proof.KIRun
import proofs.«115348_j53669911330986_2_alg».proof.Proof.KIEntryValues
import proofs.«115348_j53669911330986_2_alg».proof.Proof.KIBlocks
import proofs.«115348_j53669911330986_2_alg».proof.Proof.KernelRows
import proofs.«115348_j53669911330986_2_alg».proof.Proof.SpecArrays
import Idealize.ShloMosaic.Lib.Pipeline.Value

set_option maxRecDepth 16384

noncomputable section

namespace Cert.KernelIdeal.Arrays

open Cert.KernelIdeal Cert.KernelIdeal.Gen Cert.KernelIdeal.Entry Cert.KernelIdeal.Body Cert.KernelIdeal.Run
open Cert.KernelIdeal.EntryValues Cert.KernelIdeal.Blocks Cert.KernelRows Cert.LstmSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The weights read off core `c`'s argument arrays. -/
abbrev argW (c : Dev nD) : Weights := Cert.LstmArrays.weights (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

/-- The specification's result arrays of core `c`'s argument arrays. -/
abbrev logpG (c : Dev nD) : Cert.LstmArrays.Mat 32768 2 := Cert.LstmArrays.logpArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
abbrev hiddenG (c : Dev nD) : Cert.LstmArrays.Mat 32768 256 := Cert.LstmArrays.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
abbrev cellG (c : Dev nD) : Cert.LstmArrays.Mat 32768 256 := Cert.LstmArrays.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

theorem hz : (![0, 0] : Fin 2 → Nat) = fun _ => 0 := funext fun a => by fin_cases a <;> rfl

/-- The weights the body reads off its resident blocks are the argument weights: every resident block is the whole
    of an array the host operations wrote, and those arrays are the arguments transposed, cast and joined. -/
theorem blockWeights_eq (c : Dev nD) (t : Fin cfg0.N) :
    blockWeights (iblk m c 3 t) (iblk m c 4 t) (iblk m c 5 t) (iblk m c 7 t) (iblk m c 6 t) (iblk m c 8 t) (iblk m c 9 t) (iblk m c 10 t)
      = argW m c := by
  unfold blockWeights argW Cert.LstmArrays.weights
  congr 1
  · funext j k; exact (iblk3_eq m c t _).trans (v1_at m c k j)
  · funext j; exact (iblk4_eq m c t _).trans (v32_at m c j)
  · funext j k; exact (iblk5_eq m c t _).trans (v10_at0 m c k j)
  · funext j; exact (iblk6_eq m c t _).trans (v24_at0 m c j)
  · funext j k; exact (iblk5_eq m c t _).trans (v10_at1 m c k j)
  · funext j; exact (iblk6_eq m c t _).trans (v24_at1 m c j)
  · funext j k; exact (iblk5_eq m c t _).trans (v10_at2 m c k j)
  · funext j; exact (iblk6_eq m c t _).trans (v24_at2 m c j)
  · funext j k; exact (iblk5_eq m c t _).trans (v10_at3 m c k j)
  · funext j; exact (iblk6_eq m c t _).trans (v24_at3 m c j)
  · funext j k; exact (iblk7_eq m c t _).trans (v19_at0 m c k j)
  · funext j; exact (iblk8_eq m c t _).trans (v29_at0 m c j)
  · funext j k; exact (iblk7_eq m c t _).trans (v19_at1 m c k j)
  · funext j; exact (iblk8_eq m c t _).trans (v29_at1 m c j)
  · funext j k; exact (iblk7_eq m c t _).trans (v19_at2 m c k j)
  · funext j; exact (iblk8_eq m c t _).trans (v29_at2 m c j)
  · funext j k; exact (iblk7_eq m c t _).trans (v19_at3 m c k j)
  · funext j; exact (iblk8_eq m c t _).trans (v29_at3 m c j)
  · funext n k; exact (iblk9_eq m c t _).trans (v31_at m c k n)
  · funext n; exact (iblk10_eq m c t _).trans (v33_at m c n)

/-- What grid point `t` writes back through window 13 is block `t` of the specification's array. -/
theorem flushed13_eq (c : Dev nD) (t : Fin cfg0.N) :
    (dats m 0 c).flushed 13 t = ((cfg0.win 13).blk t).view.read (Elt Ideal) (cellG m c) := by
  show (cfg0.win 13).cut (grid0.coords t) ((dats m 0 c).after 13 t) = _
  rw [after0_13]
  unfold out0_13
  rw [View.canon_unit_zero hz]
  simp only [View.ld_unit_zero (S := S1024x1024) hz, View.ld_unit_zero (S := S1024x256) hz, View.ld_unit_zero (S := S1x256) hz, View.ld_unit_zero (S := S256x1024) hz, View.ld_unit_zero (S := S1x1024) hz, View.ld_unit_zero (S := S256x2) hz, View.ld_unit_zero (S := S1x2) hz]
  funext y
  obtain ⟨p, q, rfl⟩ : ∃ (p : Fin 1024) (q : Fin 256), y = ix2 p q := ⟨y 0, y 1, eq_ix2 y⟩
  refine (pay_cell (iblk m c 0 t) (iblk m c 3 t) (iblk m c 4 t) (iblk m c 1 t) (iblk m c 5 t) (iblk m c 7 t) (iblk m c 6 t) (iblk m c 8 t) (iblk m c 2 t) (iblk m c 9 t) (iblk m c 10 t) p q).trans ?_
  refine (congrArg (fun W => newCell W (fun k => iblk m c 0 t (ix2 p k)) (fun k => iblk m c 1 t (ix2 p k)) (fun k => iblk m c 2 t (ix2 p k)) q)
    (blockWeights_eq m c t)).trans ?_
  refine Eq.trans ?_ (congrArg (cellG m c) (emb13_at t p q)).symm
  show newCell (argW m c) (fun k => iblk m c 0 t (ix2 p k)) (fun k => iblk m c 1 t (ix2 p k)) (fun k => iblk m c 2 t (ix2 p k)) q
    = newCell (argW m c) (fun k => (m ((c : Thread nD τ).loc main_arg0)) (ix2 (rowAt t p) k)) (fun k => (m ((c : Thread nD τ).loc main_arg1)) (ix2 (rowAt t p) k)) (fun k => (m ((c : Thread nD τ).loc main_arg2)) (ix2 (rowAt t p) k)) q
  rw [show (fun k => iblk m c 0 t (ix2 p k)) = (fun k => (m ((c : Thread nD τ).loc main_arg0)) (ix2 (rowAt t p) k)) from funext (iblk0_at m c t p),
    show (fun k => iblk m c 1 t (ix2 p k)) = (fun k => (m ((c : Thread nD τ).loc main_arg1)) (ix2 (rowAt t p) k)) from funext (iblk1_at m c t p),
    show (fun k => iblk m c 2 t (ix2 p k)) = (fun k => (m ((c : Thread nD τ).loc main_arg2)) (ix2 (rowAt t p) k)) from funext (iblk2_at m c t p)]

/-- The array of window 13 after the run is the specification's array. -/
theorem final13 (c : Dev nD) : (dats m 0 c).arrAt 13 cfg0.N = cellG m c :=
  (dats m 0 c).arrAt_eq_of_cover 13 (cellG m c) (fun t _ => flushed13_eq m c t) cover13

/-- What grid point `t` writes back through window 12 is block `t` of the specification's array. -/
theorem flushed12_eq (c : Dev nD) (t : Fin cfg0.N) :
    (dats m 0 c).flushed 12 t = ((cfg0.win 12).blk t).view.read (Elt Ideal) (hiddenG m c) := by
  show (cfg0.win 12).cut (grid0.coords t) ((dats m 0 c).after 12 t) = _
  rw [after0_12]
  unfold out0_12
  rw [View.canon_unit_zero hz]
  simp only [View.ld_unit_zero (S := S1024x1024) hz, View.ld_unit_zero (S := S1024x256) hz, View.ld_unit_zero (S := S1x256) hz, View.ld_unit_zero (S := S256x1024) hz, View.ld_unit_zero (S := S1x1024) hz, View.ld_unit_zero (S := S256x2) hz, View.ld_unit_zero (S := S1x2) hz]
  funext y
  obtain ⟨p, q, rfl⟩ : ∃ (p : Fin 1024) (q : Fin 256), y = ix2 p q := ⟨y 0, y 1, eq_ix2 y⟩
  refine (pay_hidden (iblk m c 0 t) (iblk m c 3 t) (iblk m c 4 t) (iblk m c 1 t) (iblk m c 5 t) (iblk m c 7 t) (iblk m c 6 t) (iblk m c 8 t) (iblk m c 2 t) (iblk m c 9 t) (iblk m c 10 t) p q).trans ?_
  refine (congrArg (fun W => newHidden W (fun k => iblk m c 0 t (ix2 p k)) (fun k => iblk m c 1 t (ix2 p k)) (fun k => iblk m c 2 t (ix2 p k)) q)
    (blockWeights_eq m c t)).trans ?_
  refine Eq.trans ?_ (congrArg (hiddenG m c) (emb12_at t p q)).symm
  show newHidden (argW m c) (fun k => iblk m c 0 t (ix2 p k)) (fun k => iblk m c 1 t (ix2 p k)) (fun k => iblk m c 2 t (ix2 p k)) q
    = newHidden (argW m c) (fun k => (m ((c : Thread nD τ).loc main_arg0)) (ix2 (rowAt t p) k)) (fun k => (m ((c : Thread nD τ).loc main_arg1)) (ix2 (rowAt t p) k)) (fun k => (m ((c : Thread nD τ).loc main_arg2)) (ix2 (rowAt t p) k)) q
  rw [show (fun k => iblk m c 0 t (ix2 p k)) = (fun k => (m ((c : Thread nD τ).loc main_arg0)) (ix2 (rowAt t p) k)) from funext (iblk0_at m c t p),
    show (fun k => iblk m c 1 t (ix2 p k)) = (fun k => (m ((c : Thread nD τ).loc main_arg1)) (ix2 (rowAt t p) k)) from funext (iblk1_at m c t p),
    show (fun k => iblk m c 2 t (ix2 p k)) = (fun k => (m ((c : Thread nD τ).loc main_arg2)) (ix2 (rowAt t p) k)) from funext (iblk2_at m c t p)]

/-- The array of window 12 after the run is the specification's array. -/
theorem final12 (c : Dev nD) : (dats m 0 c).arrAt 12 cfg0.N = hiddenG m c :=
  (dats m 0 c).arrAt_eq_of_cover 12 (hiddenG m c) (fun t _ => flushed12_eq m c t) cover12

/-- What grid point `t` writes back through window 11 is block `t` of the specification's array. -/
theorem flushed11_eq (c : Dev nD) (t : Fin cfg0.N) :
    (dats m 0 c).flushed 11 t = ((cfg0.win 11).blk t).view.read (Elt Ideal) (logpG m c) := by
  show (cfg0.win 11).cut (grid0.coords t) ((dats m 0 c).after 11 t) = _
  rw [after0_11]
  unfold out0_11
  rw [View.canon_unit_zero hz]
  simp only [View.ld_unit_zero (S := S1024x1024) hz, View.ld_unit_zero (S := S1024x256) hz, View.ld_unit_zero (S := S1x256) hz, View.ld_unit_zero (S := S256x1024) hz, View.ld_unit_zero (S := S1x1024) hz, View.ld_unit_zero (S := S256x2) hz, View.ld_unit_zero (S := S1x2) hz]
  funext y
  obtain ⟨p, q, rfl⟩ : ∃ (p : Fin 1024) (q : Fin 2), y = ix2 p q := ⟨y 0, y 1, eq_ix2 y⟩
  refine (pay_logp (iblk m c 0 t) (iblk m c 3 t) (iblk m c 4 t) (iblk m c 1 t) (iblk m c 5 t) (iblk m c 7 t) (iblk m c 6 t) (iblk m c 8 t) (iblk m c 2 t) (iblk m c 9 t) (iblk m c 10 t) p q).trans ?_
  refine (congrArg (fun W => logp W (fun k => iblk m c 0 t (ix2 p k)) (fun k => iblk m c 1 t (ix2 p k)) (fun k => iblk m c 2 t (ix2 p k)) q)
    (blockWeights_eq m c t)).trans ?_
  refine Eq.trans ?_ (congrArg (logpG m c) (emb11_at t p q)).symm
  show logp (argW m c) (fun k => iblk m c 0 t (ix2 p k)) (fun k => iblk m c 1 t (ix2 p k)) (fun k => iblk m c 2 t (ix2 p k)) q
    = logp (argW m c) (fun k => (m ((c : Thread nD τ).loc main_arg0)) (ix2 (rowAt t p) k)) (fun k => (m ((c : Thread nD τ).loc main_arg1)) (ix2 (rowAt t p) k)) (fun k => (m ((c : Thread nD τ).loc main_arg2)) (ix2 (rowAt t p) k)) q
  rw [show (fun k => iblk m c 0 t (ix2 p k)) = (fun k => (m ((c : Thread nD τ).loc main_arg0)) (ix2 (rowAt t p) k)) from funext (iblk0_at m c t p),
    show (fun k => iblk m c 1 t (ix2 p k)) = (fun k => (m ((c : Thread nD τ).loc main_arg1)) (ix2 (rowAt t p) k)) from funext (iblk1_at m c t p),
    show (fun k => iblk m c 2 t (ix2 p k)) = (fun k => (m ((c : Thread nD τ).loc main_arg2)) (ix2 (rowAt t p) k)) from funext (iblk2_at m c t p)]

/-- The array of window 11 after the run is the specification's array. -/
theorem final11 (c : Dev nD) : (dats m 0 c).arrAt 11 cfg0.N = logpG m c :=
  (dats m 0 c).arrAt_eq_of_cover 11 (logpG m c) (fun t _ => flushed11_eq m c t) cover11

/-! ## The run, read -/

/-- Every weakly fair execution of the idealized kernel terminates without a fault, with its three results at the
    specification's arrays of the arguments and every argument array as launched. -/
theorem run : θ_run defs (onTc (τ := τ) (main (F := Ideal))) ⟨m, fun _ => 0, ρ⟩ fun r => ∀ c : Dev nD,
      r.2.mem ((c.tc : Thread nD τ).loc main_v34_0) = logpG m c
      ∧ r.2.mem ((c.tc : Thread nD τ).loc main_v34_1) = hiddenG m c
      ∧ r.2.mem ((c.tc : Thread nD τ).loc main_v34_2) = cellG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun r h c => ⟨((h c).1 11).trans (final11 m c), ((h c).1 12).trans (final12 m c), ((h c).1 13).trans (final13 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c)⟩)
    (run_main m ρ)

end Cert.KernelIdeal.Arrays

end
-- ==== Proof.RefOps.lean ====
/-
  The reference program's @main as the list of its host operations.

  The reference's @main is a straight line of 99 host operations, the called log-softmax's operations standing in
  the call's place over the call's buffers. The program is that list run in order; the signature scopes no
  TensorCore buffer and no semaphore; and every operation touches TensorCore buffers only. These are the side
  conditions of the run of a straight line.
-/
import proofs.«115348_j53669911330986_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 99 operations, in order (a called function's operations stand in its call's place, spelt `TRef.…`). -/
abbrev ops : List (HloOp τ sig (Elt F)) :=
  [ unary main_arg3 main_v0 ((transpose S1024x256 [1, 0] · transposes_S256x1024_S1024x256_1_0) : (⟨S256x1024, .f32⟩ : BufTy).Contents (Elt F) → (⟨S1024x256, .f32⟩ : BufTy).Contents (Elt F)),
    binary main_arg0 main_v0 main_v1 ((fun l r => Host.dotGeneral dot_S32768x1024_S1024x256_S32768x256_1_0_0_1_n_n none l r) : (⟨S32768x1024, .f32⟩ : BufTy).Contents (Elt F) → (⟨S1024x256, .f32⟩ : BufTy).Contents (Elt F) → (⟨S32768x256, .f32⟩ : BufTy).Contents (Elt F)),
    unary main_arg4 main_v2 (broadcastInDim S1x256 ![1] bcast_S256_S1x256_1 : (⟨S256, .f32⟩ : BufTy).Contents (Elt F) → (⟨S1x256, .f32⟩ : BufTy).Contents (Elt F)),
    unary main_v2 main_v3 (broadcastInDim S32768x256 ![0, 1] bcast_S1x256_S32768x256_0_1 : (⟨S1x256, .f32⟩ : BufTy).Contents (Elt F) → (⟨S32768x256, .f32⟩ : BufTy).Contents (Elt F)),
    binary main_v1 main_v3 main_v4 (addf : (⟨S32768x256, .f32⟩ : BufTy).Contents (Elt F) → (⟨S32768x256, .f32⟩ : BufTy).Contents (Elt F) → (⟨S32768x256, .f32⟩ : BufTy).Contents (Elt F)),
    unary main_arg5 main_v5 ((transpose S256x256 [1, 0] · transposes_S256x256_S256x256_1_0) : (⟨S256x256, .f32⟩ : BufTy).Contents (Elt F) → (⟨S256x256, .f32⟩ : BufTy).Contents (Elt F)),
    binary main_v4 main_v5 main_v6 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg6 main_v7 (broadcastInDim S1x256 ![1] bcast_S256_S1x256_1 : (⟨S256, .f32⟩ : BufTy).Contents (Elt F) → (⟨S1x256, .f32⟩ : BufTy).Contents (Elt F)),
    unary main_v7 main_v8 (broadcastInDim S32768x256 ![0, 1] bcast_S1x256_S32768x256_0_1 : (⟨S1x256, .f32⟩ : BufTy).Contents (Elt F) → (⟨S32768x256, .f32⟩ : BufTy).Contents (Elt F)),
    binary main_v6 main_v8 main_v9 (addf : (⟨S32768x256, .f32⟩ : BufTy).Contents (Elt F) → (⟨S32768x256, .f32⟩ : BufTy).Contents (Elt F) → (⟨S32768x256, .f32⟩ : BufTy).Contents (Elt F)),
    unary main_arg13 main_v10 ((transpose S256x256 [1, 0] · transposes_S256x256_S256x256_1_0) : (⟨S256x256, .f32⟩ : BufTy).Contents (Elt F) → (⟨S256x256, .f32⟩ : BufTy).Contents (Elt F)),
    binary main_arg1 main_v10 main_v11 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    binary main_v9 main_v11 main_v12 (addf : (⟨S32768x256, .f32⟩ : BufTy).Contents (Elt F) → (⟨S32768x256, .f32⟩ : BufTy).Contents (Elt F) → (⟨S32768x256, .f32⟩ : BufTy).Contents (Elt F)),
    unary main_arg14 main_v13 (broadcastInDim S1x256 ![1] bcast_S256_S1x256_1 : (⟨S256, .f32⟩ : BufTy).Contents (Elt F) → (⟨S1x256, .f32⟩ : BufTy).Contents (Elt F)),
    unary main_v13 main_v14 (broadcastInDim S32768x256 ![0, 1] bcast_S1x256_S32768x256_0_1 : (⟨S1x256, .f32⟩ : BufTy).Contents (Elt F) → (⟨S32768x256, .f32⟩ : BufTy).Contents (Elt F)),
    binary main_v12 main_v14 main_v15 (addf : (⟨S32768x256, .f32⟩ : BufTy).Contents (Elt F) → (⟨S32768x256, .f32⟩ : BufTy).Contents (Elt F) → (⟨S32768x256, .f32⟩ : BufTy).Contents (Elt F)),
    unary main_v15 main_v16 (Host.negf : (⟨S32768x256, .f32⟩ : BufTy).Contents (Elt F) → (⟨S32768x256, .f32⟩ : BufTy).Contents (Elt F)),
    unary main_v16 main_v17 (Host.exp : (⟨S32768x256, .f32⟩ : BufTy).Contents (Elt F) → (⟨S32768x256, .f32⟩ : BufTy).Contents (Elt F)),
    nullary main_cst (constant S_ .f32 0x3F800000#32),
    unary main_cst main_v18 (broadcastInDim S32768x256 ![] bcast_S_S32768x256 : (⟨S_, .f32⟩ : BufTy).Contents (Elt F) → (⟨S32768x256, .f32⟩ : BufTy).Contents (Elt F)),
    binary main_v18 main_v17 main_v19 (addf : (⟨S32768x256, .f32⟩ : BufTy).Contents (Elt F) → (⟨S32768x256, .f32⟩ : BufTy).Contents (Elt F) → (⟨S32768x256, .f32⟩ : BufTy).Contents (Elt F)),
    nullary main_cst_0 (constant S_ .f32 0x3F800000#32),
    unary main_cst_0 main_v20 (broadcastInDim S32768x256 ![] bcast_S_S32768x256 : (⟨S_, .f32⟩ : BufTy).Contents (Elt F) → (⟨S32768x256, .f32⟩ : BufTy).Contents (Elt F)),
    binary main_v20 main_v19 main_v21 (Host.divf : (⟨S32768x256, .f32⟩ : BufTy).Contents (Elt F) → (⟨S32768x256, .f32⟩ : BufTy).Contents (Elt F) → (⟨S32768x256, .f32⟩ : BufTy).Contents (Elt F)),
    unary main_arg7 main_v22 ((transpose S256x256 [1, 0] · transposes_S256x256_S256x256_1_0) : (⟨S256x256, .f32⟩ : BufTy).Contents (Elt F) → (⟨S256x256, .f32⟩ : BufTy).Contents (Elt F)),
    binary main_v4 main_v22 main_v23 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg8 main_v24 (broadcastInDim S1x256 ![1] bcast_S256_S1x256_1 : (⟨S256, .f32⟩ : BufTy).Contents (Elt F) → (⟨S1x256, .f32⟩ : BufTy).Contents (Elt F)),
    unary main_v24 main_v25 (broadcastInDim S32768x256 ![0, 1] bcast_S1x256_S32768x256_0_1 : (⟨S1x256, .f32⟩ : BufTy).Contents (Elt F) → (⟨S32768x256, .f32⟩ : BufTy).Contents (Elt F)),
    binary main_v23 main_v25 main_v26 (addf : (⟨S32768x256, .f32⟩ : BufTy).Contents (Elt F) → (⟨S32768x256, .f32⟩ : BufTy).Contents (Elt F) → (⟨S32768x256, .f32⟩ : BufTy).Contents (Elt F)),
    unary main_arg15 main_v27 ((transpose S256x256 [1, 0] · transposes_S256x256_S256x256_1_0) : (⟨S256x256, .f32⟩ : BufTy).Contents (Elt F) → (⟨S256x256, .f32⟩ : BufTy).Contents (Elt F)),
    binary main_arg1 main_v27 main_v28 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    binary main_v26 main_v28 main_v29 (addf : (⟨S32768x256, .f32⟩ : BufTy).Contents (Elt F) → (⟨S32768x256, .f32⟩ : BufTy).Contents (Elt F) → (⟨S32768x256, .f32⟩ : BufTy).Contents (Elt F)),
    unary main_arg16 main_v30 (broadcastInDim S1x256 ![1] bcast_S256_S1x256_1 : (⟨S256, .f32⟩ : BufTy).Contents (Elt F) → (⟨S1x256, .f32⟩ : BufTy).Contents (Elt F)),
    unary main_v30 main_v31 (broadcastInDim S32768x256 ![0, 1] bcast_S1x256_S32768x256_0_1 : (⟨S1x256, .f32⟩ : BufTy).Contents (Elt F) → (⟨S32768x256, .f32⟩ : BufTy).Contents (Elt F)),
    binary main_v29 main_v31 main_v32 (addf : (⟨S32768x256, .f32⟩ : BufTy).Contents (Elt F) → (⟨S32768x256, .f32⟩ : BufTy).Contents (Elt F) → (⟨S32768x256, .f32⟩ : BufTy).Contents (Elt F)),
    unary main_v32 main_v33 (Host.negf : (⟨S32768x256, .f32⟩ : BufTy).Contents (Elt F) → (⟨S32768x256, .f32⟩ : BufTy).Contents (Elt F)),
    unary main_v33 main_v34 (Host.exp : (⟨S32768x256, .f32⟩ : BufTy).Contents (Elt F) → (⟨S32768x256, .f32⟩ : BufTy).Contents (Elt F)),
    nullary main_cst_1 (constant S_ .f32 0x3F800000#32),
    unary main_cst_1 main_v35 (broadcastInDim S32768x256 ![] bcast_S_S32768x256 : (⟨S_, .f32⟩ : BufTy).Contents (Elt F) → (⟨S32768x256, .f32⟩ : BufTy).Contents (Elt F)),
    binary main_v35 main_v34 main_v36 (addf : (⟨S32768x256, .f32⟩ : BufTy).Contents (Elt F) → (⟨S32768x256, .f32⟩ : BufTy).Contents (Elt F) → (⟨S32768x256, .f32⟩ : BufTy).Contents (Elt F)),
    nullary main_cst_2 (constant S_ .f32 0x3F800000#32),
    unary main_cst_2 main_v37 (broadcastInDim S32768x256 ![] bcast_S_S32768x256 : (⟨S_, .f32⟩ : BufTy).Contents (Elt F) → (⟨S32768x256, .f32⟩ : BufTy).Contents (Elt F)),
    binary main_v37 main_v36 main_v38 (Host.divf : (⟨S32768x256, .f32⟩ : BufTy).Contents (Elt F) → (⟨S32768x256, .f32⟩ : BufTy).Contents (Elt F) → (⟨S32768x256, .f32⟩ : BufTy).Contents (Elt F)),
    unary main_arg9 main_v39 ((transpose S256x256 [1, 0] · transposes_S256x256_S256x256_1_0) : (⟨S256x256, .f32⟩ : BufTy).Contents (Elt F) → (⟨S256x256, .f32⟩ : BufTy).Contents (Elt F)),
    binary main_v4 main_v39 main_v40 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg10 main_v41 (broadcastInDim S1x256 ![1] bcast_S256_S1x256_1 : (⟨S256, .f32⟩ : BufTy).Contents (Elt F) → (⟨S1x256, .f32⟩ : BufTy).Contents (Elt F)),
    unary main_v41 main_v42 (broadcastInDim S32768x256 ![0, 1] bcast_S1x256_S32768x256_0_1 : (⟨S1x256, .f32⟩ : BufTy).Contents (Elt F) → (⟨S32768x256, .f32⟩ : BufTy).Contents (Elt F)),
    binary main_v40 main_v42 main_v43 (addf : (⟨S32768x256, .f32⟩ : BufTy).Contents (Elt F) → (⟨S32768x256, .f32⟩ : BufTy).Contents (Elt F) → (⟨S32768x256, .f32⟩ : BufTy).Contents (Elt F)),
    unary main_arg17 main_v44 ((transpose S256x256 [1, 0] · transposes_S256x256_S256x256_1_0) : (⟨S256x256, .f32⟩ : BufTy).Contents (Elt F) → (⟨S256x256, .f32⟩ : BufTy).Contents (Elt F)),
    binary main_arg1 main_v44 main_v45 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    binary main_v43 main_v45 main_v46 (addf : (⟨S32768x256, .f32⟩ : BufTy).Contents (Elt F) → (⟨S32768x256, .f32⟩ : BufTy).Contents (Elt F) → (⟨S32768x256, .f32⟩ : BufTy).Contents (Elt F)),
    unary main_arg18 main_v47 (broadcastInDim S1x256 ![1] bcast_S256_S1x256_1 : (⟨S256, .f32⟩ : BufTy).Contents (Elt F) → (⟨S1x256, .f32⟩ : BufTy).Contents (Elt F)),
    unary main_v47 main_v48 (broadcastInDim S32768x256 ![0, 1] bcast_S1x256_S32768x256_0_1 : (⟨S1x256, .f32⟩ : BufTy).Contents (Elt F) → (⟨S32768x256, .f32⟩ : BufTy).Contents (Elt F)),
    binary main_v46 main_v48 main_v49 (addf : (⟨S32768x256, .f32⟩ : BufTy).Contents (Elt F) → (⟨S32768x256, .f32⟩ : BufTy).Contents (Elt F) → (⟨S32768x256, .f32⟩ : BufTy).Contents (Elt F)),
    unary main_v49 main_v50 (Host.tanh : (⟨S32768x256, .f32⟩ : BufTy).Contents (Elt F) → (⟨S32768x256, .f32⟩ : BufTy).Contents (Elt F)),
    binary main_v21 main_arg2 main_v51 (mulf : (⟨S32768x256, .f32⟩ : BufTy).Contents (Elt F) → (⟨S32768x256, .f32⟩ : BufTy).Contents (Elt F) → (⟨S32768x256, .f32⟩ : BufTy).Contents (Elt F)),
    binary main_v38 main_v50 main_v52 (mulf : (⟨S32768x256, .f32⟩ : BufTy).Contents (Elt F) → (⟨S32768x256, .f32⟩ : BufTy).Contents (Elt F) → (⟨S32768x256, .f32⟩ : BufTy).Contents (Elt F)),
    binary main_v51 main_v52 main_v53 (addf : (⟨S32768x256, .f32⟩ : BufTy).Contents (Elt F) → (⟨S32768x256, .f32⟩ : BufTy).Contents (Elt F) → (⟨S32768x256, .f32⟩ : BufTy).Contents (Elt F)),
    unary main_arg11 main_v54 ((transpose S256x256 [1, 0] · transposes_S256x256_S256x256_1_0) : (⟨S256x256, .f32⟩ : BufTy).Contents (Elt F) → (⟨S256x256, .f32⟩ : BufTy).Contents (Elt F)),
    binary main_v4 main_v54 main_v55 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg12 main_v56 (broadcastInDim S1x256 ![1] bcast_S256_S1x256_1 : (⟨S256, .f32⟩ : BufTy).Contents (Elt F) → (⟨S1x256, .f32⟩ : BufTy).Contents (Elt F)),
    unary main_v56 main_v57 (broadcastInDim S32768x256 ![0, 1] bcast_S1x256_S32768x256_0_1 : (⟨S1x256, .f32⟩ : BufTy).Contents (Elt F) → (⟨S32768x256, .f32⟩ : BufTy).Contents (Elt F)),
    binary main_v55 main_v57 main_v58 (addf : (⟨S32768x256, .f32⟩ : BufTy).Contents (Elt F) → (⟨S32768x256, .f32⟩ : BufTy).Contents (Elt F) → (⟨S32768x256, .f32⟩ : BufTy).Contents (Elt F)),
    unary main_arg19 main_v59 ((transpose S256x256 [1, 0] · transposes_S256x256_S256x256_1_0) : (⟨S256x256, .f32⟩ : BufTy).Contents (Elt F) → (⟨S256x256, .f32⟩ : BufTy).Contents (Elt F)),
    binary main_arg1 main_v59 main_v60 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    binary main_v58 main_v60 main_v61 (addf : (⟨S32768x256, .f32⟩ : BufTy).Contents (Elt F) → (⟨S32768x256, .f32⟩ : BufTy).Contents (Elt F) → (⟨S32768x256, .f32⟩ : BufTy).Contents (Elt F)),
    unary main_arg20 main_v62 (broadcastInDim S1x256 ![1] bcast_S256_S1x256_1 : (⟨S256, .f32⟩ : BufTy).Contents (Elt F) → (⟨S1x256, .f32⟩ : BufTy).Contents (Elt F)),
    unary main_v62 main_v63 (broadcastInDim S32768x256 ![0, 1] bcast_S1x256_S32768x256_0_1 : (⟨S1x256, .f32⟩ : BufTy).Contents (Elt F) → (⟨S32768x256, .f32⟩ : BufTy).Contents (Elt F)),
    binary main_v61 main_v63 main_v64 (addf : (⟨S32768x256, .f32⟩ : BufTy).Contents (Elt F) → (⟨S32768x256, .f32⟩ : BufTy).Contents (Elt F) → (⟨S32768x256, .f32⟩ : BufTy).Contents (Elt F)),
    unary main_v64 main_v65 (Host.negf : (⟨S32768x256, .f32⟩ : BufTy).Contents (Elt F) → (⟨S32768x256, .f32⟩ : BufTy).Contents (Elt F)),
    unary main_v65 main_v66 (Host.exp : (⟨S32768x256, .f32⟩ : BufTy).Contents (Elt F) → (⟨S32768x256, .f32⟩ : BufTy).Contents (Elt F)),
    nullary main_cst_3 (constant S_ .f32 0x3F800000#32),
    unary main_cst_3 main_v67 (broadcastInDim S32768x256 ![] bcast_S_S32768x256 : (⟨S_, .f32⟩ : BufTy).Contents (Elt F) → (⟨S32768x256, .f32⟩ : BufTy).Contents (Elt F)),
    binary main_v67 main_v66 main_v68 (addf : (⟨S32768x256, .f32⟩ : BufTy).Contents (Elt F) → (⟨S32768x256, .f32⟩ : BufTy).Contents (Elt F) → (⟨S32768x256, .f32⟩ : BufTy).Contents (Elt F)),
    nullary main_cst_4 (constant S_ .f32 0x3F800000#32),
    unary main_cst_4 main_v69 (broadcastInDim S32768x256 ![] bcast_S_S32768x256 : (⟨S_, .f32⟩ : BufTy).Contents (Elt F) → (⟨S32768x256, .f32⟩ : BufTy).Contents (Elt F)),
    binary main_v69 main_v68 main_v70 (Host.divf : (⟨S32768x256, .f32⟩ : BufTy).Contents (Elt F) → (⟨S32768x256, .f32⟩ : BufTy).Contents (Elt F) → (⟨S32768x256, .f32⟩ : BufTy).Contents (Elt F)),
    unary main_v53 main_v71 (Host.tanh : (⟨S32768x256, .f32⟩ : BufTy).Contents (Elt F) → (⟨S32768x256, .f32⟩ : BufTy).Contents (Elt F)),
    binary main_v70 main_v71 main_v72 (mulf : (⟨S32768x256, .f32⟩ : BufTy).Contents (Elt F) → (⟨S32768x256, .f32⟩ : BufTy).Contents (Elt F) → (⟨S32768x256, .f32⟩ : BufTy).Contents (Elt F)),
    unary main_arg21 main_v73 ((transpose S256x2 [1, 0] · transposes_S2x256_S256x2_1_0) : (⟨S2x256, .f32⟩ : BufTy).Contents (Elt F) → (⟨S256x2, .f32⟩ : BufTy).Contents (Elt F)),
    binary main_v72 main_v73 main_v74 ((fun l r => Host.dotGeneral dot_S32768x256_S256x2_S32768x2_1_0_0_1_n_n none l r) : (⟨S32768x256, .f32⟩ : BufTy).Contents (Elt F) → (⟨S256x2, .f32⟩ : BufTy).Contents (Elt F) → (⟨S32768x2, .f32⟩ : BufTy).Contents (Elt F)),
    unary main_arg22 main_v75 (broadcastInDim S1x2 ![1] bcast_S2_S1x2_1 : (⟨S2, .f32⟩ : BufTy).Contents (Elt F) → (⟨S1x2, .f32⟩ : BufTy).Contents (Elt F)),
    unary main_v75 main_v76 (broadcastInDim S32768x2 ![0, 1] bcast_S1x2_S32768x2_0_1 : (⟨S1x2, .f32⟩ : BufTy).Contents (Elt F) → (⟨S32768x2, .f32⟩ : BufTy).Contents (Elt F)),
    binary main_v74 main_v76 main_v77 (addf : (⟨S32768x2, .f32⟩ : BufTy).Contents (Elt F) → (⟨S32768x2, .f32⟩ : BufTy).Contents (Elt F) → (⟨S32768x2, .f32⟩ : BufTy).Contents (Elt F)),
    TRef.nullary (TRef.of (T := ⟨S_, .f32⟩) main_call0_cst) (constant S_ .f32 0xFF800000#32),
    TRef.binary (TRef.of (T := ⟨S32768x2, .f32⟩) main_v77) (TRef.of (T := ⟨S_, .f32⟩) main_call0_cst) (TRef.of (T := ⟨S32768, .f32⟩) main_call0_v0) (fun x v => Host.reduce FloatOps.maximumf x v reducesTo_S32768x2_S32768_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S32768, .f32⟩) main_call0_v1) (broadcastInDim S32768 ![] bcast_S_S32768),
    TRef.binary (TRef.of (T := ⟨S32768, .f32⟩) main_call0_v1) (TRef.of (T := ⟨S32768, .f32⟩) main_call0_v0) (TRef.of (T := ⟨S32768, .f32⟩) main_call0_v2) maximumf,
    TRef.unary (TRef.of (T := ⟨S32768, .f32⟩) main_call0_v2) (TRef.of (T := ⟨S32768x1, .f32⟩) main_call0_v3) (broadcastInDim S32768x1 ![0] bcast_S32768_S32768x1_0),
    TRef.unary (TRef.of (T := ⟨S32768x1, .f32⟩) main_call0_v3) (TRef.of (T := ⟨S32768x2, .f32⟩) main_call0_v4) (broadcastInDim S32768x2 ![0, 1] bcast_S32768x1_S32768x2_0_1),
    TRef.binary (TRef.of (T := ⟨S32768x2, .f32⟩) main_v77) (TRef.of (T := ⟨S32768x2, .f32⟩) main_call0_v4) (TRef.of (T := ⟨S32768x2, .f32⟩) main_call0_v5) subf,
    TRef.unary (TRef.of (T := ⟨S32768x2, .f32⟩) main_call0_v5) (TRef.of (T := ⟨S32768x2, .f32⟩) main_call0_v6) Host.exp,
    TRef.nullary (TRef.of (T := ⟨S_, .f32⟩) main_call0_cst_1) (constant S_ .f32 0x00000000#32),
    TRef.binary (TRef.of (T := ⟨S32768x2, .f32⟩) main_call0_v6) (TRef.of (T := ⟨S_, .f32⟩) main_call0_cst_1) (TRef.of (T := ⟨S32768, .f32⟩) main_call0_v7) (fun x v => Host.reduceAdd x v reducesTo_S32768x2_S32768_d1 h_S_),
    TRef.unary (TRef.of (T := ⟨S32768, .f32⟩) main_call0_v7) (TRef.of (T := ⟨S32768x1, .f32⟩) main_call0_v8) (broadcastInDim S32768x1 ![0] bcast_S32768_S32768x1_0),
    TRef.unary (TRef.of (T := ⟨S32768x1, .f32⟩) main_call0_v8) (TRef.of (T := ⟨S32768x1, .f32⟩) main_call0_v9) Host.log,
    TRef.unary (TRef.of (T := ⟨S32768x1, .f32⟩) main_call0_v9) (TRef.of (T := ⟨S32768x2, .f32⟩) main_call0_v10) (broadcastInDim S32768x2 ![0, 1] bcast_S32768x1_S32768x2_0_1),
    TRef.binary (TRef.of (T := ⟨S32768x2, .f32⟩) main_call0_v5) (TRef.of (T := ⟨S32768x2, .f32⟩) main_call0_v10) (TRef.of (T := ⟨S32768x2, .f32⟩) main_v78) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., unary_bufs_sub .., binary_bufs_sub .., binary_bufs_sub .., binary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.RefRun

end
-- ==== Proof.LibLogSoftmaxRows.lean ====
/-
  The row-wise log-softmax of an array [R, C] and the row sums built on it, read at an entry.

  A kernel and the host compute the log-softmax of every row of an array of extended reals with different operations and in
  different arrangements. The kernel reduces each row to its maximum `M` (from the word of -∞) and recasts the maxima as a
  column; it forms `exp (x - M)`, sums it along the row, takes the logarithm `L`, ADDS `M + L` in the column, spreads that
  column over the row and subtracts once: the entry `(p, k)` is `x p k - (M p + L p)`. The host reduces each row to its
  maximum, takes the maximum with -∞ once more (which changes nothing), spreads it over the row, subtracts it, and then
  subtracts the spread logarithm of the row's sum of exponentials: the entry is `(x p k - M p) - L p`.
  On top of either, a row's sum `Σ_k exp (ls x1 p k) · (ls x1 p k - ls x0 p k)`.

  Each of these arrays is read here at an entry as the one-row function of the row's entries (the specification of the two
  arrangements and the law that joins them on real numbers are in the module on the row's sum). No finiteness is needed
  for reading: the arrays ARE these functions of their rows over all extended reals.
-/
import Mathlib
import Idealize.ShloMosaic.PureOps.Ideal
import Idealize.ShloMosaic.PureOps.Ideal.Laws
import Idealize.ShloMosaic.Lib.Pipeline.Value
import Idealize.ShloMosaic.Lib.ValueIdx
import proofs.«115348_j53669911330986_2_alg».proof.Proof.LibRowReduce
import proofs.«115348_j53669911330986_2_alg».proof.Proof.LibColBroadcast
import proofs.«115348_j53669911330986_2_alg».proof.Proof.LibRowKL

noncomputable section

open scoped BigOperators

namespace Cert.LibLogSoftmaxRows

open Idealize.ShloMosaic Idealize.ShloMosaic.ValueIdx
open Cert.LibRowKL

variable {R C : ℕ}

/-- The two spellings of "the maximum of a row folded from -∞" are one definition. -/
theorem rowMax_eq (f : Fin C → EReal) : Cert.LibRowReduce.rowMax f = Cert.LibSoftmaxRow.rowMax f := rfl

/-- A reduction along axis 1 into a vector (at least one axis is left) from the same reduction stated for the host. -/
theorem reduces_of_reducesTo (h' : (⟨2, ![R, C]⟩ : Shape).ReducesTo [1] (⟨1, ![R]⟩ : Shape)) :
    (⟨2, ![R, C]⟩ : Shape).Reduces [1] (⟨1, ![R]⟩ : Shape) :=
  let ⟨e, f⟩ := h'; ⟨e, Nat.one_pos, f⟩

/-! ## Three host broadcasts read at an entry -/

section Broadcasts
variable {α : Type}

/-- A scalar spread over a vector [R] reads the scalar. -/
theorem bcast_scalar_vec_apply (b0 : (⟨0, ![]⟩ : Shape).BroadcastsInDim (⟨1, ![R]⟩ : Shape) ![])
    (v : (⟨0, ![]⟩ : Shape).Idx → α) (p : Fin R) : broadcastInDim (⟨1, ![R]⟩ : Shape) ![] b0 v (ix1 p) = v ix0 :=
  broadcastInDim_apply _ b0 v (ix1 p) ix0 (fun a => a.elim0)

/-- A vector [R] recast as the column [R, 1] along axis 0 reads its entry `p`. -/
theorem bcast_vec_col_apply (b1 : (⟨1, ![R]⟩ : Shape).BroadcastsInDim (⟨2, ![R, 1]⟩ : Shape) ![0])
    (v : (⟨1, ![R]⟩ : Shape).Idx → α) (p : Fin R) :
    broadcastInDim (⟨2, ![R, 1]⟩ : Shape) ![0] b1 v (ix2 p (0 : Fin 1)) = v (ix1 p) := by
  refine broadcastInDim_apply _ b1 v (ix2 p (0 : Fin 1)) (ix1 p) fun a => ?_
  match a with
  | ⟨0, _⟩ =>
    show p.val = if R = 1 then 0 else p.val
    split
    · have := p.isLt; omega
    · rfl

/-- A column [R, 1] spread over [R, C] reads, at `(p, k)`, the column's entry `p`. -/
theorem bcast_col_rows_apply (b2 : (⟨2, ![R, 1]⟩ : Shape).BroadcastsInDim (⟨2, ![R, C]⟩ : Shape) ![0, 1])
    (v : (⟨2, ![R, 1]⟩ : Shape).Idx → α) (p : Fin R) (k : Fin C) :
    broadcastInDim (⟨2, ![R, C]⟩ : Shape) ![0, 1] b2 v (ix2 p k) = v (ix2 p (0 : Fin 1)) := by
  refine broadcastInDim_apply _ b2 v (ix2 p k) (ix2 p (0 : Fin 1)) fun a => ?_
  match a with
  | ⟨0, _⟩ =>
    show p.val = if R = 1 then 0 else p.val
    split
    · have := p.isLt; omega
    · rfl
  | ⟨1, _⟩ => rfl

end Broadcasts

/-! ## The kernel's arrangement -/

section Kernel

variable (x x0 x1 : FVec Ideal ⟨2, ![R, C]⟩ .f32)
  (hr : (⟨2, ![R, C]⟩ : Shape).Reduces [1] (⟨1, ![R]⟩ : Shape)) (hφ : FKind.Formats .f32)
  (hmax : (0xFF800000#32 : BitVec 32) = FKind.maximumf.neutral .f32 hφ)
  (hadd : (0x00000000#32 : BitVec 32) = FKind.add.neutral .f32 hφ)
  (hc : (⟨1, ![R]⟩ : Shape).ShapeCasts ⟨2, ![R, 1]⟩)
  (hb : (⟨2, ![R, 1]⟩ : Shape).Broadcasts ⟨2, ![R, C]⟩)

/-- The rows' maxima as a column. -/
def kMaxCol : FVec Ideal ⟨2, ![R, 1]⟩ .f32 :=
  shapeCast ⟨2, ![R, 1]⟩ (multiReduction (F := Ideal) .maximumf [1] ⟨1, ![R]⟩ x 0xFF800000#32 hr hφ hmax) hc

/-- The rows' normalisers `M + L` as a column. -/
def kNormCol : FVec Ideal ⟨2, ![R, 1]⟩ .f32 :=
  addf (F := Ideal) (kMaxCol x hr hφ hmax hc)
    (log (F := Ideal) (shapeCast ⟨2, ![R, 1]⟩
      (multiReduction (F := Ideal) .add [1] ⟨1, ![R]⟩
        (exp (F := Ideal) (subf (F := Ideal) x (broadcastTo ⟨2, ![R, C]⟩ (kMaxCol x hr hφ hmax hc) hb))) 0x00000000#32 hr hφ hadd) hc))

/-- The kernel's log-softmax: every entry less its row's normaliser. -/
def kLogSoftmax : FVec Ideal ⟨2, ![R, C]⟩ .f32 :=
  subf (F := Ideal) x (broadcastTo ⟨2, ![R, C]⟩ (kNormCol x hr hφ hmax hadd hc hb) hb)

/-- The kernel's row sums as a column. -/
def kRowKL : FVec Ideal ⟨2, ![R, 1]⟩ .f32 :=
  shapeCast ⟨2, ![R, 1]⟩
    (multiReduction (F := Ideal) .add [1] ⟨1, ![R]⟩
      (mulf (F := Ideal) (exp (F := Ideal) (kLogSoftmax x1 hr hφ hmax hadd hc hb))
        (subf (F := Ideal) (kLogSoftmax x1 hr hφ hmax hadd hc hb) (kLogSoftmax x0 hr hφ hmax hadd hc hb)))
      0x00000000#32 hr hφ hadd) hc

theorem kMaxCol_apply (p : Fin R) :
    kMaxCol x hr hφ hmax hc (ix2 p (0 : Fin 1)) = Cert.LibSoftmaxRow.rowMax fun k => x (ix2 p k) :=
  (Cert.LibRowReduce.shapeCast_col_apply _ hc p).trans (Cert.LibRowReduce.multiReduction_max_row x hr hφ hmax p)

theorem kNormCol_apply (p : Fin R) :
    kNormCol x hr hφ hmax hadd hc hb (ix2 p (0 : Fin 1))
      = Cert.LibSoftmaxRow.rowMax (fun k => x (ix2 p k)) + logNorm (fun k => x (ix2 p k)) := by
  refine congrArg₂ (· + ·) (kMaxCol_apply x hr hφ hmax hc p) ?_
  refine congrArg Ideal.log ?_
  refine (Cert.LibRowReduce.shapeCast_col_apply _ hc p).trans ?_
  refine (Cert.LibRowReduce.multiReduction_add_row _ hr hφ hadd p).trans ?_
  refine Finset.sum_congr rfl fun k _ => ?_
  refine congrArg Ideal.exp ?_
  refine congrArg (x (ix2 p k) - ·) ?_
  exact (Cert.LibColBroadcast.broadcastTo_a1_ab_apply _ hb p k).trans (kMaxCol_apply x hr hφ hmax hc p)

/-- The kernel's log-softmax at `(p, k)` is the one-row function with the normaliser formed first. -/
theorem kLogSoftmax_apply (p : Fin R) (k : Fin C) :
    kLogSoftmax x hr hφ hmax hadd hc hb (ix2 p k) = logSoftOnce (fun j => x (ix2 p j)) k := by
  refine congrArg (x (ix2 p k) - ·) ?_
  exact (Cert.LibColBroadcast.broadcastTo_a1_ab_apply _ hb p k).trans (kNormCol_apply x hr hφ hmax hadd hc hb p)

/-- The kernel's row sum of row `p` is the row's sum in the first arrangement. -/
theorem kRowKL_apply (p : Fin R) :
    kRowKL x0 x1 hr hφ hmax hadd hc hb (ix2 p (0 : Fin 1))
      = rowKLOnce (fun k => x0 (ix2 p k)) (fun k => x1 (ix2 p k)) := by
  refine (Cert.LibRowReduce.shapeCast_col_apply _ hc p).trans ?_
  refine (Cert.LibRowReduce.multiReduction_add_row _ hr hφ hadd p).trans ?_
  refine Finset.sum_congr rfl fun k _ => ?_
  show Ideal.exp (kLogSoftmax x1 hr hφ hmax hadd hc hb (ix2 p k))
      * (kLogSoftmax x1 hr hφ hmax hadd hc hb (ix2 p k) - kLogSoftmax x0 hr hφ hmax hadd hc hb (ix2 p k)) = _
  rw [kLogSoftmax_apply x1 hr hφ hmax hadd hc hb p k, kLogSoftmax_apply x0 hr hφ hmax hadd hc hb p k]

end Kernel

/-! ## The host's arrangement -/

section Host

variable (x x0 x1 : FVec Ideal ⟨2, ![R, C]⟩ .f32)
  (h' : (⟨2, ![R, C]⟩ : Shape).ReducesTo [1] (⟨1, ![R]⟩ : Shape)) (hu : 0 < (⟨0, ![]⟩ : Shape).numel)
  (b0 : (⟨0, ![]⟩ : Shape).BroadcastsInDim (⟨1, ![R]⟩ : Shape) ![])
  (b1 : (⟨1, ![R]⟩ : Shape).BroadcastsInDim (⟨2, ![R, 1]⟩ : Shape) ![0])
  (b2 : (⟨2, ![R, 1]⟩ : Shape).BroadcastsInDim (⟨2, ![R, C]⟩ : Shape) ![0, 1])

/-- Every entry replaced by its row's maximum. -/
def hMaxSpread : FVec Ideal ⟨2, ![R, C]⟩ .f32 :=
  broadcastInDim ⟨2, ![R, C]⟩ ![0, 1] b2 (broadcastInDim ⟨2, ![R, 1]⟩ ![0] b1
    (maximumf (F := Ideal) (broadcastInDim ⟨1, ![R]⟩ ![] b0 (constant (F := Ideal) ⟨0, ![]⟩ .f32 0xFF800000#32))
      (Host.reduce FloatOps.maximumf x (constant (F := Ideal) ⟨0, ![]⟩ .f32 0xFF800000#32) h' hu)))

/-- Every entry less its row's maximum. -/
def hShifted : FVec Ideal ⟨2, ![R, C]⟩ .f32 := subf (F := Ideal) x (hMaxSpread x h' hu b0 b1 b2)

/-- The host's log-softmax. -/
def hLogSoftmax : FVec Ideal ⟨2, ![R, C]⟩ .f32 :=
  subf (F := Ideal) (hShifted x h' hu b0 b1 b2)
    (broadcastInDim ⟨2, ![R, C]⟩ ![0, 1] b2 (Host.log (F := Ideal) (broadcastInDim ⟨2, ![R, 1]⟩ ![0] b1
      (Host.reduceAdd (F := Ideal) (Host.exp (F := Ideal) (hShifted x h' hu b0 b1 b2))
        (constant (F := Ideal) ⟨0, ![]⟩ .f32 0x00000000#32) h' hu))))

/-- The host's row sums. -/
def hRowKL : FVec Ideal ⟨1, ![R]⟩ .f32 :=
  Host.reduceAdd (F := Ideal)
    (mulf (F := Ideal) (Host.exp (F := Ideal) (hLogSoftmax x1 h' hu b0 b1 b2))
      (subf (F := Ideal) (hLogSoftmax x1 h' hu b0 b1 b2) (hLogSoftmax x0 h' hu b0 b1 b2)))
    (constant (F := Ideal) ⟨0, ![]⟩ .f32 0x00000000#32) h' hu

theorem hMaxSpread_apply (p : Fin R) (k : Fin C) :
    hMaxSpread x h' hu b0 b1 b2 (ix2 p k) = Cert.LibSoftmaxRow.rowMax fun j => x (ix2 p j) := by
  refine (bcast_col_rows_apply b2 _ p k).trans ((bcast_vec_col_apply b1 _ p).trans ?_)
  show max (broadcastInDim (⟨1, ![R]⟩ : Shape) ![] b0 (constant (F := Ideal) ⟨0, ![]⟩ .f32 0xFF800000#32) (ix1 p))
      (Host.reduce FloatOps.maximumf x (constant (F := Ideal) ⟨0, ![]⟩ .f32 0xFF800000#32) h' hu (ix1 p)) = _
  rw [bcast_scalar_vec_apply b0 _ p]
  refine (Cert.LibRowReduce.max_negInf _).trans ?_
  exact Cert.LibRowReduce.hostReduce_max_row x _ (fun _ => rfl) h' (reduces_of_reducesTo h') hu p

theorem hShifted_apply (p : Fin R) (k : Fin C) :
    hShifted x h' hu b0 b1 b2 (ix2 p k) = x (ix2 p k) - Cert.LibSoftmaxRow.rowMax fun j => x (ix2 p j) :=
  congrArg (x (ix2 p k) - ·) (hMaxSpread_apply x h' hu b0 b1 b2 p k)

/-- The host's log-softmax at `(p, k)` is the one-row function with the maximum subtracted first. -/
theorem hLogSoftmax_apply (p : Fin R) (k : Fin C) :
    hLogSoftmax x h' hu b0 b1 b2 (ix2 p k) = logSoftTwice (fun j => x (ix2 p j)) k := by
  refine congrArg₂ (· - ·) (hShifted_apply x h' hu b0 b1 b2 p k) ?_
  refine (bcast_col_rows_apply b2 _ p k).trans ?_
  refine congrArg Ideal.log ?_
  refine (bcast_vec_col_apply b1 _ p).trans ?_
  refine (Cert.LibRowReduce.hostReduceAdd_row _ _ (fun _ => Ideal.ofBits_zero_f32) h' (reduces_of_reducesTo h') hu p).trans ?_
  refine Finset.sum_congr rfl fun j _ => ?_
  exact congrArg Ideal.exp (hShifted_apply x h' hu b0 b1 b2 p j)

/-- The host's row sum of row `p` is the row's sum in the second arrangement. -/
theorem hRowKL_apply (p : Fin R) :
    hRowKL x0 x1 h' hu b0 b1 b2 (ix1 p) = rowKLTwice (fun k => x0 (ix2 p k)) (fun k => x1 (ix2 p k)) := by
  refine (Cert.LibRowReduce.hostReduceAdd_row _ _ (fun _ => Ideal.ofBits_zero_f32) h' (reduces_of_reducesTo h') hu p).trans ?_
  refine Finset.sum_congr rfl fun k _ => ?_
  show Ideal.exp (hLogSoftmax x1 h' hu b0 b1 b2 (ix2 p k))
      * (hLogSoftmax x1 h' hu b0 b1 b2 (ix2 p k) - hLogSoftmax x0 h' hu b0 b1 b2 (ix2 p k)) = _
  rw [hLogSoftmax_apply x1 h' hu b0 b1 b2 p k, hLogSoftmax_apply x0 h' hu b0 b1 b2 p k]

end Host

/-! ## The two arrangements on real entries -/

/-- With every entry of both arrays a real number and at least one column, the kernel's column of row sums and the host's
    vector of row sums agree row by row. -/
theorem kRowKL_eq_hRowKL (hC : 0 < C) (x0 x1 : FVec Ideal ⟨2, ![R, C]⟩ .f32)
    (hx0 : ∀ i, Cert.LibRealSum.IsReal (x0 i)) (hx1 : ∀ i, Cert.LibRealSum.IsReal (x1 i))
    (hr : (⟨2, ![R, C]⟩ : Shape).Reduces [1] (⟨1, ![R]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![R]⟩ : Shape).ShapeCasts ⟨2, ![R, 1]⟩)
    (hb : (⟨2, ![R, 1]⟩ : Shape).Broadcasts ⟨2, ![R, C]⟩)
    (h' : (⟨2, ![R, C]⟩ : Shape).ReducesTo [1] (⟨1, ![R]⟩ : Shape)) (hu : 0 < (⟨0, ![]⟩ : Shape).numel)
    (b0 : (⟨0, ![]⟩ : Shape).BroadcastsInDim (⟨1, ![R]⟩ : Shape) ![])
    (b1 : (⟨1, ![R]⟩ : Shape).BroadcastsInDim (⟨2, ![R, 1]⟩ : Shape) ![0])
    (b2 : (⟨2, ![R, 1]⟩ : Shape).BroadcastsInDim (⟨2, ![R, C]⟩ : Shape) ![0, 1]) (p : Fin R) :
    kRowKL x0 x1 hr hφ hmax hadd hc hb (ix2 p (0 : Fin 1)) = hRowKL x0 x1 h' hu b0 b1 b2 (ix1 p) := by
  rw [kRowKL_apply, hRowKL_apply]
  exact rowKLOnce_eq_rowKLTwice hC _ _ (fun k => hx0 _) (fun k => hx1 _)

end Cert.LibLogSoftmaxRows

end
-- ==== Proof.RefStages.lean ====
/-
  The reference program's three results as staged functions of its argument arrays, at the extended reals.

  The reference computes, over whole arrays [32768, ·]: the embedding `x · Wembᵀ + bemb`; for each of the four
  gates the pre-activation `((e · Wᵀ + b) + h · Whᵀ) + bh`; the logistic function as `1 / (1 + exp(−g))`; the new
  cell `σ(f) · c + σ(i) · tanh(g)`; the new hidden state `σ(o) · tanh(c')`; the logits `h' · Wendᵀ + bend`; and
  their row-wise log-softmax with the row maximum subtracted first. Each stage below is that host operation
  sequence, spelt with the program's own operations and dimension records, so that the program's run ends at these
  terms, and each can be read at an index on its own.
-/
import proofs.«115348_j53669911330986_2_alg».proof.Proof.Gen.ReferenceIdeal
import proofs.«115348_j53669911330986_2_alg».proof.Proof.LibLogSoftmaxRows
import Idealize.ShloMosaic.PureOps.Ideal

noncomputable section

namespace Cert.RefStages

open Cert.ReferenceIdeal Cert.ReferenceIdeal.Gen Idealize.ShloMosaic

/-- A bias vector [256] spread over the 32768 rows. -/
def biasRows (b : FVec Ideal S256 .f32) : FVec Ideal S32768x256 .f32 :=
  broadcastInDim S32768x256 ![0, 1] bcast_S1x256_S32768x256_0_1 (broadcastInDim S1x256 ![1] bcast_S256_S1x256_1 b)

/-- The embedding: x · Wembᵀ + bemb. -/
def embS (x0 : FVec Ideal S32768x1024 .f32) (x3 : FVec Ideal S256x1024 .f32) (x4 : FVec Ideal S256 .f32) : FVec Ideal S32768x256 .f32 :=
  addf (Host.dotGeneral dot_S32768x1024_S1024x256_S32768x256_1_0_0_1_n_n none x0 (transpose S1024x256 [1, 0] x3 transposes_S256x1024_S1024x256_1_0))
    (biasRows x4)

/-- A gate's pre-activation: ((e · Wᵀ + b) + h · Whᵀ) + bh. -/
def gateS (e h : FVec Ideal S32768x256 .f32) (W : FVec Ideal S256x256 .f32) (b : FVec Ideal S256 .f32)
    (Wh : FVec Ideal S256x256 .f32) (bh : FVec Ideal S256 .f32) : FVec Ideal S32768x256 .f32 :=
  addf (addf (addf (Host.dotGeneral dot_S32768x256_S256x256_S32768x256_1_0_0_1_n_n none e (transpose S256x256 [1, 0] W transposes_S256x256_S256x256_1_0))
      (biasRows b))
    (Host.dotGeneral dot_S32768x256_S256x256_S32768x256_1_0_0_1_n_n none h (transpose S256x256 [1, 0] Wh transposes_S256x256_S256x256_1_0)))
    (biasRows bh)

/-- The constant 1.0 spread over [32768, 256]. -/
def oneRows : FVec Ideal S32768x256 .f32 :=
  broadcastInDim S32768x256 ![] bcast_S_S32768x256 (constant S_ .f32 0x3F800000#32)

/-- The logistic function, entry by entry: 1 / (1 + exp(−g)). -/
def sigS (g : FVec Ideal S32768x256 .f32) : FVec Ideal S32768x256 .f32 :=
  Host.divf oneRows (addf oneRows (Host.exp (Host.negf g)))

variable (x0 : FVec Ideal S32768x1024 .f32) (x1 x2 : FVec Ideal S32768x256 .f32) (x3 : FVec Ideal S256x1024 .f32) (x4 : FVec Ideal S256 .f32)
  (x5 : FVec Ideal S256x256 .f32) (x6 : FVec Ideal S256 .f32) (x7 : FVec Ideal S256x256 .f32) (x8 : FVec Ideal S256 .f32)
  (x9 : FVec Ideal S256x256 .f32) (x10 : FVec Ideal S256 .f32) (x11 : FVec Ideal S256x256 .f32) (x12 : FVec Ideal S256 .f32)
  (x13 : FVec Ideal S256x256 .f32) (x14 : FVec Ideal S256 .f32) (x15 : FVec Ideal S256x256 .f32) (x16 : FVec Ideal S256 .f32)
  (x17 : FVec Ideal S256x256 .f32) (x18 : FVec Ideal S256 .f32) (x19 : FVec Ideal S256x256 .f32) (x20 : FVec Ideal S256 .f32)
  (x21 : FVec Ideal S2x256 .f32) (x22 : FVec Ideal S2 .f32)

/-- The new cell state: σ(forget) · c + σ(input) · tanh(candidate). -/
def cellS : FVec Ideal S32768x256 .f32 :=
  addf (mulf (sigS (gateS (embS x0 x3 x4) x1 x5 x6 x13 x14)) x2)
    (mulf (sigS (gateS (embS x0 x3 x4) x1 x7 x8 x15 x16)) (Host.tanh (gateS (embS x0 x3 x4) x1 x9 x10 x17 x18)))

/-- The new hidden state: σ(output) · tanh(new cell). -/
def hiddenS : FVec Ideal S32768x256 .f32 :=
  mulf (sigS (gateS (embS x0 x3 x4) x1 x11 x12 x19 x20))
    (Host.tanh (cellS x0 x1 x2 x3 x4 x5 x6 x7 x8 x9 x10 x13 x14 x15 x16 x17 x18))

/-- The logits: h' · Wendᵀ + bend. -/
def logitsS : FVec Ideal S32768x2 .f32 :=
  addf (Host.dotGeneral dot_S32768x256_S256x2_S32768x2_1_0_0_1_n_n none
      (hiddenS x0 x1 x2 x3 x4 x5 x6 x7 x8 x9 x10 x11 x12 x13 x14 x15 x16 x17 x18 x19 x20)
      (transpose S256x2 [1, 0] x21 transposes_S2x256_S256x2_1_0))
    (broadcastInDim S32768x2 ![0, 1] bcast_S1x2_S32768x2_0_1 (broadcastInDim S1x2 ![1] bcast_S2_S1x2_1 x22))

/-- The log-probabilities: the row-wise log-softmax of the logits, the row maximum subtracted first. -/
def logpS : FVec Ideal S32768x2 .f32 :=
  Cert.LibLogSoftmaxRows.hLogSoftmax
    (logitsS x0 x1 x2 x3 x4 x5 x6 x7 x8 x9 x10 x11 x12 x13 x14 x15 x16 x17 x18 x19 x20 x21 x22)
    reducesTo_S32768x2_S32768_d1 h_S_ bcast_S_S32768 bcast_S32768_S32768x1_0 bcast_S32768x1_S32768x2_0_1

end Cert.RefStages

end
-- ==== Proof.RefRun.lean ====
/-
  The reference program's run, read back against its staged results.

  Every weakly fair execution of the reference's @main terminates. At the end each of its three result buffers
  holds the operations' composed function of the arguments' launch contents — the staged definitions of the new
  cell, the new hidden state and the log-probabilities — and every argument buffer holds what it held at launch,
  since no operation writes an argument.
-/
import proofs.«115348_j53669911330986_2_alg».proof.Proof.RefOps
import proofs.«115348_j53669911330986_2_alg».proof.Proof.RefStages

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- What the buffers hold after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first 84 operations: the cell step and the logits. -/
abbrev opsA : List (HloOp τ sig (Elt F)) :=
  [ unary main_arg3 main_v0 ((transpose S1024x256 [1, 0] · transposes_S256x1024_S1024x256_1_0) : (⟨S256x1024, .f32⟩ : BufTy).Contents (Elt F) → (⟨S1024x256, .f32⟩ : BufTy).Contents (Elt F)),
    binary main_arg0 main_v0 main_v1 ((fun l r => Host.dotGeneral dot_S32768x1024_S1024x256_S32768x256_1_0_0_1_n_n none l r) : (⟨S32768x1024, .f32⟩ : BufTy).Contents (Elt F) → (⟨S1024x256, .f32⟩ : BufTy).Contents (Elt F) → (⟨S32768x256, .f32⟩ : BufTy).Contents (Elt F)),
    unary main_arg4 main_v2 (broadcastInDim S1x256 ![1] bcast_S256_S1x256_1 : (⟨S256, .f32⟩ : BufTy).Contents (Elt F) → (⟨S1x256, .f32⟩ : BufTy).Contents (Elt F)),
    unary main_v2 main_v3 (broadcastInDim S32768x256 ![0, 1] bcast_S1x256_S32768x256_0_1 : (⟨S1x256, .f32⟩ : BufTy).Contents (Elt F) → (⟨S32768x256, .f32⟩ : BufTy).Contents (Elt F)),
    binary main_v1 main_v3 main_v4 (addf : (⟨S32768x256, .f32⟩ : BufTy).Contents (Elt F) → (⟨S32768x256, .f32⟩ : BufTy).Contents (Elt F) → (⟨S32768x256, .f32⟩ : BufTy).Contents (Elt F)),
    unary main_arg5 main_v5 ((transpose S256x256 [1, 0] · transposes_S256x256_S256x256_1_0) : (⟨S256x256, .f32⟩ : BufTy).Contents (Elt F) → (⟨S256x256, .f32⟩ : BufTy).Contents (Elt F)),
    binary main_v4 main_v5 main_v6 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg6 main_v7 (broadcastInDim S1x256 ![1] bcast_S256_S1x256_1 : (⟨S256, .f32⟩ : BufTy).Contents (Elt F) → (⟨S1x256, .f32⟩ : BufTy).Contents (Elt F)),
    unary main_v7 main_v8 (broadcastInDim S32768x256 ![0, 1] bcast_S1x256_S32768x256_0_1 : (⟨S1x256, .f32⟩ : BufTy).Contents (Elt F) → (⟨S32768x256, .f32⟩ : BufTy).Contents (Elt F)),
    binary main_v6 main_v8 main_v9 (addf : (⟨S32768x256, .f32⟩ : BufTy).Contents (Elt F) → (⟨S32768x256, .f32⟩ : BufTy).Contents (Elt F) → (⟨S32768x256, .f32⟩ : BufTy).Contents (Elt F)),
    unary main_arg13 main_v10 ((transpose S256x256 [1, 0] · transposes_S256x256_S256x256_1_0) : (⟨S256x256, .f32⟩ : BufTy).Contents (Elt F) → (⟨S256x256, .f32⟩ : BufTy).Contents (Elt F)),
    binary main_arg1 main_v10 main_v11 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    binary main_v9 main_v11 main_v12 (addf : (⟨S32768x256, .f32⟩ : BufTy).Contents (Elt F) → (⟨S32768x256, .f32⟩ : BufTy).Contents (Elt F) → (⟨S32768x256, .f32⟩ : BufTy).Contents (Elt F)),
    unary main_arg14 main_v13 (broadcastInDim S1x256 ![1] bcast_S256_S1x256_1 : (⟨S256, .f32⟩ : BufTy).Contents (Elt F) → (⟨S1x256, .f32⟩ : BufTy).Contents (Elt F)),
    unary main_v13 main_v14 (broadcastInDim S32768x256 ![0, 1] bcast_S1x256_S32768x256_0_1 : (⟨S1x256, .f32⟩ : BufTy).Contents (Elt F) → (⟨S32768x256, .f32⟩ : BufTy).Contents (Elt F)),
    binary main_v12 main_v14 main_v15 (addf : (⟨S32768x256, .f32⟩ : BufTy).Contents (Elt F) → (⟨S32768x256, .f32⟩ : BufTy).Contents (Elt F) → (⟨S32768x256, .f32⟩ : BufTy).Contents (Elt F)),
    unary main_v15 main_v16 (Host.negf : (⟨S32768x256, .f32⟩ : BufTy).Contents (Elt F) → (⟨S32768x256, .f32⟩ : BufTy).Contents (Elt F)),
    unary main_v16 main_v17 (Host.exp : (⟨S32768x256, .f32⟩ : BufTy).Contents (Elt F) → (⟨S32768x256, .f32⟩ : BufTy).Contents (Elt F)),
    nullary main_cst (constant S_ .f32 0x3F800000#32),
    unary main_cst main_v18 (broadcastInDim S32768x256 ![] bcast_S_S32768x256 : (⟨S_, .f32⟩ : BufTy).Contents (Elt F) → (⟨S32768x256, .f32⟩ : BufTy).Contents (Elt F)),
    binary main_v18 main_v17 main_v19 (addf : (⟨S32768x256, .f32⟩ : BufTy).Contents (Elt F) → (⟨S32768x256, .f32⟩ : BufTy).Contents (Elt F) → (⟨S32768x256, .f32⟩ : BufTy).Contents (Elt F)),
    nullary main_cst_0 (constant S_ .f32 0x3F800000#32),
    unary main_cst_0 main_v20 (broadcastInDim S32768x256 ![] bcast_S_S32768x256 : (⟨S_, .f32⟩ : BufTy).Contents (Elt F) → (⟨S32768x256, .f32⟩ : BufTy).Contents (Elt F)),
    binary main_v20 main_v19 main_v21 (Host.divf : (⟨S32768x256, .f32⟩ : BufTy).Contents (Elt F) → (⟨S32768x256, .f32⟩ : BufTy).Contents (Elt F) → (⟨S32768x256, .f32⟩ : BufTy).Contents (Elt F)),
    unary main_arg7 main_v22 ((transpose S256x256 [1, 0] · transposes_S256x256_S256x256_1_0) : (⟨S256x256, .f32⟩ : BufTy).Contents (Elt F) → (⟨S256x256, .f32⟩ : BufTy).Contents (Elt F)),
    binary main_v4 main_v22 main_v23 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg8 main_v24 (broadcastInDim S1x256 ![1] bcast_S256_S1x256_1 : (⟨S256, .f32⟩ : BufTy).Contents (Elt F) → (⟨S1x256, .f32⟩ : BufTy).Contents (Elt F)),
    unary main_v24 main_v25 (broadcastInDim S32768x256 ![0, 1] bcast_S1x256_S32768x256_0_1 : (⟨S1x256, .f32⟩ : BufTy).Contents (Elt F) → (⟨S32768x256, .f32⟩ : BufTy).Contents (Elt F)),
    binary main_v23 main_v25 main_v26 (addf : (⟨S32768x256, .f32⟩ : BufTy).Contents (Elt F) → (⟨S32768x256, .f32⟩ : BufTy).Contents (Elt F) → (⟨S32768x256, .f32⟩ : BufTy).Contents (Elt F)),
    unary main_arg15 main_v27 ((transpose S256x256 [1, 0] · transposes_S256x256_S256x256_1_0) : (⟨S256x256, .f32⟩ : BufTy).Contents (Elt F) → (⟨S256x256, .f32⟩ : BufTy).Contents (Elt F)),
    binary main_arg1 main_v27 main_v28 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    binary main_v26 main_v28 main_v29 (addf : (⟨S32768x256, .f32⟩ : BufTy).Contents (Elt F) → (⟨S32768x256, .f32⟩ : BufTy).Contents (Elt F) → (⟨S32768x256, .f32⟩ : BufTy).Contents (Elt F)),
    unary main_arg16 main_v30 (broadcastInDim S1x256 ![1] bcast_S256_S1x256_1 : (⟨S256, .f32⟩ : BufTy).Contents (Elt F) → (⟨S1x256, .f32⟩ : BufTy).Contents (Elt F)),
    unary main_v30 main_v31 (broadcastInDim S32768x256 ![0, 1] bcast_S1x256_S32768x256_0_1 : (⟨S1x256, .f32⟩ : BufTy).Contents (Elt F) → (⟨S32768x256, .f32⟩ : BufTy).Contents (Elt F)),
    binary main_v29 main_v31 main_v32 (addf : (⟨S32768x256, .f32⟩ : BufTy).Contents (Elt F) → (⟨S32768x256, .f32⟩ : BufTy).Contents (Elt F) → (⟨S32768x256, .f32⟩ : BufTy).Contents (Elt F)),
    unary main_v32 main_v33 (Host.negf : (⟨S32768x256, .f32⟩ : BufTy).Contents (Elt F) → (⟨S32768x256, .f32⟩ : BufTy).Contents (Elt F)),
    unary main_v33 main_v34 (Host.exp : (⟨S32768x256, .f32⟩ : BufTy).Contents (Elt F) → (⟨S32768x256, .f32⟩ : BufTy).Contents (Elt F)),
    nullary main_cst_1 (constant S_ .f32 0x3F800000#32),
    unary main_cst_1 main_v35 (broadcastInDim S32768x256 ![] bcast_S_S32768x256 : (⟨S_, .f32⟩ : BufTy).Contents (Elt F) → (⟨S32768x256, .f32⟩ : BufTy).Contents (Elt F)),
    binary main_v35 main_v34 main_v36 (addf : (⟨S32768x256, .f32⟩ : BufTy).Contents (Elt F) → (⟨S32768x256, .f32⟩ : BufTy).Contents (Elt F) → (⟨S32768x256, .f32⟩ : BufTy).Contents (Elt F)),
    nullary main_cst_2 (constant S_ .f32 0x3F800000#32),
    unary main_cst_2 main_v37 (broadcastInDim S32768x256 ![] bcast_S_S32768x256 : (⟨S_, .f32⟩ : BufTy).Contents (Elt F) → (⟨S32768x256, .f32⟩ : BufTy).Contents (Elt F)),
    binary main_v37 main_v36 main_v38 (Host.divf : (⟨S32768x256, .f32⟩ : BufTy).Contents (Elt F) → (⟨S32768x256, .f32⟩ : BufTy).Contents (Elt F) → (⟨S32768x256, .f32⟩ : BufTy).Contents (Elt F)),
    unary main_arg9 main_v39 ((transpose S256x256 [1, 0] · transposes_S256x256_S256x256_1_0) : (⟨S256x256, .f32⟩ : BufTy).Contents (Elt F) → (⟨S256x256, .f32⟩ : BufTy).Contents (Elt F)),
    binary main_v4 main_v39 main_v40 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg10 main_v41 (broadcastInDim S1x256 ![1] bcast_S256_S1x256_1 : (⟨S256, .f32⟩ : BufTy).Contents (Elt F) → (⟨S1x256, .f32⟩ : BufTy).Contents (Elt F)),
    unary main_v41 main_v42 (broadcastInDim S32768x256 ![0, 1] bcast_S1x256_S32768x256_0_1 : (⟨S1x256, .f32⟩ : BufTy).Contents (Elt F) → (⟨S32768x256, .f32⟩ : BufTy).Contents (Elt F)),
    binary main_v40 main_v42 main_v43 (addf : (⟨S32768x256, .f32⟩ : BufTy).Contents (Elt F) → (⟨S32768x256, .f32⟩ : BufTy).Contents (Elt F) → (⟨S32768x256, .f32⟩ : BufTy).Contents (Elt F)),
    unary main_arg17 main_v44 ((transpose S256x256 [1, 0] · transposes_S256x256_S256x256_1_0) : (⟨S256x256, .f32⟩ : BufTy).Contents (Elt F) → (⟨S256x256, .f32⟩ : BufTy).Contents (Elt F)),
    binary main_arg1 main_v44 main_v45 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    binary main_v43 main_v45 main_v46 (addf : (⟨S32768x256, .f32⟩ : BufTy).Contents (Elt F) → (⟨S32768x256, .f32⟩ : BufTy).Contents (Elt F) → (⟨S32768x256, .f32⟩ : BufTy).Contents (Elt F)),
    unary main_arg18 main_v47 (broadcastInDim S1x256 ![1] bcast_S256_S1x256_1 : (⟨S256, .f32⟩ : BufTy).Contents (Elt F) → (⟨S1x256, .f32⟩ : BufTy).Contents (Elt F)),
    unary main_v47 main_v48 (broadcastInDim S32768x256 ![0, 1] bcast_S1x256_S32768x256_0_1 : (⟨S1x256, .f32⟩ : BufTy).Contents (Elt F) → (⟨S32768x256, .f32⟩ : BufTy).Contents (Elt F)),
    binary main_v46 main_v48 main_v49 (addf : (⟨S32768x256, .f32⟩ : BufTy).Contents (Elt F) → (⟨S32768x256, .f32⟩ : BufTy).Contents (Elt F) → (⟨S32768x256, .f32⟩ : BufTy).Contents (Elt F)),
    unary main_v49 main_v50 (Host.tanh : (⟨S32768x256, .f32⟩ : BufTy).Contents (Elt F) → (⟨S32768x256, .f32⟩ : BufTy).Contents (Elt F)),
    binary main_v21 main_arg2 main_v51 (mulf : (⟨S32768x256, .f32⟩ : BufTy).Contents (Elt F) → (⟨S32768x256, .f32⟩ : BufTy).Contents (Elt F) → (⟨S32768x256, .f32⟩ : BufTy).Contents (Elt F)),
    binary main_v38 main_v50 main_v52 (mulf : (⟨S32768x256, .f32⟩ : BufTy).Contents (Elt F) → (⟨S32768x256, .f32⟩ : BufTy).Contents (Elt F) → (⟨S32768x256, .f32⟩ : BufTy).Contents (Elt F)),
    binary main_v51 main_v52 main_v53 (addf : (⟨S32768x256, .f32⟩ : BufTy).Contents (Elt F) → (⟨S32768x256, .f32⟩ : BufTy).Contents (Elt F) → (⟨S32768x256, .f32⟩ : BufTy).Contents (Elt F)),
    unary main_arg11 main_v54 ((transpose S256x256 [1, 0] · transposes_S256x256_S256x256_1_0) : (⟨S256x256, .f32⟩ : BufTy).Contents (Elt F) → (⟨S256x256, .f32⟩ : BufTy).Contents (Elt F)),
    binary main_v4 main_v54 main_v55 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg12 main_v56 (broadcastInDim S1x256 ![1] bcast_S256_S1x256_1 : (⟨S256, .f32⟩ : BufTy).Contents (Elt F) → (⟨S1x256, .f32⟩ : BufTy).Contents (Elt F)),
    unary main_v56 main_v57 (broadcastInDim S32768x256 ![0, 1] bcast_S1x256_S32768x256_0_1 : (⟨S1x256, .f32⟩ : BufTy).Contents (Elt F) → (⟨S32768x256, .f32⟩ : BufTy).Contents (Elt F)),
    binary main_v55 main_v57 main_v58 (addf : (⟨S32768x256, .f32⟩ : BufTy).Contents (Elt F) → (⟨S32768x256, .f32⟩ : BufTy).Contents (Elt F) → (⟨S32768x256, .f32⟩ : BufTy).Contents (Elt F)),
    unary main_arg19 main_v59 ((transpose S256x256 [1, 0] · transposes_S256x256_S256x256_1_0) : (⟨S256x256, .f32⟩ : BufTy).Contents (Elt F) → (⟨S256x256, .f32⟩ : BufTy).Contents (Elt F)),
    binary main_arg1 main_v59 main_v60 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    binary main_v58 main_v60 main_v61 (addf : (⟨S32768x256, .f32⟩ : BufTy).Contents (Elt F) → (⟨S32768x256, .f32⟩ : BufTy).Contents (Elt F) → (⟨S32768x256, .f32⟩ : BufTy).Contents (Elt F)),
    unary main_arg20 main_v62 (broadcastInDim S1x256 ![1] bcast_S256_S1x256_1 : (⟨S256, .f32⟩ : BufTy).Contents (Elt F) → (⟨S1x256, .f32⟩ : BufTy).Contents (Elt F)),
    unary main_v62 main_v63 (broadcastInDim S32768x256 ![0, 1] bcast_S1x256_S32768x256_0_1 : (⟨S1x256, .f32⟩ : BufTy).Contents (Elt F) → (⟨S32768x256, .f32⟩ : BufTy).Contents (Elt F)),
    binary main_v61 main_v63 main_v64 (addf : (⟨S32768x256, .f32⟩ : BufTy).Contents (Elt F) → (⟨S32768x256, .f32⟩ : BufTy).Contents (Elt F) → (⟨S32768x256, .f32⟩ : BufTy).Contents (Elt F)),
    unary main_v64 main_v65 (Host.negf : (⟨S32768x256, .f32⟩ : BufTy).Contents (Elt F) → (⟨S32768x256, .f32⟩ : BufTy).Contents (Elt F)),
    unary main_v65 main_v66 (Host.exp : (⟨S32768x256, .f32⟩ : BufTy).Contents (Elt F) → (⟨S32768x256, .f32⟩ : BufTy).Contents (Elt F)),
    nullary main_cst_3 (constant S_ .f32 0x3F800000#32),
    unary main_cst_3 main_v67 (broadcastInDim S32768x256 ![] bcast_S_S32768x256 : (⟨S_, .f32⟩ : BufTy).Contents (Elt F) → (⟨S32768x256, .f32⟩ : BufTy).Contents (Elt F)),
    binary main_v67 main_v66 main_v68 (addf : (⟨S32768x256, .f32⟩ : BufTy).Contents (Elt F) → (⟨S32768x256, .f32⟩ : BufTy).Contents (Elt F) → (⟨S32768x256, .f32⟩ : BufTy).Contents (Elt F)),
    nullary main_cst_4 (constant S_ .f32 0x3F800000#32),
    unary main_cst_4 main_v69 (broadcastInDim S32768x256 ![] bcast_S_S32768x256 : (⟨S_, .f32⟩ : BufTy).Contents (Elt F) → (⟨S32768x256, .f32⟩ : BufTy).Contents (Elt F)),
    binary main_v69 main_v68 main_v70 (Host.divf : (⟨S32768x256, .f32⟩ : BufTy).Contents (Elt F) → (⟨S32768x256, .f32⟩ : BufTy).Contents (Elt F) → (⟨S32768x256, .f32⟩ : BufTy).Contents (Elt F)),
    unary main_v53 main_v71 (Host.tanh : (⟨S32768x256, .f32⟩ : BufTy).Contents (Elt F) → (⟨S32768x256, .f32⟩ : BufTy).Contents (Elt F)),
    binary main_v70 main_v71 main_v72 (mulf : (⟨S32768x256, .f32⟩ : BufTy).Contents (Elt F) → (⟨S32768x256, .f32⟩ : BufTy).Contents (Elt F) → (⟨S32768x256, .f32⟩ : BufTy).Contents (Elt F)),
    unary main_arg21 main_v73 ((transpose S256x2 [1, 0] · transposes_S2x256_S256x2_1_0) : (⟨S2x256, .f32⟩ : BufTy).Contents (Elt F) → (⟨S256x2, .f32⟩ : BufTy).Contents (Elt F)),
    binary main_v72 main_v73 main_v74 ((fun l r => Host.dotGeneral dot_S32768x256_S256x2_S32768x2_1_0_0_1_n_n none l r) : (⟨S32768x256, .f32⟩ : BufTy).Contents (Elt F) → (⟨S256x2, .f32⟩ : BufTy).Contents (Elt F) → (⟨S32768x2, .f32⟩ : BufTy).Contents (Elt F)),
    unary main_arg22 main_v75 (broadcastInDim S1x2 ![1] bcast_S2_S1x2_1 : (⟨S2, .f32⟩ : BufTy).Contents (Elt F) → (⟨S1x2, .f32⟩ : BufTy).Contents (Elt F)),
    unary main_v75 main_v76 (broadcastInDim S32768x2 ![0, 1] bcast_S1x2_S32768x2_0_1 : (⟨S1x2, .f32⟩ : BufTy).Contents (Elt F) → (⟨S32768x2, .f32⟩ : BufTy).Contents (Elt F)),
    binary main_v74 main_v76 main_v77 (addf : (⟨S32768x2, .f32⟩ : BufTy).Contents (Elt F) → (⟨S32768x2, .f32⟩ : BufTy).Contents (Elt F) → (⟨S32768x2, .f32⟩ : BufTy).Contents (Elt F)) ]

/-- The last 15 operations: the called log-softmax over the logits, in the call's buffers. -/
abbrev opsB : List (HloOp τ sig (Elt F)) :=
  [ TRef.nullary (TRef.of (T := ⟨S_, .f32⟩) main_call0_cst) (constant S_ .f32 0xFF800000#32),
    TRef.binary (TRef.of (T := ⟨S32768x2, .f32⟩) main_v77) (TRef.of (T := ⟨S_, .f32⟩) main_call0_cst) (TRef.of (T := ⟨S32768, .f32⟩) main_call0_v0) (fun x v => Host.reduce FloatOps.maximumf x v reducesTo_S32768x2_S32768_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S32768, .f32⟩) main_call0_v1) (broadcastInDim S32768 ![] bcast_S_S32768),
    TRef.binary (TRef.of (T := ⟨S32768, .f32⟩) main_call0_v1) (TRef.of (T := ⟨S32768, .f32⟩) main_call0_v0) (TRef.of (T := ⟨S32768, .f32⟩) main_call0_v2) maximumf,
    TRef.unary (TRef.of (T := ⟨S32768, .f32⟩) main_call0_v2) (TRef.of (T := ⟨S32768x1, .f32⟩) main_call0_v3) (broadcastInDim S32768x1 ![0] bcast_S32768_S32768x1_0),
    TRef.unary (TRef.of (T := ⟨S32768x1, .f32⟩) main_call0_v3) (TRef.of (T := ⟨S32768x2, .f32⟩) main_call0_v4) (broadcastInDim S32768x2 ![0, 1] bcast_S32768x1_S32768x2_0_1),
    TRef.binary (TRef.of (T := ⟨S32768x2, .f32⟩) main_v77) (TRef.of (T := ⟨S32768x2, .f32⟩) main_call0_v4) (TRef.of (T := ⟨S32768x2, .f32⟩) main_call0_v5) subf,
    TRef.unary (TRef.of (T := ⟨S32768x2, .f32⟩) main_call0_v5) (TRef.of (T := ⟨S32768x2, .f32⟩) main_call0_v6) Host.exp,
    TRef.nullary (TRef.of (T := ⟨S_, .f32⟩) main_call0_cst_1) (constant S_ .f32 0x00000000#32),
    TRef.binary (TRef.of (T := ⟨S32768x2, .f32⟩) main_call0_v6) (TRef.of (T := ⟨S_, .f32⟩) main_call0_cst_1) (TRef.of (T := ⟨S32768, .f32⟩) main_call0_v7) (fun x v => Host.reduceAdd x v reducesTo_S32768x2_S32768_d1 h_S_),
    TRef.unary (TRef.of (T := ⟨S32768, .f32⟩) main_call0_v7) (TRef.of (T := ⟨S32768x1, .f32⟩) main_call0_v8) (broadcastInDim S32768x1 ![0] bcast_S32768_S32768x1_0),
    TRef.unary (TRef.of (T := ⟨S32768x1, .f32⟩) main_call0_v8) (TRef.of (T := ⟨S32768x1, .f32⟩) main_call0_v9) Host.log,
    TRef.unary (TRef.of (T := ⟨S32768x1, .f32⟩) main_call0_v9) (TRef.of (T := ⟨S32768x2, .f32⟩) main_call0_v10) (broadcastInDim S32768x2 ![0, 1] bcast_S32768x1_S32768x2_0_1),
    TRef.binary (TRef.of (T := ⟨S32768x2, .f32⟩) main_call0_v5) (TRef.of (T := ⟨S32768x2, .f32⟩) main_call0_v10) (TRef.of (T := ⟨S32768x2, .f32⟩) main_v78) subf ]

/-- The whole line is the two parts in order. -/
theorem ops_split : (ops : List (HloOp τ sig (Elt F))) = opsA ++ opsB := rfl

/-- Contents moved to a typed reference's buffer type and back are the contents. -/
theorem ofBuf_toBuf {T : BufTy} (x : TRef sig T) (v : T.Contents (Elt F)) : x.ofBuf (x.toBuf v) = v := by
  obtain ⟨r, h, _, _⟩ := x
  subst h
  rfl

/-- Every buffer some operation writes: the operations' results, in order. -/
def written : List (Ref sig .tc) :=
  [main_v0, main_v1, main_v2, main_v3, main_v4, main_v5, main_v6, main_v7, main_v8, main_v9, main_v10, main_v11, main_v12, main_v13, main_v14, main_v15, main_v16, main_v17, main_cst, main_v18, main_v19, main_cst_0, main_v20, main_v21, main_v22, main_v23, main_v24, main_v25, main_v26, main_v27, main_v28, main_v29, main_v30, main_v31, main_v32, main_v33, main_v34, main_cst_1, main_v35, main_v36, main_cst_2, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_cst_3, main_v67, main_v68, main_cst_4, main_v69, main_v70, main_v71, main_v72, main_v73, main_v74, main_v75, main_v76, main_v77, main_call0_cst, main_call0_v0, main_call0_cst_0, main_call0_v1, main_call0_v2, main_call0_v3, main_call0_v4, main_call0_v5, main_call0_v6, main_call0_cst_1, main_call0_v7, main_call0_v8, main_call0_v9, main_call0_v10, main_v78]

/-- Each operation writes one buffer, and it is in the list. -/
theorem writes_sub : (ops (F := Ideal)).Forall fun op => op.writes ⊆ (written.map (Proc.devRef (τ := τ) .tc)).toFinset := by
  simp only [ops, List.Forall, unary_writes, binary_writes, nullary_writes, Finset.singleton_subset_iff, List.mem_toFinset]
  repeat' apply And.intro
  all_goals exact List.mem_map_of_mem (by decide)

/-- A buffer that is not among the written ones holds its launch contents at the end. -/
theorem kept (V : Valuation τ sig (Elt Ideal)) (r : Ref sig .tc) (hr : r ∉ written) :
    after (ops (F := Ideal)) V (Proc.devRef .tc r) = V (Proc.devRef .tc r) :=
  after_of_writes_sub (ops (F := Ideal)) V writes_sub hr

set_option maxRecDepth 65536 in
set_option maxHeartbeats 4000000 in
/-- At the end the cell buffer holds the staged new cell of the arguments' launch contents. -/
theorem cell_after (m : (ℓ : Loc nD τ sig) → Buf (Elt Ideal) ℓ) (c : Dev nD) :
    after (ops (F := Ideal)) (launchContents m c) (Proc.devRef .tc main_v53)
      = Cert.RefStages.cellS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  after_results_simp
  unfold Cert.RefStages.cellS Cert.RefStages.sigS Cert.RefStages.gateS Cert.RefStages.embS Cert.RefStages.oneRows Cert.RefStages.biasRows
  rfl

set_option maxRecDepth 65536 in
set_option maxHeartbeats 4000000 in
/-- At the end the hidden-state buffer holds the staged new hidden state of the arguments' launch contents. -/
theorem hidden_after (m : (ℓ : Loc nD τ sig) → Buf (Elt Ideal) ℓ) (c : Dev nD) :
    after (ops (F := Ideal)) (launchContents m c) (Proc.devRef .tc main_v72)
      = Cert.RefStages.hiddenS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  after_results_simp
  unfold Cert.RefStages.hiddenS Cert.RefStages.cellS Cert.RefStages.sigS Cert.RefStages.gateS Cert.RefStages.embS Cert.RefStages.oneRows Cert.RefStages.biasRows
  rfl

set_option maxRecDepth 65536 in
set_option maxHeartbeats 8000000 in
/-- After the first 84 operations the logits buffer holds the staged logits of the arguments' launch contents. -/
theorem logits_after (m : (ℓ : Loc nD τ sig) → Buf (Elt Ideal) ℓ) (c : Dev nD) :
    after (opsA (F := Ideal)) (launchContents m c) (Proc.devRef .tc main_v77)
      = Cert.RefStages.logitsS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  after_results_simp
  unfold Cert.RefStages.logitsS Cert.RefStages.hiddenS Cert.RefStages.cellS Cert.RefStages.sigS Cert.RefStages.gateS Cert.RefStages.embS Cert.RefStages.oneRows Cert.RefStages.biasRows
  rfl

set_option maxRecDepth 65536 in
set_option maxHeartbeats 4000000 in
/-- The last 15 operations leave in the output buffer the log-softmax of what the logits buffer held. -/
theorem tail_after (W : Valuation τ sig (Elt Ideal)) :
    after (opsB (F := Ideal)) W (Proc.devRef .tc main_v78)
      = Cert.LibLogSoftmaxRows.hLogSoftmax (W (Proc.devRef .tc main_v77))
          reducesTo_S32768x2_S32768_d1 h_S_ bcast_S_S32768 bcast_S32768_S32768x1_0 bcast_S32768x1_S32768x2_0_1 := by
  after_results_simp
  simp only [ofBuf_toBuf]
  unfold Cert.LibLogSoftmaxRows.hLogSoftmax Cert.LibLogSoftmaxRows.hShifted Cert.LibLogSoftmaxRows.hMaxSpread
  rfl

/-- At the end the output buffer holds the staged log-probabilities of the arguments' launch contents: the
    log-softmax, by the last 15 operations, of the logits the first 84 leave. -/
theorem logp_after (m : (ℓ : Loc nD τ sig) → Buf (Elt Ideal) ℓ) (c : Dev nD) :
    after (ops (F := Ideal)) (launchContents m c) (Proc.devRef .tc main_v78)
      = Cert.RefStages.logpS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  rw [ops_split, after_append]
  refine (tail_after _).trans ?_
  unfold Cert.RefStages.logpS
  exact congrArg (fun L => Cert.LibLogSoftmaxRows.hLogSoftmax L reducesTo_S32768x2_S32768_d1 h_S_ bcast_S_S32768
    bcast_S32768_S32768x1_0 bcast_S32768x1_S32768x2_0_1) (logits_after m c)

/-- On every device, from any memory with zero counters: every weakly fair execution of the reference's @main
    terminates with the three result buffers at the staged results of the arguments' launch contents and every
    argument buffer unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = Cert.RefStages.logpS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v72) = Cert.RefStages.hiddenS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v53) = Cert.RefStages.cellS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v78).trans (logp_after m c),
      (h c main_v72).trans (hidden_after m c),
      (h c main_v53).trans (cell_after m c),
      (h c main_arg0).trans (kept (launchContents m c) main_arg0 (by decide)),
      (h c main_arg1).trans (kept (launchContents m c) main_arg1 (by decide)),
      (h c main_arg2).trans (kept (launchContents m c) main_arg2 (by decide)),
      (h c main_arg3).trans (kept (launchContents m c) main_arg3 (by decide)),
      (h c main_arg4).trans (kept (launchContents m c) main_arg4 (by decide)),
      (h c main_arg5).trans (kept (launchContents m c) main_arg5 (by decide)),
      (h c main_arg6).trans (kept (launchContents m c) main_arg6 (by decide)),
      (h c main_arg7).trans (kept (launchContents m c) main_arg7 (by decide)),
      (h c main_arg8).trans (kept (launchContents m c) main_arg8 (by decide)),
      (h c main_arg9).trans (kept (launchContents m c) main_arg9 (by decide)),
      (h c main_arg10).trans (kept (launchContents m c) main_arg10 (by decide)),
      (h c main_arg11).trans (kept (launchContents m c) main_arg11 (by decide)),
      (h c main_arg12).trans (kept (launchContents m c) main_arg12 (by decide)),
      (h c main_arg13).trans (kept (launchContents m c) main_arg13 (by decide)),
      (h c main_arg14).trans (kept (launchContents m c) main_arg14 (by decide)),
      (h c main_arg15).trans (kept (launchContents m c) main_arg15 (by decide)),
      (h c main_arg16).trans (kept (launchContents m c) main_arg16 (by decide)),
      (h c main_arg17).trans (kept (launchContents m c) main_arg17 (by decide)),
      (h c main_arg18).trans (kept (launchContents m c) main_arg18 (by decide)),
      (h c main_arg19).trans (kept (launchContents m c) main_arg19 (by decide)),
      (h c main_arg20).trans (kept (launchContents m c) main_arg20 (by decide)),
      (h c main_arg21).trans (kept (launchContents m c) main_arg21 (by decide)),
      (h c main_arg22).trans (kept (launchContents m c) main_arg22 (by decide))⟩)
    (run_seq scopedRefs_eq scopedSems_eq defs main (fun _ => ops) main_eq (fun _ => ops_sub) m ρ)

end Cert.RefRun

end
-- ==== Proof.RefValue.lean ====
/-
  The reference's staged results (RefStages.lean) read at an index.  Its three results — the new cell state,
  the new hidden state and the log-probabilities — are, entry by entry, the functions of Spec.lean applied to
  the row of each batch input and to the weights read off the argument arrays, that is, the whole arrays that
  SpecArrays.lean names.  The reference computes every pre-activation in the grouping
  ((e·Wᵀ + b) + h·Whᵀ) + bh and spells the logistic function as the quotient 1 / (1 + e^(−t)), which are the
  grouping and the spelling of Spec.lean, so no algebra is needed: each operation is read at an index, a
  transposed weight matrix Wᵀ at (k, j) being W at (j, k), a bias spread over the rows at (r, j) being the bias
  at j, and a matrix product at (r, j) being the sum over k of the products of the entries (r, k) and (k, j).
-/
import Mathlib
import Idealize.ShloMosaic.PureOps.Ideal
import Idealize.ShloMosaic.PureOps.Ideal.Laws
import Idealize.ShloMosaic.Lib.Pipeline.Value
import Idealize.ShloMosaic.Lib.ValueIdx
import proofs.«115348_j53669911330986_2_alg».proof.Proof.RefStages
import proofs.«115348_j53669911330986_2_alg».proof.Proof.Spec
import proofs.«115348_j53669911330986_2_alg».proof.Proof.SpecArrays
import proofs.«115348_j53669911330986_2_alg».proof.Proof.LibDotRows
import proofs.«115348_j53669911330986_2_alg».proof.Proof.LibLogSoftmaxRows

noncomputable section

namespace Cert.RefValue

open Cert.ReferenceIdeal Cert.ReferenceIdeal.Gen Idealize.ShloMosaic Idealize.ShloMosaic.ValueIdx Cert.RefStages
open Cert

/-! ## Layout operations read at an index -/

/-- A bias [256] spread over the rows reads, at (r, j), the bias at j. -/
theorem biasRows_apply (b : FVec Ideal S256 .f32) (r : Fin 32768) (j : Fin 256) :
    biasRows b (ix2 r j) = b (ix1 j) := by
  unfold biasRows
  refine (broadcastInDim_apply _ bcast_S1x256_S32768x256_0_1 _ (ix2 r j) (ix2 (0 : Fin 1) j) (fun a => ?_)).trans ?_
  · match a with
    | ⟨0, _⟩ => show 0 = if (1 : Nat) = 1 then 0 else r.val; rw [if_pos rfl]
    | ⟨1, _⟩ => show j.val = if (256 : Nat) = 1 then 0 else j.val; rw [if_neg (by decide)]
  · exact broadcastInDim_apply _ bcast_S256_S1x256_1 b (ix2 (0 : Fin 1) j) (ix1 j) (fun a => match a with
      | ⟨0, _⟩ => by show j.val = if (256 : Nat) = 1 then 0 else j.val; rw [if_neg (by decide)])

/-- The bias [2] of the head spread over the rows reads, at (r, n), the bias at n. -/
theorem biasEnd_apply (b : FVec Ideal S2 .f32) (r : Fin 32768) (n : Fin 2) :
    broadcastInDim S32768x2 ![0, 1] bcast_S1x2_S32768x2_0_1 (broadcastInDim S1x2 ![1] bcast_S2_S1x2_1 b) (ix2 r n)
      = b (ix1 n) := by
  refine (broadcastInDim_apply _ bcast_S1x2_S32768x2_0_1 _ (ix2 r n) (ix2 (0 : Fin 1) n) (fun a => ?_)).trans ?_
  · match a with
    | ⟨0, _⟩ => show 0 = if (1 : Nat) = 1 then 0 else r.val; rw [if_pos rfl]
    | ⟨1, _⟩ => show n.val = if (2 : Nat) = 1 then 0 else n.val; rw [if_neg (by decide)]
  · exact broadcastInDim_apply _ bcast_S2_S1x2_1 b (ix2 (0 : Fin 1) n) (ix1 n) (fun a => match a with
      | ⟨0, _⟩ => by show n.val = if (2 : Nat) = 1 then 0 else n.val; rw [if_neg (by decide)])

/-- The transposed embedding matrix at (k, j) is the matrix at (j, k). -/
theorem transposeEmb_apply (w : FVec Ideal S256x1024 .f32) (k : Fin 1024) (j : Fin 256) :
    transpose S1024x256 [1, 0] w transposes_S256x1024_S1024x256_1_0 (ix2 k j) = w (ix2 j k) :=
  transpose_apply [1, 0] w transposes_S256x1024_S1024x256_1_0 (ix2 k j) (ix2 j k) (fun b => match b with
    | ⟨0, _⟩ => rfl
    | ⟨1, _⟩ => rfl)

/-- A transposed gate matrix at (k, j) is the matrix at (j, k). -/
theorem transposeGate_apply (w : FVec Ideal S256x256 .f32) (k j : Fin 256) :
    transpose S256x256 [1, 0] w transposes_S256x256_S256x256_1_0 (ix2 k j) = w (ix2 j k) :=
  transpose_apply [1, 0] w transposes_S256x256_S256x256_1_0 (ix2 k j) (ix2 j k) (fun b => match b with
    | ⟨0, _⟩ => rfl
    | ⟨1, _⟩ => rfl)

/-- The transposed head matrix at (k, n) is the matrix at (n, k). -/
theorem transposeEnd_apply (w : FVec Ideal S2x256 .f32) (k : Fin 256) (n : Fin 2) :
    transpose S256x2 [1, 0] w transposes_S2x256_S256x2_1_0 (ix2 k n) = w (ix2 n k) :=
  transpose_apply [1, 0] w transposes_S2x256_S256x2_1_0 (ix2 k n) (ix2 n k) (fun b => match b with
    | ⟨0, _⟩ => rfl
    | ⟨1, _⟩ => rfl)

/-! ## The three matrix products read at an entry

  Each dimension record contracts axis 1 of the left operand with axis 0 of the right one and has no batch
  axis: it is the plain product of LibDotRows.lean. -/

theorem dotEmb_rec : dot_S32768x1024_S1024x256_S32768x256_1_0_0_1_n_n = DotDims.plain 32768 1024 256 := rfl
theorem dotGate_rec : dot_S32768x256_S256x256_S32768x256_1_0_0_1_n_n = DotDims.plain 32768 256 256 := rfl
theorem dotEnd_rec : dot_S32768x256_S256x2_S32768x2_1_0_0_1_n_n = DotDims.plain 32768 256 2 := rfl

/-- x · Wᵀ at (r, j), W the [256, 1024] embedding matrix. -/
theorem dotEmb_apply (x : FVec Ideal S32768x1024 .f32) (w : FVec Ideal S256x1024 .f32) (r : Fin 32768) (j : Fin 256) :
    Host.dotGeneral (F := Ideal) dot_S32768x1024_S1024x256_S32768x256_1_0_0_1_n_n none x (transpose S1024x256 [1, 0] w transposes_S256x1024_S1024x256_1_0) (ix2 r j)
      = ∑ k : Fin 1024, x (ix2 r k) * w (ix2 j k) := by
  rw [dotEmb_rec]
  refine (Cert.Lib.DotRows.dotGeneral_plain_apply x _ r j).trans (Finset.sum_congr rfl fun k _ => ?_)
  exact congrArg (x (ix2 r k) * ·) (transposeEmb_apply w k j)

/-- e · Wᵀ at (r, j), W a [256, 256] gate matrix. -/
theorem dotGate_apply (e : FVec Ideal S32768x256 .f32) (w : FVec Ideal S256x256 .f32) (r : Fin 32768) (j : Fin 256) :
    Host.dotGeneral (F := Ideal) dot_S32768x256_S256x256_S32768x256_1_0_0_1_n_n none e (transpose S256x256 [1, 0] w transposes_S256x256_S256x256_1_0) (ix2 r j)
      = ∑ k : Fin 256, e (ix2 r k) * w (ix2 j k) := by
  rw [dotGate_rec]
  refine (Cert.Lib.DotRows.dotGeneral_plain_apply e _ r j).trans (Finset.sum_congr rfl fun k _ => ?_)
  exact congrArg (e (ix2 r k) * ·) (transposeGate_apply w k j)

/-- h' · Wendᵀ at (r, n), Wend the [2, 256] head matrix. -/
theorem dotEnd_apply (e : FVec Ideal S32768x256 .f32) (w : FVec Ideal S2x256 .f32) (r : Fin 32768) (n : Fin 2) :
    Host.dotGeneral (F := Ideal) dot_S32768x256_S256x2_S32768x2_1_0_0_1_n_n none e (transpose S256x2 [1, 0] w transposes_S2x256_S256x2_1_0) (ix2 r n)
      = ∑ k : Fin 256, e (ix2 r k) * w (ix2 n k) := by
  rw [dotEnd_rec]
  refine (Cert.Lib.DotRows.dotGeneral_plain_apply e _ r n).trans (Finset.sum_congr rfl fun k _ => ?_)
  exact congrArg (e (ix2 r k) * ·) (transposeEnd_apply w k n)

/-! ## The stages read at an entry -/

/-- A pre-activation ((e·Wᵀ + b) + h·Whᵀ) + bh at (r, j), for any arrays e and h. -/
theorem gateS_apply (e h : FVec Ideal S32768x256 .f32) (w : FVec Ideal S256x256 .f32) (b : FVec Ideal S256 .f32)
    (wh : FVec Ideal S256x256 .f32) (bh : FVec Ideal S256 .f32) (r : Fin 32768) (j : Fin 256) :
    gateS e h w b wh bh (ix2 r j)
      = LstmSpec.gate (fun k => h (ix2 r k)) (fun k => e (ix2 r k)) (fun j k => w (ix2 j k)) (fun j k => wh (ix2 j k))
          (fun j => b (ix1 j)) (fun j => bh (ix1 j)) j := by
  show ((((Host.dotGeneral (F := Ideal) dot_S32768x256_S256x256_S32768x256_1_0_0_1_n_n none e (transpose S256x256 [1, 0] w transposes_S256x256_S256x256_1_0) (ix2 r j) : EReal)
          + biasRows b (ix2 r j))
        + Host.dotGeneral (F := Ideal) dot_S32768x256_S256x256_S32768x256_1_0_0_1_n_n none h (transpose S256x256 [1, 0] wh transposes_S256x256_S256x256_1_0) (ix2 r j))
      + biasRows bh (ix2 r j))
    = (((∑ k, e (ix2 r k) * w (ix2 j k)) + b (ix1 j)) + ∑ k, h (ix2 r k) * wh (ix2 j k)) + bh (ix1 j)
  exact congrArg₂ (· + ·) (congrArg₂ (· + ·) (congrArg₂ (· + ·)
    (dotGate_apply e w r j) (biasRows_apply b r j)) (dotGate_apply h wh r j)) (biasRows_apply bh r j)

/-- The constant 1.0 spread over [32768, 256] reads the literal 1.0 everywhere. -/
theorem oneRows_apply (i : S32768x256.Idx) : oneRows i = LstmSpec.one :=
  (broadcastInDim_apply _ bcast_S_S32768x256 (constant (F := Ideal) S_ .f32 0x3F800000#32) i (fun a => a.elim0)
    (fun a => a.elim0)).trans rfl

/-- The logistic function of an array, entry by entry, is the logistic function of the entry. -/
theorem sigS_apply (g : FVec Ideal S32768x256 .f32) (i : S32768x256.Idx) : sigS g i = LstmSpec.sigm (g i) := by
  show Ideal.div (oneRows i) ((oneRows i : EReal) + Ideal.exp (-(g i)))
      = Ideal.div LstmSpec.one (LstmSpec.one + Ideal.exp (-(g i)))
  rw [oneRows_apply]

variable (x0 : FVec Ideal S32768x1024 .f32) (x1 x2 : FVec Ideal S32768x256 .f32) (x3 : FVec Ideal S256x1024 .f32) (x4 : FVec Ideal S256 .f32)
  (x5 : FVec Ideal S256x256 .f32) (x6 : FVec Ideal S256 .f32) (x7 : FVec Ideal S256x256 .f32) (x8 : FVec Ideal S256 .f32)
  (x9 : FVec Ideal S256x256 .f32) (x10 : FVec Ideal S256 .f32) (x11 : FVec Ideal S256x256 .f32) (x12 : FVec Ideal S256 .f32)
  (x13 : FVec Ideal S256x256 .f32) (x14 : FVec Ideal S256 .f32) (x15 : FVec Ideal S256x256 .f32) (x16 : FVec Ideal S256 .f32)
  (x17 : FVec Ideal S256x256 .f32) (x18 : FVec Ideal S256 .f32) (x19 : FVec Ideal S256x256 .f32) (x20 : FVec Ideal S256 .f32)
  (x21 : FVec Ideal S2x256 .f32) (x22 : FVec Ideal S2 .f32)

/-- The embedding x · Wembᵀ + bemb at (r, j). -/
theorem embS_apply (r : Fin 32768) (j : Fin 256) :
    embS x0 x3 x4 (ix2 r j) = LstmSpec.emb (LstmArrays.weights x3 x4 x5 x6 x7 x8 x9 x10 x11 x12 x13 x14 x15 x16 x17 x18 x19 x20 x21 x22) (fun k => x0 (ix2 r k)) j := by
  show ((Host.dotGeneral (F := Ideal) dot_S32768x1024_S1024x256_S32768x256_1_0_0_1_n_n none x0 (transpose S1024x256 [1, 0] x3 transposes_S256x1024_S1024x256_1_0) (ix2 r j) : EReal)
        + biasRows x4 (ix2 r j))
      = (∑ k, x0 (ix2 r k) * x3 (ix2 j k)) + x4 (ix1 j)
  exact congrArg₂ (· + ·) (dotEmb_apply x0 x3 r j) (biasRows_apply x4 r j)

/-- A gate's pre-activation at (r, j), on the embedding and the previous hidden state. -/
theorem gateRow_apply (w : FVec Ideal S256x256 .f32) (b : FVec Ideal S256 .f32) (wh : FVec Ideal S256x256 .f32)
    (bh : FVec Ideal S256 .f32) (r : Fin 32768) (j : Fin 256) :
    gateS (embS x0 x3 x4) x1 w b wh bh (ix2 r j) = LstmSpec.gate (fun k => x1 (ix2 r k)) (LstmSpec.emb (LstmArrays.weights x3 x4 x5 x6 x7 x8 x9 x10 x11 x12 x13 x14 x15 x16 x17 x18 x19 x20 x21 x22) (fun k => x0 (ix2 r k))) (fun j k => w (ix2 j k)) (fun j k => wh (ix2 j k)) (fun j => b (ix1 j)) (fun j => bh (ix1 j)) j := by
  refine (gateS_apply (embS x0 x3 x4) x1 w b wh bh r j).trans ?_
  exact congrArg (fun e : Fin 256 → EReal => LstmSpec.gate (fun k => x1 (ix2 r k)) e (fun j k => w (ix2 j k)) (fun j k => wh (ix2 j k))
    (fun j => b (ix1 j)) (fun j => bh (ix1 j)) j) (funext fun k => embS_apply x0 x3 x4 x5 x6 x7 x8 x9 x10 x11 x12 x13 x14 x15 x16 x17 x18 x19 x20 x21 x22 r k)

/-- The new cell state at (r, j). -/
theorem cellS_apply (r : Fin 32768) (j : Fin 256) :
    cellS x0 x1 x2 x3 x4 x5 x6 x7 x8 x9 x10 x13 x14 x15 x16 x17 x18 (ix2 r j) = LstmSpec.newCell (LstmArrays.weights x3 x4 x5 x6 x7 x8 x9 x10 x11 x12 x13 x14 x15 x16 x17 x18 x19 x20 x21 x22) (fun k => x0 (ix2 r k)) (fun k => x1 (ix2 r k)) (fun k => x2 (ix2 r k)) j := by
  show ((sigS (gateS (embS x0 x3 x4) x1 x5 x6 x13 x14) (ix2 r j) : EReal) * x2 (ix2 r j)
        + sigS (gateS (embS x0 x3 x4) x1 x7 x8 x15 x16) (ix2 r j)
          * Ideal.tanh (gateS (embS x0 x3 x4) x1 x9 x10 x17 x18 (ix2 r j)))
      = LstmSpec.sigm (LstmSpec.gate (fun k => x1 (ix2 r k)) (LstmSpec.emb (LstmArrays.weights x3 x4 x5 x6 x7 x8 x9 x10 x11 x12 x13 x14 x15 x16 x17 x18 x19 x20 x21 x22) (fun k => x0 (ix2 r k))) (fun j k => x5 (ix2 j k)) (fun j k => x13 (ix2 j k)) (fun j => x6 (ix1 j)) (fun j => x14 (ix1 j)) j) * x2 (ix2 r j)
        + LstmSpec.sigm (LstmSpec.gate (fun k => x1 (ix2 r k)) (LstmSpec.emb (LstmArrays.weights x3 x4 x5 x6 x7 x8 x9 x10 x11 x12 x13 x14 x15 x16 x17 x18 x19 x20 x21 x22) (fun k => x0 (ix2 r k))) (fun j k => x7 (ix2 j k)) (fun j k => x15 (ix2 j k)) (fun j => x8 (ix1 j)) (fun j => x16 (ix1 j)) j)
          * Ideal.tanh (LstmSpec.gate (fun k => x1 (ix2 r k)) (LstmSpec.emb (LstmArrays.weights x3 x4 x5 x6 x7 x8 x9 x10 x11 x12 x13 x14 x15 x16 x17 x18 x19 x20 x21 x22) (fun k => x0 (ix2 r k))) (fun j k => x9 (ix2 j k)) (fun j k => x17 (ix2 j k)) (fun j => x10 (ix1 j)) (fun j => x18 (ix1 j)) j)
  rw [sigS_apply, sigS_apply,
    gateRow_apply x0 x1 x3 x4 x5 x6 x7 x8 x9 x10 x11 x12 x13 x14 x15 x16 x17 x18 x19 x20 x21 x22 x5 x6 x13 x14 r j,
    gateRow_apply x0 x1 x3 x4 x5 x6 x7 x8 x9 x10 x11 x12 x13 x14 x15 x16 x17 x18 x19 x20 x21 x22 x7 x8 x15 x16 r j,
    gateRow_apply x0 x1 x3 x4 x5 x6 x7 x8 x9 x10 x11 x12 x13 x14 x15 x16 x17 x18 x19 x20 x21 x22 x9 x10 x17 x18 r j]

/-- The new hidden state at (r, j). -/
theorem hiddenS_apply (r : Fin 32768) (j : Fin 256) :
    hiddenS x0 x1 x2 x3 x4 x5 x6 x7 x8 x9 x10 x11 x12 x13 x14 x15 x16 x17 x18 x19 x20 (ix2 r j) = LstmSpec.newHidden (LstmArrays.weights x3 x4 x5 x6 x7 x8 x9 x10 x11 x12 x13 x14 x15 x16 x17 x18 x19 x20 x21 x22) (fun k => x0 (ix2 r k)) (fun k => x1 (ix2 r k)) (fun k => x2 (ix2 r k)) j := by
  show ((sigS (gateS (embS x0 x3 x4) x1 x11 x12 x19 x20) (ix2 r j) : EReal)
        * Ideal.tanh (cellS x0 x1 x2 x3 x4 x5 x6 x7 x8 x9 x10 x13 x14 x15 x16 x17 x18 (ix2 r j)))
      = LstmSpec.sigm (LstmSpec.gate (fun k => x1 (ix2 r k)) (LstmSpec.emb (LstmArrays.weights x3 x4 x5 x6 x7 x8 x9 x10 x11 x12 x13 x14 x15 x16 x17 x18 x19 x20 x21 x22) (fun k => x0 (ix2 r k))) (fun j k => x11 (ix2 j k)) (fun j k => x19 (ix2 j k)) (fun j => x12 (ix1 j)) (fun j => x20 (ix1 j)) j)
        * Ideal.tanh (LstmSpec.newCell (LstmArrays.weights x3 x4 x5 x6 x7 x8 x9 x10 x11 x12 x13 x14 x15 x16 x17 x18 x19 x20 x21 x22) (fun k => x0 (ix2 r k)) (fun k => x1 (ix2 r k)) (fun k => x2 (ix2 r k)) j)
  rw [sigS_apply, gateRow_apply x0 x1 x3 x4 x5 x6 x7 x8 x9 x10 x11 x12 x13 x14 x15 x16 x17 x18 x19 x20 x21 x22 x11 x12 x19 x20 r j, cellS_apply x0 x1 x2 x3 x4 x5 x6 x7 x8 x9 x10 x11 x12 x13 x14 x15 x16 x17 x18 x19 x20 x21 x22 r j]

/-- The logits h' · Wendᵀ + bend at (r, n). -/
theorem logitsS_apply (r : Fin 32768) (n : Fin 2) :
    logitsS x0 x1 x2 x3 x4 x5 x6 x7 x8 x9 x10 x11 x12 x13 x14 x15 x16 x17 x18 x19 x20 x21 x22 (ix2 r n) = LstmSpec.logits (LstmArrays.weights x3 x4 x5 x6 x7 x8 x9 x10 x11 x12 x13 x14 x15 x16 x17 x18 x19 x20 x21 x22) (fun k => x0 (ix2 r k)) (fun k => x1 (ix2 r k)) (fun k => x2 (ix2 r k)) n := by
  show ((Host.dotGeneral (F := Ideal) dot_S32768x256_S256x2_S32768x2_1_0_0_1_n_n none (hiddenS x0 x1 x2 x3 x4 x5 x6 x7 x8 x9 x10 x11 x12 x13 x14 x15 x16 x17 x18 x19 x20)
          (transpose S256x2 [1, 0] x21 transposes_S2x256_S256x2_1_0) (ix2 r n) : EReal)
        + broadcastInDim S32768x2 ![0, 1] bcast_S1x2_S32768x2_0_1 (broadcastInDim S1x2 ![1] bcast_S2_S1x2_1 x22) (ix2 r n))
      = (∑ k, LstmSpec.newHidden (LstmArrays.weights x3 x4 x5 x6 x7 x8 x9 x10 x11 x12 x13 x14 x15 x16 x17 x18 x19 x20 x21 x22) (fun k => x0 (ix2 r k)) (fun k => x1 (ix2 r k)) (fun k => x2 (ix2 r k)) k * x21 (ix2 n k)) + x22 (ix1 n)
  refine congrArg₂ (· + ·) ((dotEnd_apply (hiddenS x0 x1 x2 x3 x4 x5 x6 x7 x8 x9 x10 x11 x12 x13 x14 x15 x16 x17 x18 x19 x20) x21 r n).trans
    (Finset.sum_congr rfl fun k _ => ?_)) (biasEnd_apply x22 r n)
  exact congrArg (· * x21 (ix2 n k)) (hiddenS_apply x0 x1 x2 x3 x4 x5 x6 x7 x8 x9 x10 x11 x12 x13 x14 x15 x16 x17 x18 x19 x20 x21 x22 r k)

/-- The log-probabilities at (r, n). -/
theorem logpS_apply (r : Fin 32768) (n : Fin 2) :
    logpS x0 x1 x2 x3 x4 x5 x6 x7 x8 x9 x10 x11 x12 x13 x14 x15 x16 x17 x18 x19 x20 x21 x22 (ix2 r n) = LstmSpec.logp (LstmArrays.weights x3 x4 x5 x6 x7 x8 x9 x10 x11 x12 x13 x14 x15 x16 x17 x18 x19 x20 x21 x22) (fun k => x0 (ix2 r k)) (fun k => x1 (ix2 r k)) (fun k => x2 (ix2 r k)) n := by
  refine (LibLogSoftmaxRows.hLogSoftmax_apply (logitsS x0 x1 x2 x3 x4 x5 x6 x7 x8 x9 x10 x11 x12 x13 x14 x15 x16 x17 x18 x19 x20 x21 x22)
    reducesTo_S32768x2_S32768_d1 h_S_ bcast_S_S32768 bcast_S32768_S32768x1_0 bcast_S32768x1_S32768x2_0_1 r n).trans ?_
  show _ = LibRowKL.logSoftTwice (LstmSpec.logits (LstmArrays.weights x3 x4 x5 x6 x7 x8 x9 x10 x11 x12 x13 x14 x15 x16 x17 x18 x19 x20 x21 x22) (fun k => x0 (ix2 r k)) (fun k => x1 (ix2 r k)) (fun k => x2 (ix2 r k))) n
  exact congrArg (fun f : Fin 2 → EReal => LibRowKL.logSoftTwice f n) (funext fun n' => logitsS_apply x0 x1 x2 x3 x4 x5 x6 x7 x8 x9 x10 x11 x12 x13 x14 x15 x16 x17 x18 x19 x20 x21 x22 r n')

/-! ## The three results as whole arrays -/

/-- The new cell state, the whole array. -/
theorem cellS_eq : cellS x0 x1 x2 x3 x4 x5 x6 x7 x8 x9 x10 x13 x14 x15 x16 x17 x18 = LstmArrays.cellArr x0 x1 x2 x3 x4 x5 x6 x7 x8 x9 x10 x11 x12 x13 x14 x15 x16 x17 x18 x19 x20 x21 x22 := by
  funext i
  exact (congrArg (cellS x0 x1 x2 x3 x4 x5 x6 x7 x8 x9 x10 x13 x14 x15 x16 x17 x18) (eq_ix2 i)).trans (cellS_apply x0 x1 x2 x3 x4 x5 x6 x7 x8 x9 x10 x11 x12 x13 x14 x15 x16 x17 x18 x19 x20 x21 x22 (i 0) (i 1))

/-- The new hidden state, the whole array. -/
theorem hiddenS_eq : hiddenS x0 x1 x2 x3 x4 x5 x6 x7 x8 x9 x10 x11 x12 x13 x14 x15 x16 x17 x18 x19 x20 = LstmArrays.hiddenArr x0 x1 x2 x3 x4 x5 x6 x7 x8 x9 x10 x11 x12 x13 x14 x15 x16 x17 x18 x19 x20 x21 x22 := by
  funext i
  exact (congrArg (hiddenS x0 x1 x2 x3 x4 x5 x6 x7 x8 x9 x10 x11 x12 x13 x14 x15 x16 x17 x18 x19 x20) (eq_ix2 i)).trans (hiddenS_apply x0 x1 x2 x3 x4 x5 x6 x7 x8 x9 x10 x11 x12 x13 x14 x15 x16 x17 x18 x19 x20 x21 x22 (i 0) (i 1))

/-- The log-probabilities, the whole array. -/
theorem logpS_eq : logpS x0 x1 x2 x3 x4 x5 x6 x7 x8 x9 x10 x11 x12 x13 x14 x15 x16 x17 x18 x19 x20 x21 x22 = LstmArrays.logpArr x0 x1 x2 x3 x4 x5 x6 x7 x8 x9 x10 x11 x12 x13 x14 x15 x16 x17 x18 x19 x20 x21 x22 := by
  funext i
  exact (congrArg (logpS x0 x1 x2 x3 x4 x5 x6 x7 x8 x9 x10 x11 x12 x13 x14 x15 x16 x17 x18 x19 x20 x21 x22) (eq_ix2 i)).trans (logpS_apply x0 x1 x2 x3 x4 x5 x6 x7 x8 x9 x10 x11 x12 x13 x14 x15 x16 x17 x18 x19 x20 x21 x22 (i 0) (i 1))

end Cert.RefValue

end
-- ==== Proof.lean ====
/-
  One step of an LSTM cell with a two-class log-softmax head: a batch-tiled kernel against the plain array program.

  For every batch row, with e = x · Wembᵀ + bemb the embedding and pre_g = e · W_gᵀ + b_g + h · Wh_gᵀ + bh_g the four
  gate pre-activations, both programs compute c' = σ(pre_f) · c + σ(pre_i) · tanh(pre_c), h' = σ(pre_o) · tanh(c')
  and the log-softmax of h' · Wendᵀ + bend. The kernel walks the batch in 32 tiles of 1024 rows, reads the weights
  transposed, cast to bf16 and fused four gates to a matrix, adds the two biases after the two products, spells the
  logistic function ½ · tanh(½ · t) + ½, and slices the fused pre-activation back into gates. Over the extended
  reals a change of float format is the identity, a product into a zero accumulator is a plain sum, addition is
  commutative and associative, a column slice of a concatenation is the piece it came from, and
  ½ · tanh(½ · t) + ½ = 1 / (1 + e^(−t)) at every extended real. So each result array of the kernel and of the
  reference is the same function of the 23 argument arrays (Spec.lean row by row, SpecArrays.lean as whole arrays):
  the kernel's by KernelRows.lean (the body's arithmetic at a row), KIEntryValues.lean (the fused weights at an
  entry), KIBlocks.lean (which rows a grid point holds) and KIValue.lean (the write-backs cover the arrays); the
  reference's by RefStages.lean, RefValue.lean (its stages at an entry) and RefRun.lean (its run ends at the stages).
  Each kernel program runs to the end without a fault and leaves its arguments unchanged (K*Entry, K*Body, K*Run:
  the region's entry state, one call of the body, the pipelined run); so does the reference. The idealization
  rewrote nothing, so it is the kernel's own text read over the extended reals.
-/
import proofs.«115348_j53669911330986_2_alg».proof.Defs
import proofs.«115348_j53669911330986_2_alg».proof.Proof.Gen.Kernel
import proofs.«115348_j53669911330986_2_alg».proof.Proof.Gen.KernelIdeal
import proofs.«115348_j53669911330986_2_alg».proof.Proof.Gen.ReferenceIdeal
import proofs.«115348_j53669911330986_2_alg».proof.Proof.Gen.Pre_finite_inputs
import proofs.«115348_j53669911330986_2_alg».proof.Proof.KRun
import proofs.«115348_j53669911330986_2_alg».proof.Proof.KIValue
import proofs.«115348_j53669911330986_2_alg».proof.Proof.RefRun
import proofs.«115348_j53669911330986_2_alg».proof.Proof.RefValue
import Idealize.ShloMosaic.Adequacy
import Idealize.ShloMosaic.Init

noncomputable section

namespace Cert.Proof

open Idealize.ShloMosaic Idealize.SL.Sem

/-- The kernel as printed runs to the end and leaves its arguments unchanged. -/
theorem frame_k : Cert.frame_Kernel := fun m ρ _ => Cert.Kernel.Run.frame m ρ

/-- So does the kernel read over the extended reals. -/
theorem frame_ki : Cert.frame_KernelIdeal := fun m ρ _ => Cert.KernelIdeal.Run.frame m ρ

/-- So does the reference: its run, the results dropped. -/
theorem frame_ri : Cert.frame_ReferenceIdeal := fun m ρ _ =>
  (θ_run Cert.ReferenceIdeal.defs _ _).mono (fun _ h c => (h c).2.2.2) (Cert.RefRun.run m ρ)

set_option maxHeartbeats 2000000 in
/-- From memories agreeing on the arguments both programs end with the three results at the same arrays: the
    specification's arrays of the arguments. -/
theorem algebraic : Cert.algebraic_KernelIdeal_ReferenceIdeal := by
  intro m ρ m' ρ' _ hagree
  refine ⟨fun c => Cert.KernelIdeal.Arrays.logpG m c, fun c => Cert.KernelIdeal.Arrays.hiddenG m c,
    fun c => Cert.KernelIdeal.Arrays.cellG m c, Cert.KernelIdeal.Arrays.run m ρ, ?_⟩
  refine (θ_run Cert.ReferenceIdeal.defs _ _).mono (fun _ h c => ?_) (Cert.RefRun.run m' ρ')
  obtain ⟨e0, e1, e2, e3, e4, e5, e6, e7, e8, e9, e10, e11, e12, e13, e14, e15, e16, e17, e18, e19, e20, e21, e22⟩ := hagree c
  refine ⟨(h c).1.trans ?_, (h c).2.1.trans ?_, (h c).2.2.1.trans ?_, (h c).2.2.2⟩
  · rw [e0, e1, e2, e3, e4, e5, e6, e7, e8, e9, e10, e11, e12, e13, e14, e15, e16, e17, e18, e19, e20, e21, e22]
    exact Cert.RefValue.logpS_eq _ _ _ _ _ _ _ _ _ _ _ _ _ _ _ _ _ _ _ _ _ _ _
  · rw [e0, e1, e2, e3, e4, e5, e6, e7, e8, e9, e10, e11, e12, e13, e14, e15, e16, e17, e18, e19, e20]
    exact Cert.RefValue.hiddenS_eq _ _ _ _ _ _ _ _ _ _ _ _ _ _ _ _ _ _ _ _ _ _ _
  · rw [e0, e1, e2, e3, e4, e5, e6, e7, e8, e9, e10, e13, e14, e15, e16, e17, e18]
    exact Cert.RefValue.cellS_eq _ _ _ _ _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
